-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1x512x512 : Shape := ⟨4, ![8, 1, 512, 512]⟩
abbrev S8x1024x1024x2 : Shape := ⟨4, ![8, 1024, 1024, 2]⟩
abbrev S_ : Shape := ⟨0, ![]⟩

class Facts : Prop where
  bcast_S_S8x1x512x512 : S_.BroadcastsInDim S8x1x512x512 (![] : Fin 0 → Fin S8x1x512x512.rank)
  reducesTo_S8x1x512x512_S_d0_1_2_3 : S8x1x512x512.ReducesTo [0, 1, 2, 3] S_
  h_S_ : 0 < S_.numel
  bcast_S_S8x1024x1024x2 : S_.BroadcastsInDim S8x1024x1024x2 (![] : Fin 0 → Fin S8x1024x1024x2.rank)
  reducesTo_S8x1024x1024x2_S_d0_1_2_3 : S8x1024x1024x2.ReducesTo [0, 1, 2, 3] S_

variable [Facts]

def fn {F : FTy → Type} [FloatOps F] (main_arg0 : FVec F S8x1x512x512 .f32) (main_arg1 : FVec F S8x1024x1024x2 .f32) : IVec S_ 1 :=
  let main_v0 : FVec F S8x1x512x512 .f32 := Host.absf main_arg0
  let main_cst : FVec F S_ .f32 := constant S_ .f32 0x7F800000#32
  let main_v1 : FVec F S8x1x512x512 .f32 := broadcastInDim S8x1x512x512 ![] bcast_S_S8x1x512x512 main_cst
  let main_v2 : IVec S8x1x512x512 1 := cmpf .olt main_v0 main_v1
  let main_c : IVec S_ 1 := constantI S_ 1 1#1
  let main_v3 : IVec S_ 1 := (fun x v => Host.reduce IntOp.andi x v reducesTo_S8x1x512x512_S_d0_1_2_3 h_S_) main_v2 main_c
  let main_v4 : FVec F S8x1024x1024x2 .f32 := Host.absf main_arg1
  let main_cst_0 : FVec F S_ .f32 := constant S_ .f32 0x7F800000#32
  let main_v5 : FVec F S8x1024x1024x2 .f32 := broadcastInDim S8x1024x1024x2 ![] bcast_S_S8x1024x1024x2 main_cst_0
  let main_v6 : IVec S8x1024x1024x2 1 := cmpf .olt main_v4 main_v5
  let main_c_1 : IVec S_ 1 := constantI S_ 1 1#1
  let main_v7 : IVec S_ 1 := (fun x v => Host.reduce IntOp.andi x v reducesTo_S8x1024x1024x2_S_d0_1_2_3 h_S_) main_v6 main_c_1
  let main_v8 : IVec S_ 1 := andi main_v3 main_v7
  main_v8
-- ==== Kernel.lean ====
abbrev S8x1x512x512 : Shape := ⟨4, ![8, 1, 512, 512]⟩
abbrev S8x1024x1024x2 : Shape := ⟨4, ![8, 1024, 1024, 2]⟩
abbrev S8x1024x1024x1 : Shape := ⟨4, ![8, 1024, 1024, 1]⟩
abbrev S8x1024x1024 : Shape := ⟨3, ![8, 1024, 1024]⟩
abbrev S8x1x1048576 : Shape := ⟨3, ![8, 1, 1048576]⟩
abbrev S1x1x2048 : Shape := ⟨3, ![1, 1, 2048]⟩
abbrev S1x1x512x512 : Shape := ⟨4, ![1, 1, 512, 512]⟩
abbrev S2048 : Shape := ⟨1, ![2048]⟩
abbrev S512x512 : Shape := ⟨2, ![512, 512]⟩
abbrev S2048x512 : Shape := ⟨2, ![2048, 512]⟩
abbrev S2048x1 : Shape := ⟨2, ![2048, 1]⟩
abbrev S8x1x1024x1024 : Shape := ⟨4, ![8, 1, 1024, 1024]⟩

abbrev nBuf : Space → Nat
  | .hbm => 10
  | .vmem => 8
  | .smem => 0
  | _ => 0

abbrev bufTy : (tb : Table) → Fin (tcTables nBuf tb) → BufTy
  | .hbm, ⟨0, _⟩ => ⟨S8x1x512x512, .f32⟩
  | .hbm, ⟨1, _⟩ => ⟨S8x1024x1024x2, .f32⟩
  | .hbm, ⟨2, _⟩ => ⟨S8x1024x1024x1, .f32⟩
  | .hbm, ⟨3, _⟩ => ⟨S8x1024x1024, .f32⟩
  | .hbm, ⟨4, _⟩ => ⟨S8x1x1048576, .f32⟩
  | .hbm, ⟨5, _⟩ => ⟨S8x1024x1024x1, .f32⟩
  | .hbm, ⟨6, _⟩ => ⟨S8x1024x1024, .f32⟩
  | .hbm, ⟨7, _⟩ => ⟨S8x1x1048576, .f32⟩
  | .hbm, ⟨8, _⟩ => ⟨S8x1x1048576, .f32⟩
  | .hbm, ⟨9, _⟩ => ⟨S8x1x1024x1024, .f32⟩
  | .local _ .vmem, ⟨0, _⟩ => ⟨S1x1x2048, .f32⟩
  | .local _ .vmem, ⟨1, _⟩ => ⟨S1x1x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x512x512, .f32⟩
  | .local _ .vmem, ⟨5, _⟩ => ⟨S1x1x512x512, .f32⟩
  | .local _ .vmem, ⟨6, _⟩ => ⟨S1x1x2048, .f32⟩
  | .local _ .vmem, ⟨7, _⟩ => ⟨S1x1x2048, .f32⟩
  | _, _ => ⟨S8x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 512], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  slices_S8x1024x1024x2_S8x1024x1024x1_0_0_0_0 : S8x1024x1024x2.Slices ![0, 0, 0, 0] S8x1024x1024x1
  shapeCasts_S8x1024x1024x1_S8x1024x1024 : S8x1024x1024x1.ShapeCasts S8x1024x1024
  shapeCasts_S8x1024x1024_S8x1x1048576 : S8x1024x1024.ShapeCasts S8x1x1048576
  slices_S8x1024x1024x2_S8x1024x1024x1_0_0_0_1 : S8x1024x1024x2.Slices ![0, 0, 0, 1] S8x1024x1024x1
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S2048 : S1x1x2048.ShapeCasts S2048
  inb_S1x1x512x512_S1x1x512x512_0_0_0_0 : ∀ a, (![0, 0, 0, 0] : Fin 4 → Nat) a + S1x1x512x512.size a ≤ S1x1x512x512.size a
  h_S1x1x512x512 : 0 < S1x1x512x512.numel
  shapeCasts_S1x1x512x512_S512x512 : S1x1x512x512.ShapeCasts S512x512
  bitsLt_bf16_f32 : FTy.bits .bf16 < FTy.bits .f32
  iota_S2048x512_d1_w32 : S2048x512.Iotas .tc 32 [1]
  shapeCasts_S2048_S2048x1 : S2048.ShapeCasts S2048x1
  broadcasts_S2048x1_S2048x512 : S2048x1.Broadcasts S2048x512
  natLt_1_32 : 1 < 32
  reduces_S2048x512_S2048 : S2048x512.Reduces [1] S2048
  shapeCasts_S2048_S1x1x2048 : S2048.ShapeCasts S1x1x2048
  shapeCasts_S8x1x1048576_S8x1x1024x1024 : S8x1x1048576.ShapeCasts S8x1x1024x1024
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x2048.size a ≤ S8x1x1048576.size a
  hwx0_0 : ∀ i : grid0.Coords, EltTy.bits .f32 = 32 ∨ (Rect.block (s := S8x1x1048576) S1x1x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048.size a ≤ S8x1x1048576.size a
  hwx0_1 : ∀ i : grid0.Coords, EltTy.bits .f32 = 32 ∨ (Rect.block (s := S8x1x1048576) S1x1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512x512.size a ≤ S8x1x512x512.size a
  hwx0_2 : ∀ i : grid0.Coords, EltTy.bits .f32 = 32 ∨ (Rect.block (s := S8x1x512x512) S1x1x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S8x1x1048576.size a
  hwx0_3 : ∀ i : grid0.Coords, EltTy.bits .f32 = 32 ∨ (Rect.block (s := S8x1x1048576) S1x1x2048.size (cc0_transform_3 i) (hinb0_3 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v2) S1x1x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x1x512x512 : Shape := ⟨4, ![8, 1, 512, 512]⟩
abbrev S8x1024x1024x2 : Shape := ⟨4, ![8, 1024, 1024, 2]⟩
abbrev S9 : Shape := ⟨1, ![9]⟩
abbrev S8x1024x1024x1 : Shape := ⟨4, ![8, 1024, 1024, 1]⟩
abbrev S8x1024x1024 : Shape := ⟨3, ![8, 1024, 1024]⟩
abbrev S_ : Shape := ⟨0, ![]⟩
abbrev S1x1x1x9 : Shape := ⟨4, ![1, 1, 1, 9]⟩
abbrev S8x1024x1024x9 : Shape := ⟨4, ![8, 1024, 1024, 9]⟩
abbrev S8x1024x1024x9x1 : Shape := ⟨5, ![8, 1024, 1024, 9, 1]⟩
abbrev S8x1024x1024x9x2 : Shape := ⟨5, ![8, 1024, 1024, 9, 2]⟩
abbrev S8x1x1024x1024x9 : Shape := ⟨5, ![8, 1, 1024, 1024, 9]⟩
abbrev S8x1x1024x1024 : Shape := ⟨4, ![8, 1, 1024, 1024]⟩
abbrev S8x1x1024x1024x1 : Shape := ⟨5, ![8, 1, 1024, 1024, 1]⟩
abbrev S8x1024x1024x1x1 : Shape := ⟨5, ![8, 1024, 1024, 1, 1]⟩
abbrev S1 : Shape := ⟨1, ![1]⟩
abbrev S1x1x1x1x1 : Shape := ⟨5, ![1, 1, 1, 1, 1]⟩

abbrev nBuf : Space → Nat
  | .hbm => 130
  | .vmem => 0
  | .smem => 0
  | _ => 0

abbrev hbmTy0_0 (i : Nat) : BufTy := match i % 128 with
  | 0 => ⟨S8x1x512x512, .f32⟩
  | 1 => ⟨S8x1024x1024x2, .f32⟩
  | 2 => ⟨S9, .i32⟩
  | 3 => ⟨S9, .i32⟩
  | 4 => ⟨S8x1024x1024x1, .f32⟩
  | 5 => ⟨S8x1024x1024, .f32⟩
  | 6 => ⟨S_, .f32⟩
  | 7 => ⟨S8x1024x1024, .f32⟩
  | 8 => ⟨S8x1024x1024, .f32⟩
  | 9 => ⟨S_, .f32⟩
  | 10 => ⟨S8x1024x1024, .f32⟩
  | 11 => ⟨S8x1024x1024, .f32⟩
  | 12 => ⟨S_, .f32⟩
  | 13 => ⟨S8x1024x1024, .f32⟩
  | 14 => ⟨S8x1024x1024, .f32⟩
  | 15 => ⟨S8x1024x1024x1, .f32⟩
  | 16 => ⟨S8x1024x1024, .f32⟩
  | 17 => ⟨S_, .f32⟩
  | 18 => ⟨S8x1024x1024, .f32⟩
  | 19 => ⟨S8x1024x1024, .f32⟩
  | 20 => ⟨S_, .f32⟩
  | 21 => ⟨S8x1024x1024, .f32⟩
  | 22 => ⟨S8x1024x1024, .f32⟩
  | 23 => ⟨S_, .f32⟩
  | 24 => ⟨S8x1024x1024, .f32⟩
  | 25 => ⟨S8x1024x1024, .f32⟩
  | 26 => ⟨S8x1024x1024, .f32⟩
  | 27 => ⟨S8x1024x1024, .i32⟩
  | 28 => ⟨S8x1024x1024, .f32⟩
  | 29 => ⟨S8x1024x1024, .i32⟩
  | 30 => ⟨S8x1024x1024x1, .i32⟩
  | 31 => ⟨S1x1x1x9, .i32⟩
  | 32 => ⟨S8x1024x1024x9, .i32⟩
  | 33 => ⟨S8x1024x1024x9, .i32⟩
  | 34 => ⟨S8x1024x1024x9, .i32⟩
  | 35 => ⟨S8x1024x1024x1, .i32⟩
  | 36 => ⟨S1x1x1x9, .i32⟩
  | 37 => ⟨S8x1024x1024x9, .i32⟩
  | 38 => ⟨S8x1024x1024x9, .i32⟩
  | 39 => ⟨S8x1024x1024x9, .i32⟩
  | 40 => ⟨S_, .i32⟩
  | 41 => ⟨S8x1024x1024x9, .i32⟩
  | 42 => ⟨S8x1024x1024x9, .i1⟩
  | 43 => ⟨S_, .i32⟩
  | 44 => ⟨S8x1024x1024x9, .i32⟩
  | 45 => ⟨S8x1024x1024x9, .i1⟩
  | 46 => ⟨S8x1024x1024x9, .i1⟩
  | 47 => ⟨S_, .i32⟩
  | 48 => ⟨S8x1024x1024x9, .i32⟩
  | 49 => ⟨S8x1024x1024x9, .i1⟩
  | 50 => ⟨S8x1024x1024x9, .i1⟩
  | 51 => ⟨S_, .i32⟩
  | 52 => ⟨S8x1024x1024x9, .i32⟩
  | 53 => ⟨S8x1024x1024x9, .i1⟩
  | 54 => ⟨S8x1024x1024x9, .i1⟩
  | 55 => ⟨S_, .i32⟩
  | 56 => ⟨S_, .i32⟩
  | 57 => ⟨S_, .i32⟩
  | 58 => ⟨S8x1024x1024x9, .i32⟩
  | 59 => ⟨S8x1024x1024x9, .i32⟩
  | 60 => ⟨S_, .i32⟩
  | 61 => ⟨S8x1024x1024x9, .i32⟩
  | 62 => ⟨S8x1024x1024x9, .i32⟩
  | 63 => ⟨S_, .i32⟩
  | 64 => ⟨S_, .i32⟩
  | 65 => ⟨S_, .i32⟩
  | 66 => ⟨S8x1024x1024x9, .i32⟩
  | 67 => ⟨S8x1024x1024x9, .i32⟩
  | 68 => ⟨S_, .i32⟩
  | 69 => ⟨S8x1024x1024x9, .i32⟩
  | 70 => ⟨S8x1024x1024x9, .i32⟩
  | 71 => ⟨S_, .i32⟩
  | 72 => ⟨S8x1024x1024x9, .i32⟩
  | 73 => ⟨S8x1024x1024x9, .i1⟩
  | 74 => ⟨S_, .i32⟩
  | 75 => ⟨S8x1024x1024x9, .i32⟩
  | 76 => ⟨S8x1024x1024x9, .i32⟩
  | 77 => ⟨S8x1024x1024x9, .i32⟩
  | 78 => ⟨S_, .i32⟩
  | 79 => ⟨S8x1024x1024x9, .i32⟩
  | 80 => ⟨S8x1024x1024x9, .i1⟩
  | 81 => ⟨S_, .i32⟩
  | 82 => ⟨S8x1024x1024x9, .i32⟩
  | 83 => ⟨S8x1024x1024x9, .i32⟩
  | 84 => ⟨S8x1024x1024x9, .i32⟩
  | 85 => ⟨S8x1024x1024x9x1, .i32⟩
  | 86 => ⟨S8x1024x1024x9x1, .i32⟩
  | 87 => ⟨S8x1024x1024x9x2, .i32⟩
  | 88 => ⟨S8x1x1024x1024x9, .f32⟩
  | 89 => ⟨S8x1x1024x1024x9, .i1⟩
  | 90 => ⟨S_, .f32⟩
  | 91 => ⟨S8x1x1024x1024x9, .f32⟩
  | 92 => ⟨S8x1x1024x1024x9, .i1⟩
  | 93 => ⟨S8x1x1024x1024x9, .i1⟩
  | 94 => ⟨S8x1x1024x1024x9, .i32⟩
  | 95 => ⟨S_, .i1⟩
  | 96 => ⟨S_, .i32⟩
  | 97 => ⟨S8x1x1024x1024, .i1⟩
  | 98 => ⟨S8x1x1024x1024, .i32⟩
  | 99 => ⟨S_, .i1⟩
  | 100 => ⟨S8x1x1024x1024, .i1⟩
  | 101 => ⟨S8x1x1024x1024x1, .i32⟩
  | 102 => ⟨S_, .i32⟩
  | 103 => ⟨S8x1x1024x1024x1, .i32⟩
  | 104 => ⟨S8x1x1024x1024x1, .i1⟩
  | 105 => ⟨S_, .i32⟩
  | 106 => ⟨S8x1x1024x1024x1, .i32⟩
  | 107 => ⟨S8x1x1024x1024x1, .i32⟩
  | 108 => ⟨S8x1x1024x1024x1, .i32⟩
  | 109 => ⟨S8x1024x1024x1x1, .i32⟩
  | 110 => ⟨S1, .i32⟩
  | 111 => ⟨S_, .i32⟩
  | 112 => ⟨S8x1024x1024x1x1, .i32⟩
  | 113 => ⟨S8x1024x1024x1x1, .i1⟩
  | 114 => ⟨S1x1x1x1x1, .i32⟩
  | 115 => ⟨S8x1024x1024x1x1, .i32⟩
  | 116 => ⟨S8x1024x1024x1x1, .i1⟩
  | 117 => ⟨S8x1024x1024x1x1, .i1⟩
  | 118 => ⟨S_, .i1⟩
  | 119 => ⟨S8x1024x1024x1, .i1⟩
  | 120 => ⟨S8x1x1024x1024x1, .f32⟩
  | 121 => ⟨S8x1x1024x1024x1, .i1⟩
  | 122 => ⟨S_, .f32⟩
  | 123 => ⟨S8x1x1024x1024x1, .f32⟩
  | 124 => ⟨S8x1x1024x1024x1, .f32⟩
  | 125 => ⟨S8x1x1024x1024, .f32⟩
  | 126 => ⟨S_, .f32⟩
  | 127 => ⟨S_, .f32⟩
  | _ => ⟨S8x1x512x512, .f32⟩

abbrev hbmTy0_1 (i : Nat) : BufTy := match i % 128 with
  | 0 => ⟨S8x1x1024x1024, .f32⟩
  | 1 => ⟨S8x1x1024x1024, .f32⟩
  | _ => ⟨S8x1x512x512, .f32⟩

abbrev hbmTy (i : Nat) : BufTy := match i / 128 with
  | 0 => hbmTy0_0 i
  | 1 => hbmTy0_1 i
  | _ => ⟨S8x1x512x512, .f32⟩

abbrev bufTy : (tb : Table) → Fin (tcTables nBuf tb) → BufTy
  | .hbm, ⟨i, _⟩ => hbmTy i
  | _, _ => ⟨S8x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_cst_5 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_6 : Ref sig .tc := ⟨.hbm, 40, rfl⟩
abbrev main_v30 : Ref sig .tc := ⟨.hbm, 41, rfl⟩
abbrev main_v31 : Ref sig .tc := ⟨.hbm, 42, rfl⟩
abbrev main_c_7 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_8 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_9 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_10 : Ref sig .tc := ⟨.hbm, 55, rfl⟩
abbrev main_c_11 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_v41 : Ref sig .tc := ⟨.hbm, 62, rfl⟩
abbrev main_c_12 : Ref sig .tc := ⟨.hbm, 63, rfl⟩
abbrev main_c_13 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_v42 : Ref sig .tc := ⟨.hbm, 70, rfl⟩
abbrev main_c_14 : Ref sig .tc := ⟨.hbm, 71, rfl⟩
abbrev main_v43 : Ref sig .tc := ⟨.hbm, 72, rfl⟩
abbrev main_v44 : Ref sig .tc := ⟨.hbm, 73, rfl⟩
abbrev main_c_15 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_c_16 : Ref sig .tc := ⟨.hbm, 78, rfl⟩
abbrev main_v48 : Ref sig .tc := ⟨.hbm, 79, rfl⟩
abbrev main_v49 : Ref sig .tc := ⟨.hbm, 80, rfl⟩
abbrev main_c_17 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_18 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_call4_v0 : Ref sig .tc := ⟨.hbm, 94, rfl⟩
abbrev main_call4_c : Ref sig .tc := ⟨.hbm, 95, rfl⟩
abbrev main_call4_c_0 : Ref sig .tc := ⟨.hbm, 96, rfl⟩
abbrev main_call4_v1_0 : Ref sig .tc := ⟨.hbm, 97, rfl⟩
abbrev main_v61 : Ref sig .tc := ⟨.hbm, 98, rfl⟩
abbrev main_c_19 : Ref sig .tc := ⟨.hbm, 99, rfl⟩
abbrev main_v62 : Ref sig .tc := ⟨.hbm, 100, rfl⟩
abbrev main_v63 : Ref sig .tc := ⟨.hbm, 101, rfl⟩
abbrev main_call5_c : Ref sig .tc := ⟨.hbm, 102, rfl⟩
abbrev main_call5_v0 : Ref sig .tc := ⟨.hbm, 103, rfl⟩
abbrev main_call5_v1 : Ref sig .tc := ⟨.hbm, 104, rfl⟩
abbrev main_call5_c_0 : Ref sig .tc := ⟨.hbm, 105, rfl⟩
abbrev main_call5_v2 : Ref sig .tc := ⟨.hbm, 106, rfl⟩
abbrev main_call5_v3 : Ref sig .tc := ⟨.hbm, 107, rfl⟩
abbrev main_call5_v4 : Ref sig .tc := ⟨.hbm, 108, rfl⟩
abbrev main_call5_v5 : Ref sig .tc := ⟨.hbm, 109, rfl⟩
abbrev main_call5_c_1 : Ref sig .tc := ⟨.hbm, 110, rfl⟩
abbrev main_call5_c_2 : Ref sig .tc := ⟨.hbm, 111, rfl⟩
abbrev main_call5_v6 : Ref sig .tc := ⟨.hbm, 112, rfl⟩
abbrev main_call5_v7 : Ref sig .tc := ⟨.hbm, 113, rfl⟩
abbrev main_call5_v8 : Ref sig .tc := ⟨.hbm, 114, rfl⟩
abbrev main_call5_v9 : Ref sig .tc := ⟨.hbm, 115, rfl⟩
abbrev main_call5_v10 : Ref sig .tc := ⟨.hbm, 116, rfl⟩
abbrev main_call5_v11 : Ref sig .tc := ⟨.hbm, 117, rfl⟩
abbrev main_call5_c_3 : Ref sig .tc := ⟨.hbm, 118, rfl⟩
abbrev main_call5_v12 : Ref sig .tc := ⟨.hbm, 119, rfl⟩
abbrev main_call5_v13 : Ref sig .tc := ⟨.hbm, 120, rfl⟩
abbrev main_call5_v14 : Ref sig .tc := ⟨.hbm, 121, rfl⟩
abbrev main_call5_cst : Ref sig .tc := ⟨.hbm, 122, rfl⟩
abbrev main_call5_v15 : Ref sig .tc := ⟨.hbm, 123, rfl⟩
abbrev main_v64 : Ref sig .tc := ⟨.hbm, 124, rfl⟩
abbrev main_v65 : Ref sig .tc := ⟨.hbm, 125, rfl⟩
abbrev main_cst_20 : Ref sig .tc := ⟨.hbm, 126, rfl⟩
abbrev main_call6_v0 : Ref sig .tc := ⟨.hbm, 127, rfl⟩
abbrev main_call6_v1 : Ref sig .tc := ⟨.hbm, 128, rfl⟩
abbrev main_v66 : Ref sig .tc := ⟨.hbm, 129, rfl⟩

abbrev nD : Nat := 1
abbrev τ : Topo := Topo.v7x

variable {F : FTy → Type} [FloatOps F]

class Facts₀ : Prop where
  slices_S8x1024x1024x2_S8x1024x1024x1_0_0_0_0 : S8x1024x1024x2.Slices ![0, 0, 0, 0] S8x1024x1024x1
  shapeCasts_S8x1024x1024x1_S8x1024x1024 : S8x1024x1024x1.ShapeCasts S8x1024x1024
  bcast_S_S8x1024x1024 : S_.BroadcastsInDim S8x1024x1024 (![] : Fin 0 → Fin S8x1024x1024.rank)
  slices_S8x1024x1024x2_S8x1024x1024x1_0_0_0_1 : S8x1024x1024x2.Slices ![0, 0, 0, 1] S8x1024x1024x1
  bcast_S8x1024x1024_S8x1024x1024x1_0_1_2 : S8x1024x1024.BroadcastsInDim S8x1024x1024x1 (![0, 1, 2] : Fin 3 → Fin S8x1024x1024x1.rank)
  bcast_S9_S1x1x1x9_3 : S9.BroadcastsInDim S1x1x1x9 (![3] : Fin 1 → Fin S1x1x1x9.rank)
  bcast_S8x1024x1024x1_S8x1024x1024x9_0_1_2_3 : S8x1024x1024x1.BroadcastsInDim S8x1024x1024x9 (![0, 1, 2, 3] : Fin 4 → Fin S8x1024x1024x9.rank)
  bcast_S1x1x1x9_S8x1024x1024x9_0_1_2_3 : S1x1x1x9.BroadcastsInDim S8x1024x1024x9 (![0, 1, 2, 3] : Fin 4 → Fin S8x1024x1024x9.rank)
  bcast_S_S8x1024x1024x9 : S_.BroadcastsInDim S8x1024x1024x9 (![] : Fin 0 → Fin S8x1024x1024x9.rank)
  bcast_S8x1024x1024x9_S8x1024x1024x9x1_0_1_2_3 : S8x1024x1024x9.BroadcastsInDim S8x1024x1024x9x1 (![0, 1, 2, 3] : Fin 4 → Fin S8x1024x1024x9x1.rank)
  concatenates_S8x1024x1024x9x1_S8x1024x1024x9x1_S8x1024x1024x9x2_d4 : Shape.Concatenates [S8x1024x1024x9x1, S8x1024x1024x9x1] S8x1024x1024x9x2 4
  bcast_S8x1024x1024x9_S8x1x1024x1024x9_0_2_3_4 : S8x1024x1024x9.BroadcastsInDim S8x1x1024x1024x9 (![0, 2, 3, 4] : Fin 4 → Fin S8x1x1024x1024x9.rank)
  bcast_S_S8x1x1024x1024x9 : S_.BroadcastsInDim S8x1x1024x1024x9 (![] : Fin 0 → Fin S8x1x1024x1024x9.rank)
  reducesTo_S8x1x1024x1024x9_S8x1x1024x1024_d4 : S8x1x1024x1024x9.ReducesTo [4] S8x1x1024x1024
  h_S_ : 0 < S_.numel
  bcast_S8x1x1024x1024_S8x1x1024x1024x1_0_1_2_3 : S8x1x1024x1024.BroadcastsInDim S8x1x1024x1024x1 (![0, 1, 2, 3] : Fin 4 → Fin S8x1x1024x1024x1.rank)
  bcast_S_S8x1x1024x1024x1 : S_.BroadcastsInDim S8x1x1024x1024x1 (![] : Fin 0 → Fin S8x1x1024x1024x1.rank)
  shapeCasts_S8x1x1024x1024x1_S8x1024x1024x1x1 : S8x1x1024x1024x1.ShapeCasts S8x1024x1024x1x1
  bcast_S_S8x1024x1024x1x1 : S_.BroadcastsInDim S8x1024x1024x1x1 (![] : Fin 0 → Fin S8x1024x1024x1x1.rank)
  bcast_S1_S1x1x1x1x1_4 : S1.BroadcastsInDim S1x1x1x1x1 (![4] : Fin 1 → Fin S1x1x1x1x1.rank)
  bcast_S1x1x1x1x1_S8x1024x1024x1x1_0_1_2_3_4 : S1x1x1x1x1.BroadcastsInDim S8x1024x1024x1x1 (![0, 1, 2, 3, 4] : Fin 5 → Fin S8x1024x1024x1x1.rank)
  reducesTo_S8x1024x1024x1x1_S8x1024x1024x1_d4 : S8x1024x1024x1x1.ReducesTo [4] S8x1024x1024x1
  bcast_S8x1024x1024x1_S8x1x1024x1024x1_0_2_3_4 : S8x1024x1024x1.BroadcastsInDim S8x1x1024x1024x1 (![0, 2, 3, 4] : Fin 4 → Fin S8x1x1024x1024x1.rank)
  shapeCasts_S8x1x1024x1024x1_S8x1x1024x1024 : S8x1x1024x1024x1.ShapeCasts S8x1x1024x1024
  bcast_S_S8x1x1024x1024 : S_.BroadcastsInDim S8x1x1024x1024 (![] : Fin 0 → Fin S8x1x1024x1024.rank)
  gather_S8x1x512x512_S8x1024x1024x9x2_S8x1x1024x1024x9_1_23_0_0_23_4_1111_wf : GatherDims.WF S8x1x512x512 S8x1024x1024x9x2 S8x1x1024x1024x9 [1] [2, 3] [0] [2, 3] [0] 4 ![1, 1, 1, 1]
  gather_S8x1x1024x1024x9_S8x1024x1024x1x1_S8x1x1024x1024x1_1_4_023_012_4_4_11111_wf : GatherDims.WF S8x1x1024x1024x9 S8x1024x1024x1x1 S8x1x1024x1024x1 [1] [4] [0, 2, 3] [4] [0, 1, 2] 4 ![1, 1, 1, 1, 1]

variable [Facts₀]

def gather_S8x1x512x512_S8x1024x1024x9x2_S8x1x1024x1024x9_1_23_0_0_23_4_1111 : GatherDims S8x1x512x512 S8x1024x1024x9x2 S8x1x1024x1024x9 where
  offsetDims := [1]
  collapsedSliceDims := [2, 3]
  operandBatchingDims := [0]
  startIndicesBatchingDims := [0]
  startIndexMap := [2, 3]
  indexVectorDim := 4
  sliceSizes := ![1, 1, 1, 1]
  wf := gather_S8x1x512x512_S8x1024x1024x9x2_S8x1x1024x1024x9_1_23_0_0_23_4_1111_wf
def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S8x1x1024x1024x9_S8x1024x1024x1x1_S8x1x1024x1024x1_1_4_023_012_4_4_11111 : GatherDims S8x1x1024x1024x9 S8x1024x1024x1x1 S8x1x1024x1024x1 where
  offsetDims := [1]
  collapsedSliceDims := [4]
  operandBatchingDims := [0, 2, 3]
  startIndicesBatchingDims := [0, 1, 2]
  startIndexMap := [4]
  indexVectorDim := 4
  sliceSizes := ![1, 1, 1, 1, 1]
  wf := gather_S8x1x1024x1024x9_S8x1024x1024x1x1_S8x1x1024x1024x1_1_4_023_012_4_4_11111_wf

class Facts : Prop extends Facts₀ where

variable [Facts]
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.LibRowOps.lean ====
/-
  Row-wise reductions with `keepdims`, read at an index: a length-`a` vector viewed as an `[a, 1]` column, a column
  broadcast along its rows to `[a, b]`, and a reduction over the second axis of an `[a, b]` array read at row `r` — the
  index the reduction inserts the dropped coordinate into is (r, k), so a row maximum is the fold of `max` over the row's
  entries and a row sum is the sum over them.
-/
import Idealize.ShloMosaic.Lib.Pipeline.Value
import Idealize.ShloMosaic.Lib.ValueIdx
import Idealize.ShloMosaic.PureOps.Ideal.Laws

noncomputable section

namespace RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `r` with the second-axis coordinate `k` put back is (r, k). -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A maximum over the second axis, at row `r`: the fold of `max`, from the accumulator's value, over the row. -/
theorem rowMax_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) := by
  refine (Ideal.multiReduction_maximumf_single src acc h hφ hacc (ix1 r)).trans ?_
  have hf : (src ∘ h.lift (ix1 r)) = fun k : Fin b => src (ix2 r k) := funext fun k => congrArg src (lift_row h r k)
  exact congrArg (fun f => Finset.fold max (Ideal.ofBits .f32 acc) f (Finset.univ : Finset (Fin b))) hf

/-- A sum over the second axis, at row `r`: the sum over the row. -/
theorem rowSum_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end RowOps

end
-- ==== Proof.LibMaskWords.lean ====
/-
  Small facts about 0/1 masks and sums, over the extended reals and over literal shapes.
    * a finite sum of products of real numbers, computed in the extended reals, is the real sum;
    * a sum over the indices of a one-axis shape, or of an `[n, 1]` column, is the sum over the coordinate;
    * the one-bit word of an integer equality test selects by the equality, and converted to a float — widened and read
      signed, or read unsigned — it is the 0/1 mask of the equality.
-/
import Idealize.ShloMosaic.PureOps.Ideal
import Idealize.ShloMosaic.Lib.ValueIdx
import Idealize.ShloMosaic.Lib.Affine

noncomputable section

namespace Idealize.ShloMosaic.MaskWords

open Idealize.ShloMosaic Idealize.ShloMosaic.ValueIdx

/-! ## Sums -/

/-- A finite sum of products of reals, computed in the extended reals, is the real sum. -/
theorem sum_coe_mul {κ : Type} [Fintype κ] (a b : κ → ℝ) :
    ∑ k, ((a k : EReal) * (b k : EReal)) = ((∑ k, a k * b k : ℝ) : EReal) := by
  classical
  induction (Finset.univ : Finset κ) using Finset.induction_on with
  | empty => simp
  | insert x s hx ih => rw [Finset.sum_insert hx, Finset.sum_insert hx, ih, EReal.coe_add, EReal.coe_mul]

/-- A sum over the indices of a one-axis shape is the sum over its coordinate. -/
theorem sum_idx1 {M : Type} [AddCommMonoid M] {n : Nat} (f : (⟨1, ![n]⟩ : Shape).Idx → M) :
    ∑ j, f j = ∑ a : Fin n, f (ix1 a) := by
  let e : Fin n ≃ (⟨1, ![n]⟩ : Shape).Idx :=
    { toFun := ix1, invFun := fun j => j 0, left_inv := fun _ => rfl, right_inv := fun j => (eq_ix1 j).symm }
  exact (Equiv.sum_comp e f).symm

/-- A sum over the indices of an `[n, 1]` column is the sum over its rows. -/
theorem sum_idx_col {M : Type} [AddCommMonoid M] {n : Nat} (f : (⟨2, ![n, 1]⟩ : Shape).Idx → M) :
    ∑ j, f j = ∑ a : Fin n, f (ix2 a (0 : Fin 1)) := by
  rw [sum_idx2]
  exact Finset.sum_congr rfl fun a _ => Fin.sum_univ_one _

/-! ## The word of an integer equality test -/

/-- The word of an integer equality test, used as a selector, selects by the equality. -/
theorem select_cmpi_eq {α : Type} {w : Nat} (x y : BitVec w) (a b : α) :
    Scalar.select (IntOp.cmpi .eq x y) a b = if x = y then a else b := by
  by_cases h : x = y
  · rw [if_pos h, IntOp.cmpi_eq.mpr h]; exact select_one a b
  · rw [if_neg h, eq_zero_of_ne_one (fun e => h (IntOp.cmpi_eq.mp e))]; exact select_zero a b

/-- The word of an integer equality test, widened and read as a signed integer, is the 0/1 mask. -/
theorem sitofp_cmpi_eq {w : Nat} (x y : BitVec w) :
    (((((IntOp.cmpi .eq x y).setWidth 32).toInt : ℤ) : ℝ) : EReal) = if x = y then (1 : EReal) else 0 := by
  by_cases h : x = y
  · rw [if_pos h, IntOp.cmpi_eq.mpr h]; norm_num
  · rw [if_neg h, eq_zero_of_ne_one (fun e => h (IntOp.cmpi_eq.mp e))]; norm_num

/-- The same word read as an unsigned integer is the same mask. -/
theorem uitofp_cmpi_eq {w : Nat} (x y : BitVec w) :
    ((((IntOp.cmpi .eq x y).toNat : ℕ) : ℝ) : EReal) = if x = y then (1 : EReal) else 0 := by
  by_cases h : x = y
  · rw [if_pos h, IntOp.cmpi_eq.mpr h]; norm_num
  · rw [if_neg h, eq_zero_of_ne_one (fun e => h (IntOp.cmpi_eq.mp e))]; norm_num

end Idealize.ShloMosaic.MaskWords

end
-- ==== Proof.LibOneHot.lean ====
/-
  Selecting by a one-hot mask, read at an index, over arbitrary sizes.

  Let t assign a 32-bit word to each of m rows, and let there be k lanes, k ≤ 2³², numbered by their words.  The
  one-hot mask of t is the m×k matrix whose entry (q, c) is 1 when lane c's number is the word t(q) and 0 otherwise:
  the lane numbers compared for equality with t broadcast along the rows, the one-bit result widened and read as a float.
  Row q of the mask has at most one 1, at lane t(q) when t(q) < k, and none when t(q) ≥ k.  Hence
    * a sum over the lanes against row q of the mask is the summand at lane t(q), or zero;
    * the matrix product of the mask with a k×n matrix B has, at (q, w), the entry B(t(q), w), or zero: the mask picks
      rows of B;
    * the lane sum of an m×k matrix multiplied entry by entry with the mask has, at row q, the matrix's entry
      (q, t(q)), or zero: the mask picks one column per row.
  In the extended reals 0 · x = 0 and 1 · x = x for every x, so nothing here asks an entry to be finite.
-/
import Idealize.ShloMosaic.PureOps.Ideal.Laws
import Idealize.ShloMosaic.Lib.Pipeline.Value
import Idealize.ShloMosaic.Lib.ValueIdx
import proofs.«145129_j67757404062167_2_alg».proof.Proof.LibPlainDot
import proofs.«145129_j67757404062167_2_alg».proof.Proof.LibRowOps
import proofs.«145129_j67757404062167_2_alg».proof.Proof.LibMaskWords

noncomputable section

open scoped BigOperators

namespace Cert.OneHot

open Idealize.ShloMosaic Idealize.ShloMosaic.ValueIdx

variable {m k n : Nat}

/-- A lane number below 2³² is the word t exactly when it is t's value. -/
theorem ofNat_eq_iff (hk : k ≤ 2 ^ 32) (t : BitVec 32) (c : Fin k) : BitVec.ofNat 32 c.val = t ↔ c.val = t.toNat := by
  have hc : c.val < 2 ^ 32 := lt_of_lt_of_le c.isLt hk
  constructor
  · intro h; rw [← h, BitVec.toNat_ofNat, Nat.mod_eq_of_lt hc]
  · intro h; apply BitVec.eq_of_toNat_eq; rw [BitVec.toNat_ofNat, Nat.mod_eq_of_lt hc, h]

/-- A sum against a one-hot row (the mask on the left) is the summand at the hot lane, or zero. -/
theorem sum_mask_left (hk : k ≤ 2 ^ 32) (t : BitVec 32) (f : Fin k → EReal) :
    ∑ c : Fin k, (if BitVec.ofNat 32 c.val = t then (1 : EReal) else 0) * f c
      = if h : t.toNat < k then f ⟨t.toNat, h⟩ else 0 := by
  split
  · rename_i h
    rw [Finset.sum_eq_single (⟨t.toNat, h⟩ : Fin k)]
    · rw [if_pos ((ofNat_eq_iff hk t _).2 rfl), one_mul]
    · intro c _ hc; rw [if_neg (fun e => hc (Fin.ext ((ofNat_eq_iff hk t c).1 e))), zero_mul]
    · intro h'; exact absurd (Finset.mem_univ _) h'
  · rename_i h
    refine Finset.sum_eq_zero fun c _ => ?_
    rw [if_neg (fun e => h (by rw [← (ofNat_eq_iff hk t c).1 e]; exact c.isLt)), zero_mul]

/-- The same with the mask on the right. -/
theorem sum_mask_right (hk : k ≤ 2 ^ 32) (t : BitVec 32) (f : Fin k → EReal) :
    ∑ c : Fin k, f c * (if BitVec.ofNat 32 c.val = t then (1 : EReal) else 0)
      = if h : t.toNat < k then f ⟨t.toNat, h⟩ else 0 := by
  rw [← sum_mask_left hk t f]
  exact Finset.sum_congr rfl fun c _ => mul_comm _ _

/-- Entry (q, c) of the one-hot mask of the words t: 1 when lane c carries the number t(q), else 0. -/
theorem mask_apply (t : IVec ⟨1, ![m]⟩ 32) (hio : (⟨2, ![m, k]⟩ : Shape).Iotas .tc 32 [1])
    (hsc : (⟨1, ![m]⟩ : Shape).ShapeCasts ⟨2, ![m, 1]⟩) (hbc : (⟨2, ![m, 1]⟩ : Shape).Broadcasts ⟨2, ![m, k]⟩)
    (hw : 1 < 32) (q : Fin m) (c : Fin k) :
    (sitofp (F := Ideal) .f32 (extui 32 (cmpi .eq (iota .tc ⟨2, ![m, k]⟩ 32 [1] hio)
        (broadcastTo ⟨2, ![m, k]⟩ (shapeCast ⟨2, ![m, 1]⟩ t hsc) hbc)) hw) : FVec Ideal ⟨2, ![m, k]⟩ .f32) (ix2 q c)
      = if BitVec.ofNat 32 c.val = t (ix1 q) then (1 : EReal) else 0 := by
  have hb : broadcastTo ⟨2, ![m, k]⟩ (shapeCast ⟨2, ![m, 1]⟩ t hsc) hbc (ix2 q c) = t (ix1 q) :=
    (RowOps.broadcastTo_a1_ab_apply _ _ q c).trans (RowOps.shapeCast_a_a1_apply t _ q 0)
  have hi : iota .tc ⟨2, ![m, k]⟩ 32 [1] hio (ix2 q c) = BitVec.ofNat 32 c.val :=
    iota_single_apply .tc ⟨2, ![m, k]⟩ 32 (1 : Fin 2) hio (ix2 q c)
  show ((((IntOp.cmpi .eq (iota .tc ⟨2, ![m, k]⟩ 32 [1] hio (ix2 q c))
      (broadcastTo ⟨2, ![m, k]⟩ (shapeCast ⟨2, ![m, 1]⟩ t hsc) hbc (ix2 q c))).setWidth 32).toInt : ℝ) : EReal) = _
  rw [hb, hi]
  exact Idealize.ShloMosaic.MaskWords.sitofp_cmpi_eq _ _

/-- THE ROW PICK: the product of the one-hot mask of t (rounded to a narrower format on the way in: the identity on
    extended reals) with a k×n matrix B, into the zero accumulator, at entry (q, w): B at (t(q), w), or zero when no
    lane carries the number t(q). -/
theorem rowPick_apply (D : DotDims ⟨2, ![m, k]⟩ ⟨2, ![k, n]⟩ ⟨2, ![m, n]⟩) (hD : D = DotDims.plain m k n)
    (prec : Option ContractPrecision) (hk : k ≤ 2 ^ 32) (t : IVec ⟨1, ![m]⟩ 32)
    (hio : (⟨2, ![m, k]⟩ : Shape).Iotas .tc 32 [1])
    (hsc : (⟨1, ![m]⟩ : Shape).ShapeCasts ⟨2, ![m, 1]⟩) (hbc : (⟨2, ![m, 1]⟩ : Shape).Broadcasts ⟨2, ![m, k]⟩)
    (hw : 1 < 32) {φ φ₂ : FTy} (hφ : FTy.bits φ < FTy.bits .f32) (B : FVec Ideal ⟨2, ![k, n]⟩ φ₂) (q : Fin m) (w : Fin n) :
    (matmul D prec
        (truncf φ (sitofp (F := Ideal) .f32 (extui 32 (cmpi .eq (iota .tc ⟨2, ![m, k]⟩ 32 [1] hio)
          (broadcastTo ⟨2, ![m, k]⟩ (shapeCast ⟨2, ![m, 1]⟩ t hsc) hbc)) hw)) hφ)
        B (constant (F := Ideal) ⟨2, ![m, n]⟩ .f32 0x00000000#32) : FVec Ideal ⟨2, ![m, n]⟩ .f32) (ix2 q w)
      = if h : (t (ix1 q)).toNat < k then B (ix2 (⟨(t (ix1 q)).toNat, h⟩ : Fin k) w) else 0 := by
  refine (Cert.PlainDot.matmul_zero_apply D hD prec _ B q w).trans ?_
  rw [← sum_mask_left hk (t (ix1 q)) (fun c => B (ix2 c w))]
  refine Finset.sum_congr rfl fun c _ => ?_
  exact congrArg (· * B (ix2 c w)) (mask_apply t hio hsc hbc hw q c)

/-- THE COLUMN PICK: the lane sum of an m×k matrix multiplied entry by entry with the one-hot mask of t, at row q: the
    matrix's entry (q, t(q)), or zero when no lane carries the number t(q). -/
theorem colPick_apply (hk : k ≤ 2 ^ 32) (t : IVec ⟨1, ![m]⟩ 32) (hio : (⟨2, ![m, k]⟩ : Shape).Iotas .tc 32 [1])
    (hsc : (⟨1, ![m]⟩ : Shape).ShapeCasts ⟨2, ![m, 1]⟩) (hbc : (⟨2, ![m, 1]⟩ : Shape).Broadcasts ⟨2, ![m, k]⟩)
    (hw : 1 < 32) (rv : FVec Ideal ⟨2, ![m, k]⟩ .f32) (acc : BitVec 32)
    (hred : (⟨2, ![m, k]⟩ : Shape).Reduces [1] (⟨1, ![m]⟩ : Shape)) (hf : FKind.Formats .f32)
    (hacc : acc = FKind.add.neutral .f32 hf) (q : Fin m) :
    (multiReduction .add [1] ⟨1, ![m]⟩
        (mulf rv (sitofp (F := Ideal) .f32 (extui 32 (cmpi .eq (iota .tc ⟨2, ![m, k]⟩ 32 [1] hio)
          (broadcastTo ⟨2, ![m, k]⟩ (shapeCast ⟨2, ![m, 1]⟩ t hsc) hbc)) hw)))
        acc hred hf hacc : FVec Ideal ⟨1, ![m]⟩ .f32) (ix1 q)
      = if h : (t (ix1 q)).toNat < k then rv (ix2 q (⟨(t (ix1 q)).toNat, h⟩ : Fin k)) else 0 := by
  refine (RowOps.rowSum_apply _ acc hred hf hacc q).trans ?_
  rw [← sum_mask_right hk (t (ix1 q)) (fun c => rv (ix2 q c))]
  refine Finset.sum_congr rfl fun c _ => ?_
  exact congrArg (rv (ix2 q c) * ·) (mask_apply t hio hsc hbc hw q c)

end Cert.OneHot

end
-- ==== Proof.Spec.lean ====
/-
  The function both programs compute, stated once over plain data: a nearest-pixel sampler with a 3×3 repair
  search.  A sampling coordinate g in [-1, 1] is sent to the pixel number round((g + 1)·½·511) (round half to
  even, then the integer nearest toward zero as a 32-bit word).  Around the pixel (iy, ix) nine candidates are
  tried in a fixed order — the centre, then the ring row by row —; a candidate (ty, tx) counts when both of its
  numbers lie in [0, 512) and the image there is not zero, and the first candidate that counts gives the result;
  if none does the result is zero.
-/
import Idealize.ShloMosaic.PureOps.Ideal
import Idealize.ShloMosaic.Lib.ValueIdx

noncomputable section

namespace Cert.Spec

open Idealize.ShloMosaic Idealize.ShloMosaic.ValueIdx

/-- The pixel number of a sampling coordinate: round((g + 1) · ½ · 511) as a signed 32-bit word
    (the three literals are the f32 words of 1, ½ and 511). -/
def coordOf (g : EReal) : BitVec 32 :=
  Ideal.fptosi 32 (Ideal.liftRound Ideal.roundHalfEven
    (((g + Ideal.ofBits .f32 0x3F800000#32) * Ideal.ofBits .f32 0x3F000000#32) * Ideal.ofBits .f32 0x43FF8000#32))

/-- 0 ≤ t < 512, read signed, as a one-bit word. -/
def inb (t : BitVec 32) : BitVec 1 :=
  IntOp.andi (IntOp.cmpi .sge t 0#32) (IntOp.cmpi .slt t 512#32)

/-- t clamped into [0, 511], read signed. -/
def clampW (t : BitVec 32) : BitVec 32 := IntOp.minsi 511#32 (IntOp.maxsi 0#32 t)

/-- A clamped number is a column number. -/
theorem clampW_lt (t : BitVec 32) : (clampW t).toNat < 512 := by
  unfold clampW IntOp.minsi IntOp.maxsi
  by_cases h0 : t.slt 0#32
  · rw [if_pos h0]; decide
  · rw [if_neg h0]
    by_cases h1 : (511#32 : BitVec 32).slt t
    · rw [if_pos h1]; decide
    · rw [if_neg h1]
      rw [BitVec.slt, decide_eq_true_eq] at h0 h1
      have e0 : (0#32 : BitVec 32).toInt = 0 := by decide
      have e1 : (511#32 : BitVec 32).toInt = 511 := by decide
      rw [e0] at h0; rw [e1] at h1
      have := BitVec.toInt_eq_toNat_cond t
      have hl := t.isLt
      split at this <;> omega

/-- The clamped number as a column index. -/
def colFin (t : BitVec 32) : Fin 512 := ⟨(clampW t).toNat % 512, Nat.mod_lt _ (by decide)⟩

/-- The candidate's value: the image at row ty (when the word ty is a row number) and the clamped column
    tx; zero when ty is no row number. -/
def cand (img : Fin 512 → Fin 512 → EReal) (ty tx : BitVec 32) : EReal :=
  if h : ty.toNat < 512 then img ⟨ty.toNat, h⟩ (colFin tx) else 0

/-- Row ty of the image read at column w; zero when the word ty is no row number. -/
def rowAt (img : Fin 512 → Fin 512 → EReal) (ty : BitVec 32) (w : Fin 512) : EReal :=
  if h : ty.toNat < 512 then img ⟨ty.toNat, h⟩ w else 0

theorem cand_eq (img : Fin 512 → Fin 512 → EReal) (ty tx : BitVec 32) : cand img ty tx = rowAt img ty (colFin tx) := rfl

/-- The candidate counts: both numbers in range and the value there not zero. -/
def valid (img : Fin 512 → Fin 512 → EReal) (ty tx : BitVec 32) : BitVec 1 :=
  IntOp.andi (IntOp.andi (inb ty) (inb tx)) (Ideal.cmp .one (cand img ty tx) (Ideal.ofBits .f32 0x00000000#32))

/-- One candidate tried after the state s = (value so far, found so far): a found value is kept, otherwise a
    candidate that counts gives the value. -/
def step (img : Fin 512 → Fin 512 → EReal) (ty tx : BitVec 32) (s : EReal × BitVec 1) : EReal × BitVec 1 :=
  (Scalar.select s.2 s.1 (Scalar.select (valid img ty tx) (cand img ty tx) s.1), IntOp.ori s.2 (valid img ty tx))

/-- The nine offsets (row, column), as 32-bit words, in the order they are tried. -/
def offs : List (BitVec 32 × BitVec 32) :=
  [(0#32, 0#32), (4294967295#32, 4294967295#32), (4294967295#32, 0#32), (4294967295#32, 1#32),
   (0#32, 4294967295#32), (0#32, 1#32), (1#32, 4294967295#32), (1#32, 0#32), (1#32, 1#32)]

/-- The sampled value at the pixel (iy, ix). -/
def pick (img : Fin 512 → Fin 512 → EReal) (iy ix : BitVec 32) : EReal :=
  (offs.foldl (fun s o => step img (IntOp.addi iy o.1) (IntOp.addi ix o.2) s) (Ideal.ofBits .f32 0x00000000#32, 0#1)).1

/-- The result at batch b, output pixel (i, j): image b sampled at the pixel of the grid's pair there
    (lane 0 the column coordinate, lane 1 the row coordinate). -/
def Gat (img : (⟨4, ![8, 1, 512, 512]⟩ : Shape).Idx → EReal) (g : (⟨4, ![8, 1024, 1024, 2]⟩ : Shape).Idx → EReal)
    (b : Fin 8) (i j : Fin 1024) : EReal :=
  pick (fun h w => img (ix4 b (0 : Fin 1) h w)) (coordOf (g (ix4 b i j (1 : Fin 2)))) (coordOf (g (ix4 b i j (0 : Fin 2))))

/-- The whole result array. -/
def G (img : (⟨4, ![8, 1, 512, 512]⟩ : Shape).Idx → EReal) (g : (⟨4, ![8, 1024, 1024, 2]⟩ : Shape).Idx → EReal) :
    (⟨4, ![8, 1, 1024, 1024]⟩ : Shape).Idx → EReal :=
  fun idx => Gat img g (idx 0) (idx 2) (idx 3)

theorem G_apply (img : (⟨4, ![8, 1, 512, 512]⟩ : Shape).Idx → EReal) (g : (⟨4, ![8, 1024, 1024, 2]⟩ : Shape).Idx → EReal)
    (b : Fin 8) (i j : Fin 1024) : G img g (ix4 b (0 : Fin 1) i j) = Gat img g b i j := rfl

end Cert.Spec

end
-- ==== Proof.KerOneHot.lean ====
/-
  Selecting by a one-hot mask, read at an index.

  A row of the image is picked by multiplying the image, as a matrix, by a one-hot matrix: row q of the mask is 1
  at the lane whose number is the word ty(q) and 0 elsewhere, so entry (q, w) of the product is the image at
  (ty(q), w) when the word ty(q) is a row number, and 0 when no lane carries that number.  A column is picked by
  multiplying a row lane by lane with such a mask and summing the lanes.  In the extended reals 0 · x = 0 and
  1 · x = x for every x, so neither step asks the entries to be finite.  Each statement here is the general one
  (any number of rows and lanes) at 2048 rows and 512 lanes.
-/
import proofs.«145129_j67757404062167_2_alg».proof.KernelIdeal
import proofs.«145129_j67757404062167_2_alg».proof.Proof.LibOneHot
import proofs.«145129_j67757404062167_2_alg».proof.Proof.Spec

noncomputable section

open scoped BigOperators

namespace Cert.KernelIdeal.OneHot

open Idealize.ShloMosaic Idealize.ShloMosaic.ValueIdx Cert.KernelIdeal

/-- 512 lanes are numbered by 32-bit words. -/
theorem lanes_le : 512 ≤ 2 ^ 32 := by norm_num

/-- A sum against a one-hot mask (the mask on the left) is the entry at the hot lane, or zero. -/
theorem sum_mask_left (t : BitVec 32) (f : Fin 512 → EReal) :
    ∑ c : Fin 512, (if BitVec.ofNat 32 c.val = t then (1 : EReal) else 0) * f c
      = if h : t.toNat < 512 then f ⟨t.toNat, h⟩ else 0 :=
  Cert.OneHot.sum_mask_left lanes_le t f

/-- The same with the mask on the right. -/
theorem sum_mask_right (t : BitVec 32) (f : Fin 512 → EReal) :
    ∑ c : Fin 512, f c * (if BitVec.ofNat 32 c.val = t then (1 : EReal) else 0)
      = if h : t.toNat < 512 then f ⟨t.toNat, h⟩ else 0 :=
  Cert.OneHot.sum_mask_right lanes_le t f

variable [Facts₀]

/-- Entry (q, c) of the one-hot mask of the words t: 1 when lane c carries the number t(q), else 0. -/
theorem mask_apply (t : IVec S2048 32) (q : Fin 2048) (c : Fin 512) :
    (sitofp (F := Ideal) .f32 (extui 32 (cmpi .eq (iota .tc S2048x512 32 [1] Facts₀.iota_S2048x512_d1_w32)
        (broadcastTo S2048x512 (shapeCast S2048x1 t Facts₀.shapeCasts_S2048_S2048x1) Facts₀.broadcasts_S2048x1_S2048x512)) Facts₀.natLt_1_32)
      : FVec Ideal S2048x512 .f32) (ix2 q c)
      = if BitVec.ofNat 32 c.val = t (ix1 q) then (1 : EReal) else 0 :=
  Cert.OneHot.mask_apply t Facts₀.iota_S2048x512_d1_w32 Facts₀.shapeCasts_S2048_S2048x1 Facts₀.broadcasts_S2048x1_S2048x512
    Facts₀.natLt_1_32 q c

/-- The image's rows picked by the words t, as the matrix product with their one-hot mask (rounded to bf16 on the
    way in: the identity on extended reals), read at entry (q, w): the image at (t(q), w), or zero. -/
theorem rowSel_apply (t : IVec S2048 32) (img : FVec Ideal S512x512 .bf16) (q : Fin 2048) (w : Fin 512) :
    (matmul dot_S2048x512_S512x512_S2048x512_1_0_0_1_n_n none
        (truncf .bf16 (sitofp (F := Ideal) .f32 (extui 32 (cmpi .eq (iota .tc S2048x512 32 [1] Facts₀.iota_S2048x512_d1_w32)
          (broadcastTo S2048x512 (shapeCast S2048x1 t Facts₀.shapeCasts_S2048_S2048x1) Facts₀.broadcasts_S2048x1_S2048x512)) Facts₀.natLt_1_32)) Facts₀.bitsLt_bf16_f32)
        img (constant (F := Ideal) S2048x512 .f32 0x00000000#32) : FVec Ideal S2048x512 .f32) (ix2 q w)
      = Cert.Spec.rowAt (fun h w => img (ix2 h w)) (t (ix1 q)) w :=
  Cert.OneHot.rowPick_apply dot_S2048x512_S512x512_S2048x512_1_0_0_1_n_n rfl none lanes_le t Facts₀.iota_S2048x512_d1_w32
    Facts₀.shapeCasts_S2048_S2048x1 Facts₀.broadcasts_S2048x1_S2048x512 Facts₀.natLt_1_32 Facts₀.bitsLt_bf16_f32 img q w

/-- A column picked out of every row by the clamped words t, as the lane sum of the row against the one-hot mask
    of the clamped words, read at lane q: the row's entry at the clamped number. -/
theorem colPick_apply (t : IVec S2048 32) (rv : FVec Ideal S2048x512 .f32) (q : Fin 2048) :
    (multiReduction .add [1] S2048
        (mulf rv (sitofp (F := Ideal) .f32 (extui 32 (cmpi .eq (iota .tc S2048x512 32 [1] Facts₀.iota_S2048x512_d1_w32)
          (broadcastTo S2048x512 (shapeCast S2048x1 (minsi (broadcast S2048 511#32) (maxsi (broadcast S2048 0#32) t))
            Facts₀.shapeCasts_S2048_S2048x1) Facts₀.broadcasts_S2048x1_S2048x512)) Facts₀.natLt_1_32)))
        0x00000000#32 Facts₀.reduces_S2048x512_S2048 (.inl rfl) rfl : FVec Ideal S2048 .f32) (ix1 q)
      = rv (ix2 q (Cert.Spec.colFin (t (ix1 q)))) := by
  refine (Cert.OneHot.colPick_apply lanes_le (minsi (broadcast S2048 511#32) (maxsi (broadcast S2048 0#32) t))
    Facts₀.iota_S2048x512_d1_w32 Facts₀.shapeCasts_S2048_S2048x1 Facts₀.broadcasts_S2048x1_S2048x512 Facts₀.natLt_1_32 rv
    0x00000000#32 Facts₀.reduces_S2048x512_S2048 (.inl rfl) rfl q).trans ?_
  have hlt : (Cert.Spec.clampW (t (ix1 q))).toNat < 512 := Cert.Spec.clampW_lt _
  exact (dif_pos hlt).trans (congrArg (fun c : Fin 512 => rv (ix2 q c)) (Fin.ext (Nat.mod_eq_of_lt hlt).symm))

end Cert.KernelIdeal.OneHot

end
-- ==== Proof.LibSqueeze.lean ====
/-
  A block with two leading unit axes viewed as a matrix, and a matrix viewed as such a block, read at an index: the
  [1, 1, m, n] block at (0, 0, r, c) is the [m, n] matrix at (r, c) — both sit at row-major position r · n + c.
-/
import Idealize.ShloMosaic.Lib.Pipeline.Value
import Idealize.ShloMosaic.Lib.ValueIdx

noncomputable section

namespace Squeeze

open Idealize.ShloMosaic Idealize.ShloMosaic.ValueIdx

variable {α : Type}

/-- A 1 × 1 × m × n block viewed as an m × n matrix reads (r, c) at (0, 0, r, c). -/
theorem squeeze2_apply {m n : Nat} (P : (⟨4, ![1, 1, m, n]⟩ : Shape).Idx → α)
    (h : (⟨4, ![1, 1, m, n]⟩ : Shape).ShapeCasts ⟨2, ![m, n]⟩) (r : Fin m) (c : Fin n) :
    shapeCast ⟨2, ![m, n]⟩ P h (ix2 r c) = P (ix4 (0 : Fin 1) (0 : Fin 1) r c) :=
  shapeCast_apply P h _ _ (by
    rw [Shape.rowMajor_val_four, Shape.rowMajor_val_two]
    show ((0 * 1 + 0) * m + r.val) * n + c.val = r.val * n + c.val
    simp)

/-- An m × n matrix viewed as a 1 × 1 × m × n block reads `y` at (y 2, y 3). -/
theorem unsqueeze2_apply {m n : Nat} (X : (⟨2, ![m, n]⟩ : Shape).Idx → α)
    (h : (⟨2, ![m, n]⟩ : Shape).ShapeCasts ⟨4, ![1, 1, m, n]⟩) (y : (⟨4, ![1, 1, m, n]⟩ : Shape).Idx) :
    shapeCast ⟨4, ![1, 1, m, n]⟩ X h y = X (ix2 (y 2) (y 3)) :=
  shapeCast_apply X h _ _ (by
    have h0 : (y 0).val < 1 := (y 0).isLt
    have h1 : (y 1).val < 1 := (y 1).isLt
    have e0 : (y 0).val = 0 := by omega
    have e1 : (y 1).val = 0 := by omega
    rw [Shape.rowMajor_val_two, Shape.rowMajor_val_four]
    show (y 2).val * n + (y 3).val = (((y 0).val * 1 + (y 1).val) * m + (y 2).val) * n + (y 3).val
    rw [e0, e1]
    simp)

end Squeeze

end
-- ==== Proof.KerLane.lean ====
/-
  One lane of the kernel body's stored block.

  The body works on 2048 output pixels at once; every operation of it is lane-wise except the row pick (a matrix
  product with a one-hot mask) and the column pick (a lane sum against a one-hot mask), and those read, in lane q,
  only row q of their operand.  So lane q of the stored block is a function of lane q of the two coordinate blocks
  and of the image block: the nine candidates tried in order, each a row pick followed by a column pick, the first
  one that counts kept — the sampler's value at the pixel numbers of lane q.
-/
import proofs.«145129_j67757404062167_2_alg».proof.Proof.Gen.KernelIdeal.Frame
import proofs.«145129_j67757404062167_2_alg».proof.Proof.KerOneHot
import proofs.«145129_j67757404062167_2_alg».proof.Proof.LibSqueeze
import proofs.«145129_j67757404062167_2_alg».proof.Proof.Spec

noncomputable section

namespace Cert.KernelIdeal.KerLane

open Idealize.ShloMosaic Idealize.ShloMosaic.ValueIdx Cert.KernelIdeal Cert.KernelIdeal.Gen

/-! ## Lane-wise operations read at an index -/

variable {s : Shape} {w : Nat}

theorem andi_apply (a b : IVec s w) (i : s.Idx) : andi a b i = IntOp.andi (a i) (b i) := rfl
theorem ori_apply (a b : IVec s w) (i : s.Idx) : ori a b i = IntOp.ori (a i) (b i) := rfl
theorem addi_apply (a b : IVec s w) (i : s.Idx) : addi a b i = IntOp.addi (a i) (b i) := rfl
theorem maxsi_apply (a b : IVec s w) (i : s.Idx) : maxsi a b i = IntOp.maxsi (a i) (b i) := rfl
theorem minsi_apply (a b : IVec s w) (i : s.Idx) : minsi a b i = IntOp.minsi (a i) (b i) := rfl
theorem cmpi_apply (p : CmpIPredicate) (a b : IVec s w) (i : s.Idx) : cmpi p a b i = IntOp.cmpi p (a i) (b i) := rfl
theorem cmpf_one_apply (a b : FVec Ideal s .f32) (i : s.Idx) : cmpf .one a b i = Ideal.cmp .one (a i) (b i) := rfl
theorem fptosi_apply (a : FVec Ideal s .f32) (i : s.Idx) : fptosi 32 a i = Ideal.fptosi 32 (a i) := rfl
theorem roundeven_apply (a : FVec Ideal s .f32) (i : s.Idx) : roundeven a i = Ideal.liftRound Ideal.roundHalfEven (a i) := rfl
theorem scalar_ofBits (b : BitVec 32) : (Scalar.ofBits (F := Ideal) .f32 b : EReal) = Ideal.ofBits .f32 b := rfl

/-- A 1 × 1 × 2048 block viewed as a vector reads lane q at (0, 0, q). -/
theorem squeeze3_apply {α : Type} (x : S1x1x2048.Idx → α) (h : S1x1x2048.ShapeCasts S2048) (q : Fin 2048) :
    shapeCast S2048 x h (ix1 q) = x (ix3 (0 : Fin 1) (0 : Fin 1) q) :=
  shapeCast_apply x h _ _ (by
    rw [Shape.rowMajor_val_three, Shape.rowMajor_val_one]
    show (0 * 1 + 0) * 2048 + q.val = q.val
    omega)

/-- A vector viewed as a 1 × 1 × 2048 block reads (0, 0, q) at lane q. -/
theorem unsqueeze3_apply {α : Type} (v : S2048.Idx → α) (h : S2048.ShapeCasts S1x1x2048) (q : Fin 2048) :
    shapeCast S1x1x2048 v h (ix3 (0 : Fin 1) (0 : Fin 1) q) = v (ix1 q) :=
  shapeCast_apply v h _ _ (by
    rw [Shape.rowMajor_val_three, Shape.rowMajor_val_one]
    show q.val = (0 * 1 + 0) * 2048 + q.val
    omega)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The row picks and the column picks, lane q -/

section Picks
variable (q : Fin 2048)

theorem pay8_lane (v2 : Vec Ideal S1x1x2048 .f32) (v20 : Vec Ideal S1x1x512x512 .f32) (c : Fin 512) :
    k0_pay8 (F := Ideal) v2 v20 (ix2 q c) = Cert.Spec.rowAt (fun h w => k0_pay4 v20 (ix2 h w)) (k0_pay7 v2 (ix1 q)) c :=
  OneHot.rowSel_apply (k0_pay7 v2) (k0_pay4 v20) q c

theorem pay17_lane (v24 : IVec S2048x512 32) (hI : v24 = (iota .tc S2048x512 32 [1] iota_S2048x512_d1_w32)) (v19 : IVec S2048 32) (v22 : FVec Ideal S512x512 .bf16) (c : Fin 512) :
    k0_pay17 (F := Ideal) v19 v22 v24 (ix2 q c) = Cert.Spec.rowAt (fun h w => v22 (ix2 h w)) (k0_pay16 v19 (ix1 q)) c := by
  subst hI; exact OneHot.rowSel_apply (k0_pay16 v19) v22 q c

theorem pay44_lane (v24 : IVec S2048x512 32) (hI : v24 = (iota .tc S2048x512 32 [1] iota_S2048x512_d1_w32)) (v19 : IVec S2048 32) (v22 : FVec Ideal S512x512 .bf16) (c : Fin 512) :
    k0_pay44 (F := Ideal) v19 v22 v24 (ix2 q c) = Cert.Spec.rowAt (fun h w => v22 (ix2 h w)) (k0_pay43 v19 (ix1 q)) c := by
  subst hI; exact OneHot.rowSel_apply (k0_pay43 v19) v22 q c

theorem pay12_lane (v24 : IVec S2048x512 32) (hI : v24 = (iota .tc S2048x512 32 [1] iota_S2048x512_d1_w32)) (v11 : IVec S2048 32) (v35 : FVec Ideal S2048x512 .f32) :
    k0_pay12 (F := Ideal) v11 v24 v35 (ix1 q) = v35 (ix2 q (Cert.Spec.colFin (k0_pay11 v11 (ix1 q)))) := by
  subst hI; exact OneHot.colPick_apply (k0_pay11 v11) v35 q

theorem pay21_lane (v24 : IVec S2048x512 32) (hI : v24 = (iota .tc S2048x512 32 [1] iota_S2048x512_d1_w32)) (v74 : FVec Ideal S2048x512 .f32) (v81 : IVec S2048 32) :
    k0_pay21 (F := Ideal) v24 v74 v81 (ix1 q) = v74 (ix2 q (Cert.Spec.colFin (v81 (ix1 q)))) := by
  subst hI; exact OneHot.colPick_apply v81 v74 q

theorem pay25_lane (v24 : IVec S2048x512 32) (hI : v24 = (iota .tc S2048x512 32 [1] iota_S2048x512_d1_w32)) (v11 : IVec S2048 32) (v74 : FVec Ideal S2048x512 .f32) :
    k0_pay25 (F := Ideal) v11 v24 v74 (ix1 q) = v74 (ix2 q (Cert.Spec.colFin (k0_pay24 v11 (ix1 q)))) := by
  subst hI; exact OneHot.colPick_apply (k0_pay24 v11) v74 q

theorem pay30_lane (v24 : IVec S2048x512 32) (hI : v24 = (iota .tc S2048x512 32 [1] iota_S2048x512_d1_w32)) (v11 : IVec S2048 32) (v74 : FVec Ideal S2048x512 .f32) (c1 : BitVec 32) :
    k0_pay30 (F := Ideal) v11 v24 v74 c1 (ix1 q) = v74 (ix2 q (Cert.Spec.colFin (k0_pay29 v11 c1 (ix1 q)))) := by
  subst hI; exact OneHot.colPick_apply (k0_pay29 v11 c1) v74 q

theorem pay35_lane (v24 : IVec S2048x512 32) (hI : v24 = (iota .tc S2048x512 32 [1] iota_S2048x512_d1_w32)) (v11 : IVec S2048 32) (v35 : FVec Ideal S2048x512 .f32) :
    k0_pay35 (F := Ideal) v11 v24 v35 (ix1 q) = v35 (ix2 q (Cert.Spec.colFin (k0_pay34 v11 (ix1 q)))) := by
  subst hI; exact OneHot.colPick_apply (k0_pay34 v11) v35 q

theorem pay39_lane (v24 : IVec S2048x512 32) (hI : v24 = (iota .tc S2048x512 32 [1] iota_S2048x512_d1_w32)) (v11 : IVec S2048 32) (v35 : FVec Ideal S2048x512 .f32) :
    k0_pay39 (F := Ideal) v11 v24 v35 (ix1 q) = v35 (ix2 q (Cert.Spec.colFin (k0_pay38 v11 (ix1 q)))) := by
  subst hI; exact OneHot.colPick_apply (k0_pay38 v11) v35 q

theorem pay48_lane (v24 : IVec S2048x512 32) (hI : v24 = (iota .tc S2048x512 32 [1] iota_S2048x512_d1_w32)) (v213 : FVec Ideal S2048x512 .f32) (v220 : IVec S2048 32) :
    k0_pay48 (F := Ideal) v24 v213 v220 (ix1 q) = v213 (ix2 q (Cert.Spec.colFin (v220 (ix1 q)))) := by
  subst hI; exact OneHot.colPick_apply v220 v213 q

theorem pay52_lane (v24 : IVec S2048x512 32) (hI : v24 = (iota .tc S2048x512 32 [1] iota_S2048x512_d1_w32)) (v11 : IVec S2048 32) (v213 : FVec Ideal S2048x512 .f32) :
    k0_pay52 (F := Ideal) v11 v24 v213 (ix1 q) = v213 (ix2 q (Cert.Spec.colFin (k0_pay51 v11 (ix1 q)))) := by
  subst hI; exact OneHot.colPick_apply (k0_pay51 v11) v213 q

/-- The last candidate's step, whose column pick is written inside it. -/
theorem pay1_lane (v24 : IVec S2048x512 32) (hI : v24 = (iota .tc S2048x512 32 [1] iota_S2048x512_d1_w32)) (v213 : FVec Ideal S2048x512 .f32) (v218 : IVec S2048 1) (v267 : FVec Ideal S2048 .f32) (v268 : IVec S2048 1)
    (v270 : IVec S2048 32) :
    k0_pay1 (F := Ideal) v24 v213 v218 v267 v268 v270 (ix3 (0 : Fin 1) (0 : Fin 1) q)
      = Scalar.select (v268 (ix1 q)) (v267 (ix1 q))
          (Scalar.select
            (IntOp.andi (IntOp.andi (v218 (ix1 q)) (Cert.Spec.inb (v270 (ix1 q))))
              (Ideal.cmp .one (v213 (ix2 q (Cert.Spec.colFin (v270 (ix1 q))))) (Ideal.ofBits .f32 0x00000000#32)))
            (v213 (ix2 q (Cert.Spec.colFin (v270 (ix1 q))))) (v267 (ix1 q))) := by
  subst hI
  unfold k0_pay1
  refine (unsqueeze3_apply _ _ q).trans ?_
  simp only [select_apply, andi_apply, cmpi_apply, cmpf_one_apply, broadcast_apply, scalar_ofBits]
  rw [OneHot.colPick_apply]
  rfl

end Picks

set_option maxHeartbeats 2000000 in
theorem out0_3_apply (x0 x1 : Vec Ideal S1x1x2048 .f32) (x2 : Vec Ideal S1x1x512x512 .f32) (q : Fin 2048) :
    Gen.out0_3 (F := Ideal) x0 x1 x2 (ix3 (0 : Fin 1) (0 : Fin 1) q)
      = Cert.Spec.pick (fun h w => x2 (ix4 (0 : Fin 1) (0 : Fin 1) h w))
          (Cert.Spec.coordOf (x1 (ix3 (0 : Fin 1) (0 : Fin 1) q))) (Cert.Spec.coordOf (x0 (ix3 (0 : Fin 1) (0 : Fin 1) q))) := by
  unfold Gen.out0_3
  rw [View.canon_unit_zero hz3]
  simp only [View.ld_unit_zero (S := S1x1x2048) hz3, View.ld_unit_zero (S := S1x1x512x512) hz4]
  rw [pay1_lane q _ rfl]
  simp only [pay8_lane, pay17_lane, pay44_lane, pay12_lane, pay21_lane, pay25_lane, pay30_lane, pay35_lane,
    pay39_lane, pay48_lane, pay52_lane,
    k0_pay2, k0_pay3, k0_pay4, k0_pay5, k0_pay6, k0_pay7, k0_pay9, k0_pay10,
    k0_pay11, k0_pay13, k0_pay14, k0_pay15, k0_pay16, k0_pay18, k0_pay19, k0_pay20,
    k0_pay22, k0_pay23, k0_pay24, k0_pay26, k0_pay27, k0_pay28, k0_pay29,
    k0_pay31, k0_pay32, k0_pay33, k0_pay34, k0_pay36, k0_pay37, k0_pay38, k0_pay40,
    k0_pay41, k0_pay42, k0_pay43, k0_pay45, k0_pay46, k0_pay47, k0_pay49, k0_pay50,
    k0_pay51, k0_pay53, k0_pay54, k0_pay55, k0_pay56,
    squeeze3_apply, Squeeze.squeeze2_apply,
    select_apply, andi_apply, ori_apply, addi_apply, cmpi_apply, cmpf_one_apply, broadcast_apply,
    fptosi_apply, roundeven_apply, mulf_apply, addf_apply, truncf_apply, scalar_ofBits]
  simp only [Cert.Spec.pick, Cert.Spec.offs, List.foldl, Cert.Spec.step, Cert.Spec.valid, Cert.Spec.inb, Cert.Spec.cand_eq,
    Cert.Spec.coordOf]

end Cert.KernelIdeal.KerLane

end
-- ==== Proof.KerRunPoints.lean ====
/-
  The grid of the sampler's one call: 8 × 512 points, point t working on batch t / 512 and on the stretch t % 512 of
  2048 consecutive output pixels.  The two coordinate windows and the output window sit at block (t / 512, 0, t % 512),
  the image window at block (t / 512, 0, 0, 0): read off the printed index maps, once, over all 4096 points.
-/
import proofs.«145129_j67757404062167_2_alg».proof.Proof.Gen.KernelIdeal.Launch

namespace Cert.KernelIdeal.KerRun

open Cert.KernelIdeal Cert.KernelIdeal.Gen Idealize.ShloMosaic

/-- The printed index maps over the grid: point t is batch t / 512, stretch t % 512. -/
theorem idx_facts : ∀ t : Fin cfg0.N,
    win0_0.index t (0 : Fin 3) = t.val / 512 ∧ win0_0.index t (1 : Fin 3) = 0 ∧ win0_0.index t (2 : Fin 3) = t.val % 512
    ∧ win0_1.index t (0 : Fin 3) = t.val / 512 ∧ win0_1.index t (1 : Fin 3) = 0 ∧ win0_1.index t (2 : Fin 3) = t.val % 512
    ∧ win0_2.index t (0 : Fin 4) = t.val / 512 ∧ win0_2.index t (1 : Fin 4) = 0 ∧ win0_2.index t (2 : Fin 4) = 0 ∧ win0_2.index t (3 : Fin 4) = 0
    ∧ win0_3.index t (0 : Fin 3) = t.val / 512 ∧ win0_3.index t (1 : Fin 3) = 0 ∧ win0_3.index t (2 : Fin 3) = t.val % 512 :=
  (by decide +kernel : ∀ t : Fin grid0.N, _)

/-- A point's number is below 4096. -/
theorem point_lt (t : Fin cfg0.N) : t.val < 4096 := by
  have hN : cfg0.N = 4096 := N_0
  exact hN ▸ t.isLt

/-- The point of batch b and stretch s. -/
def pointOf (b : Fin 8) (s : Fin 512) : Fin cfg0.N :=
  ⟨b.val * 512 + s.val, by have hN : cfg0.N = 4096 := N_0; rw [hN]; omega⟩

theorem pointOf_val (b : Fin 8) (s : Fin 512) : (pointOf b s).val = b.val * 512 + s.val := rfl

end Cert.KernelIdeal.KerRun
-- ==== Proof.KerRunHost.lean ====
/-
  One lane of the sampling grid, flattened: slicing lane k off the last axis of an 8×1024×1024×2 array, dropping the
  unit axis and flattening the two pixel axes into one of 1048576 reads, at (b, 0, n), the array at
  (b, n / 1024, n % 1024, k); and unflattening an 8×1×1048576 array to 8×1×1024×1024 reads, at (b, 0, i, j), the
  array at (b, 0, 1024·i + j).  Both are row-major position arithmetic.
-/
import Idealize.ShloMosaic.Lib.Pipeline.Value
import Idealize.ShloMosaic.Lib.ValueIdx

namespace Cert.KernelIdeal.KerRun

open Idealize.ShloMosaic Idealize.ShloMosaic.ValueIdx

/-- Lane k of the grid flattened, read at (b, 0, n): the pair at output pixel (n / 1024, n % 1024) of batch b. -/
theorem lane_flat_apply {α : Type} (g : (⟨4, ![8, 1024, 1024, 2]⟩ : Shape).Idx → α) (off : Fin 4 → Nat) (k : Fin 2)
    (o0 : off 0 = 0) (o1 : off 1 = 0) (o2 : off 2 = 0) (o3 : off 3 = k.val)
    (h1 : (⟨4, ![8, 1024, 1024, 2]⟩ : Shape).Slices off ⟨4, ![8, 1024, 1024, 1]⟩)
    (h2 : (⟨4, ![8, 1024, 1024, 1]⟩ : Shape).ShapeCasts ⟨3, ![8, 1024, 1024]⟩)
    (h3 : (⟨3, ![8, 1024, 1024]⟩ : Shape).ShapeCasts ⟨3, ![8, 1, 1048576]⟩)
    (b : Fin 8) (n : Fin 1048576) (i j : Fin 1024) (hi : i.val = n.val / 1024) (hj : j.val = n.val % 1024) :
    shapeCast ⟨3, ![8, 1, 1048576]⟩ (shapeCast ⟨3, ![8, 1024, 1024]⟩ (extractStridedSlice ⟨4, ![8, 1024, 1024, 1]⟩ off g h1) h2) h3
        (ix3 b (0 : Fin 1) n)
      = g (ix4 b i j k) := by
  refine (shapeCast_apply _ h3 (ix3 b (0 : Fin 1) n) (ix3 b i j) ?_).trans ?_
  · rw [Shape.rowMajor_val_three, Shape.rowMajor_val_three]
    show (b.val * 1024 + i.val) * 1024 + j.val = (b.val * 1 + 0) * 1048576 + n.val
    omega
  refine (shapeCast_apply _ h2 (ix3 b i j) (ix4 b i j (0 : Fin 1)) ?_).trans ?_
  · rw [Shape.rowMajor_val_four, Shape.rowMajor_val_three]
    show ((b.val * 1024 + i.val) * 1024 + j.val) * 1 + 0 = (b.val * 1024 + i.val) * 1024 + j.val
    omega
  refine extractStridedSlice_apply off g h1 (ix4 b i j (0 : Fin 1)) (ix4 b i j k) fun a => ?_
  match a with
  | ⟨0, _⟩ => show b.val = off 0 + b.val; omega
  | ⟨1, _⟩ => show i.val = off 1 + i.val; omega
  | ⟨2, _⟩ => show j.val = off 2 + j.val; omega
  | ⟨3, _⟩ => show k.val = off 3 + 0; omega

/-- The flat result unflattened, read at (b, 0, i, j): the flat array at (b, 0, 1024·i + j). -/
theorem unflat_apply {α : Type} (x : (⟨3, ![8, 1, 1048576]⟩ : Shape).Idx → α)
    (h : (⟨3, ![8, 1, 1048576]⟩ : Shape).ShapeCasts ⟨4, ![8, 1, 1024, 1024]⟩)
    (b : Fin 8) (i j : Fin 1024) (n : Fin 1048576) (hn : n.val = 1024 * i.val + j.val) :
    shapeCast ⟨4, ![8, 1, 1024, 1024]⟩ x h (ix4 b (0 : Fin 1) i j) = x (ix3 b (0 : Fin 1) n) := by
  refine shapeCast_apply x h (ix4 b (0 : Fin 1) i j) (ix3 b (0 : Fin 1) n) ?_
  rw [Shape.rowMajor_val_four, Shape.rowMajor_val_three]
  show (b.val * 1 + 0) * 1048576 + n.val = ((b.val * 1 + 0) * 1024 + i.val) * 1024 + j.val
  omega

end Cert.KernelIdeal.KerRun
-- ==== Proof.KerRunBlocks.lean ====
/-
  What one grid point of the sampler's call writes back, as a block of ONE function of the two argument arrays.

  The call works on the sampling grid's two lanes flattened to 8×1×1048576 and writes a flat 8×1×1048576 array.  The
  flat result K has, at (b, 0, n), the sampler's value for batch b at output pixel (n / 1024, n % 1024).  Point t holds
  lanes 2048·(t % 512) … 2048·(t % 512) + 2047 of batch t / 512 of each coordinate array and all of image t / 512; lane q
  of what it stores is the sampler's value at the pixel numbers of lane q of its two coordinate blocks, in its image
  block — which is K at (t / 512, 0, 2048·(t % 512) + q).
-/
import proofs.«145129_j67757404062167_2_alg».proof.Proof.KerLane
import proofs.«145129_j67757404062167_2_alg».proof.Proof.KerRunPoints
import proofs.«145129_j67757404062167_2_alg».proof.Proof.KerRunHost
import Idealize.ShloMosaic.Lib.Pipeline.Value
import Idealize.ShloMosaic.Lib.ValueIdx

noncomputable section

namespace Cert.KernelIdeal.KerRun

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The flat result: at (b, 0, n) the sampler's value at batch b, output pixel (n / 1024, n % 1024). -/
def K (img : S8x1x512x512.Idx → EReal) (g : S8x1024x1024x2.Idx → EReal) : S8x1x1048576.Idx → EReal :=
  fun i => Cert.Spec.Gat img g (i 0) ⟨(i 2).val / 1024, by have h : (i 2).val < 1048576 := (i 2).isLt; omega⟩
    ⟨(i 2).val % 1024, Nat.mod_lt _ (by decide)⟩

theorem K_apply (img : S8x1x512x512.Idx → EReal) (g : S8x1024x1024x2.Idx → EReal) (b : Fin 8) (n : Fin 1048576)
    (i j : Fin 1024) (hi : i.val = n.val / 1024) (hj : j.val = n.val % 1024) :
    K img g (ix3 b (0 : Fin 1) n) = Cert.Spec.Gat img g b i j :=
  show Cert.Spec.Gat img g b ⟨n.val / 1024, _⟩ ⟨n.val % 1024, _⟩ = _ from
    congr (congrArg (Cert.Spec.Gat img g b) (Fin.ext hi.symm)) (Fin.ext hj.symm)

/-- Lane 0 of the grid, flattened, as the call finds it. -/
theorem V_v2 (c : Dev nD) : (V m c main_v2 : S8x1x1048576.Idx → EReal)
    = shapeCast S8x1x1048576 (shapeCast S8x1024x1024 (extractStridedSlice S8x1024x1024x1 ![0, 0, 0, 0] (m ((c : Thread nD τ).loc main_arg1) : S8x1024x1024x2.Idx → EReal) slices_S8x1024x1024x2_S8x1024x1024x1_0_0_0_0) shapeCasts_S8x1024x1024x1_S8x1024x1024) shapeCasts_S8x1024x1024_S8x1x1048576 := by
  show StableHlo.after hostOps0 (fun b => m (c, b)) (Proc.devRef .tc main_v2) = _
  after_results
  rfl

/-- Lane 1 of the grid, flattened, as the call finds it. -/
theorem V_v5 (c : Dev nD) : (V m c main_v5 : S8x1x1048576.Idx → EReal)
    = shapeCast S8x1x1048576 (shapeCast S8x1024x1024 (extractStridedSlice S8x1024x1024x1 ![0, 0, 0, 1] (m ((c : Thread nD τ).loc main_arg1) : S8x1024x1024x2.Idx → EReal) slices_S8x1024x1024x2_S8x1024x1024x1_0_0_0_1) shapeCasts_S8x1024x1024x1_S8x1024x1024) shapeCasts_S8x1024x1024_S8x1x1048576 := by
  show StableHlo.after hostOps0 (fun b => m (c, b)) (Proc.devRef .tc main_v5) = _
  after_results
  rfl

/-- Lane q of window 0's block at point t, of ANY flat array: the array at batch t / 512, flat pixel 2048·(t % 512) + q. -/
theorem read_blk0 (A : S8x1x1048576.Idx → EReal) (t : Fin cfg0.N) (q : Fin 2048) (b : Fin 8) (n : Fin 1048576)
    (hb : b.val = t.val / 512) (hn : n.val = 2048 * (t.val % 512) + q.val) :
    (((cfg0.win 0).blk t).view.read (Elt Ideal) A : Vec Ideal S1x1x2048 .f32) (ix3 (0 : Fin 1) (0 : Fin 1) q)
      = A (ix3 b (0 : Fin 1) n) := by
  obtain ⟨e0, e1, e2, -⟩ := idx_facts t
  show A (((cfg0.win 0).blk t).view.emb (ix3 (0 : Fin 1) (0 : Fin 1) q)) = _
  refine congrArg A (funext fun a => Fin.ext ?_)
  match a with
  | ⟨0, _⟩ => show win0_0.index t (0 : Fin 3) * 1 + 1 * 0 = b.val; omega
  | ⟨1, _⟩ => show win0_0.index t (1 : Fin 3) * 1 + 1 * 0 = 0; omega
  | ⟨2, _⟩ => show win0_0.index t (2 : Fin 3) * 2048 + 1 * q.val = n.val; omega

/-- The same for window 1. -/
theorem read_blk1 (A : S8x1x1048576.Idx → EReal) (t : Fin cfg0.N) (q : Fin 2048) (b : Fin 8) (n : Fin 1048576)
    (hb : b.val = t.val / 512) (hn : n.val = 2048 * (t.val % 512) + q.val) :
    (((cfg0.win 1).blk t).view.read (Elt Ideal) A : Vec Ideal S1x1x2048 .f32) (ix3 (0 : Fin 1) (0 : Fin 1) q)
      = A (ix3 b (0 : Fin 1) n) := by
  obtain ⟨-, -, -, e0, e1, e2, -⟩ := idx_facts t
  show A (((cfg0.win 1).blk t).view.emb (ix3 (0 : Fin 1) (0 : Fin 1) q)) = _
  refine congrArg A (funext fun a => Fin.ext ?_)
  match a with
  | ⟨0, _⟩ => show win0_1.index t (0 : Fin 3) * 1 + 1 * 0 = b.val; omega
  | ⟨1, _⟩ => show win0_1.index t (1 : Fin 3) * 1 + 1 * 0 = 0; omega
  | ⟨2, _⟩ => show win0_1.index t (2 : Fin 3) * 2048 + 1 * q.val = n.val; omega

/-- Window 2's block at point t, of ANY image array: image t / 512. -/
theorem read_blk2 (A : S8x1x512x512.Idx → EReal) (t : Fin cfg0.N) (h w : Fin 512) (b : Fin 8) (hb : b.val = t.val / 512) :
    (((cfg0.win 2).blk t).view.read (Elt Ideal) A : Vec Ideal S1x1x512x512 .f32) (ix4 (0 : Fin 1) (0 : Fin 1) h w)
      = A (ix4 b (0 : Fin 1) h w) := by
  obtain ⟨-, -, -, -, -, -, e0, e1, e2, e3, -⟩ := idx_facts t
  show A (((cfg0.win 2).blk t).view.emb (ix4 (0 : Fin 1) (0 : Fin 1) h w)) = _
  refine congrArg A (funext fun a => Fin.ext ?_)
  match a with
  | ⟨0, _⟩ => show win0_2.index t (0 : Fin 4) * 1 + 1 * 0 = b.val; omega
  | ⟨1, _⟩ => show win0_2.index t (1 : Fin 4) * 1 + 1 * 0 = 0; omega
  | ⟨2, _⟩ => show win0_2.index t (2 : Fin 4) * 512 + 1 * h.val = h.val; omega
  | ⟨3, _⟩ => show win0_2.index t (3 : Fin 4) * 512 + 1 * w.val = w.val; omega

/-- Lane q of the first coordinate block at point t: the grid's lane 0 at batch t / 512, output pixel (n / 1024, n % 1024)
    for n = 2048·(t % 512) + q. -/
theorem blk0_apply (c : Dev nD) (t : Fin cfg0.N) (q : Fin 2048) (b : Fin 8) (n : Fin 1048576) (i j : Fin 1024)
    (hb : b.val = t.val / 512) (hn : n.val = 2048 * (t.val % 512) + q.val) (hi : i.val = n.val / 1024) (hj : j.val = n.val % 1024) :
    (iblk m c 0 t : Vec Ideal S1x1x2048 .f32) (ix3 (0 : Fin 1) (0 : Fin 1) q)
      = (m ((c : Thread nD τ).loc main_arg1) : S8x1024x1024x2.Idx → EReal) (ix4 b i j (0 : Fin 2)) := by
  have hV := V_v2 m c
  unfold iblk
  generalize V m c (Pipeline.arrRef spec0 0) = A at hV ⊢
  subst hV
  refine (read_blk0 _ t q b n hb hn).trans ?_
  exact lane_flat_apply _ ![0, 0, 0, 0] (0 : Fin 2) rfl rfl rfl rfl _ _ _ b n i j hi hj

/-- Lane q of the second coordinate block at point t: the grid's lane 1 there. -/
theorem blk1_apply (c : Dev nD) (t : Fin cfg0.N) (q : Fin 2048) (b : Fin 8) (n : Fin 1048576) (i j : Fin 1024)
    (hb : b.val = t.val / 512) (hn : n.val = 2048 * (t.val % 512) + q.val) (hi : i.val = n.val / 1024) (hj : j.val = n.val % 1024) :
    (iblk m c 1 t : Vec Ideal S1x1x2048 .f32) (ix3 (0 : Fin 1) (0 : Fin 1) q)
      = (m ((c : Thread nD τ).loc main_arg1) : S8x1024x1024x2.Idx → EReal) (ix4 b i j (1 : Fin 2)) := by
  have hV := V_v5 m c
  unfold iblk
  generalize V m c (Pipeline.arrRef spec0 1) = A at hV ⊢
  subst hV
  refine (read_blk1 _ t q b n hb hn).trans ?_
  exact lane_flat_apply _ ![0, 0, 0, 1] (1 : Fin 2) rfl rfl rfl rfl _ _ _ b n i j hi hj

/-- The image block at point t is image t / 512. -/
theorem blk2_apply (c : Dev nD) (t : Fin cfg0.N) (h w : Fin 512) (b : Fin 8) (hb : b.val = t.val / 512) :
    (iblk m c 2 t : Vec Ideal S1x1x512x512 .f32) (ix4 (0 : Fin 1) (0 : Fin 1) h w)
      = (m ((c : Thread nD τ).loc main_arg0) : S8x1x512x512.Idx → EReal) (ix4 b (0 : Fin 1) h w) := by
  have hV := V_main_arg0 m c
  unfold iblk
  generalize V m c (Pipeline.arrRef spec0 2) = A at hV ⊢
  subst hV
  exact read_blk2 _ t h w b hb

/-- One lane of what point t leaves in the output's block: the flat result at batch t / 512, flat pixel 2048·(t % 512) + q. -/
theorem point_lane (c : Dev nD) (t : Fin cfg0.N) (q : Fin 2048) (b : Fin 8) (n : Fin 1048576)
    (hb : b.val = t.val / 512) (hn : n.val = 2048 * (t.val % 512) + q.val) :
    out0_3 (F := Ideal) (iblk m c 0 t) (iblk m c 1 t) (iblk m c 2 t) (ix3 (0 : Fin 1) (0 : Fin 1) q)
      = K (m ((c : Thread nD τ).loc main_arg0)) (m ((c : Thread nD τ).loc main_arg1)) (ix3 b (0 : Fin 1) n) := by
  have hlt : n.val / 1024 < 1024 := by have h := n.isLt; omega
  have e0 := blk0_apply m c t q b n ⟨n.val / 1024, hlt⟩ ⟨n.val % 1024, Nat.mod_lt _ (by decide)⟩ hb hn rfl rfl
  have e1 := blk1_apply m c t q b n ⟨n.val / 1024, hlt⟩ ⟨n.val % 1024, Nat.mod_lt _ (by decide)⟩ hb hn rfl rfl
  have e2 : (fun h w => (iblk m c 2 t : Vec Ideal S1x1x512x512 .f32) (ix4 (0 : Fin 1) (0 : Fin 1) h w))
      = fun h w => (m ((c : Thread nD τ).loc main_arg0) : S8x1x512x512.Idx → EReal) (ix4 b (0 : Fin 1) h w) :=
    funext fun h => funext fun w => blk2_apply m c t h w b hb
  refine (KerLane.out0_3_apply (iblk m c 0 t) (iblk m c 1 t) (iblk m c 2 t) q).trans ?_
  refine Eq.trans ?_ (K_apply _ _ b n ⟨n.val / 1024, hlt⟩ ⟨n.val % 1024, Nat.mod_lt _ (by decide)⟩ rfl rfl).symm
  exact congr (congr (congrArg Cert.Spec.pick e2) (congrArg Cert.Spec.coordOf e1)) (congrArg Cert.Spec.coordOf e0)

/-- WHAT POINT t WRITES BACK is its block of the flat result. -/
theorem flushed_eq (c : Dev nD) (t : Fin cfg0.N) :
    (dats m 0 c).flushed 3 t = ((cfg0.win 3).blk t).view.read (Elt Ideal)
      (K (m ((c : Thread nD τ).loc main_arg0)) (m ((c : Thread nD τ).loc main_arg1))) := by
  show (cfg0.win 3).cut (grid0.coords t) ((dats m 0 c).after 3 t) = _
  rw [after0_3]
  have ht := point_lt t
  obtain ⟨-, -, -, -, -, -, -, -, -, -, e0, e1, e2⟩ := idx_facts t
  funext j
  have hj0 : (j 0).val = 0 := Nat.lt_one_iff.mp (j 0).isLt
  have hj1 : (j 1).val = 0 := Nat.lt_one_iff.mp (j 1).isLt
  have hj2 : (j 2).val < 2048 := (j 2).isLt
  have hjq : j = ix3 (0 : Fin 1) (0 : Fin 1) (⟨(j 2).val, hj2⟩ : Fin 2048) := funext fun a => Fin.ext (by
    match a with
    | ⟨0, _⟩ => exact hj0
    | ⟨1, _⟩ => exact hj1
    | ⟨2, _⟩ => rfl)
  have hemb : ((cfg0.win 3).blk t).view.emb j
      = ix3 (⟨t.val / 512, by omega⟩ : Fin 8) (0 : Fin 1) (⟨2048 * (t.val % 512) + (j 2).val, by omega⟩ : Fin 1048576) :=
    funext fun a => Fin.ext (by
      match a with
      | ⟨0, _⟩ => show win0_3.index t (0 : Fin 3) * 1 + 1 * (j 0).val = t.val / 512; omega
      | ⟨1, _⟩ => show win0_3.index t (1 : Fin 3) * 1 + 1 * (j 1).val = 0; omega
      | ⟨2, _⟩ => show win0_3.index t (2 : Fin 3) * 2048 + 1 * (j 2).val = 2048 * (t.val % 512) + (j 2).val; omega)
  show out0_3 (F := Ideal) (iblk m c 0 t) (iblk m c 1 t) (iblk m c 2 t) j
    = K (m ((c : Thread nD τ).loc main_arg0)) (m ((c : Thread nD τ).loc main_arg1)) (((cfg0.win 3).blk t).view.emb j)
  refine (congrArg (out0_3 (F := Ideal) (iblk m c 0 t) (iblk m c 1 t) (iblk m c 2 t)) hjq).trans ?_
  exact (point_lane m c t _ _ _ rfl rfl).trans (congrArg (K _ _) hemb.symm)

end Cert.KernelIdeal.KerRun

end
-- ==== Proof.KerRun.lean ====
/-
  The kernel program's run with its result named: the 4096 blocks tile the flat array (index (b, 0, n) lies in the block
  of batch b, stretch n / 2048), so after the call the flat array is the flat result K; the last operation unflattens it,
  (b, 0, i, j) reading (b, 0, 1024·i + j), which is the sampler's value for batch b at output pixel (i, j): the
  specification's array.  The two arguments are never written.
-/
import proofs.«145129_j67757404062167_2_alg».proof.Proof.KerRunBlocks

noncomputable section

namespace Cert.KernelIdeal.KerRun

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- An index of the flat array is in point t's block iff each coordinate is in the block's range on its axis. -/
theorem mem_blk (t : Fin cfg0.N) (i : S8x1x1048576.Idx) :
    i ∈ ((cfg0.win 3).blk t).view.set ↔ ∀ a : Fin 3, win0_3.index t a * S1x1x2048.size a ≤ (i a).val ∧ (i a).val < win0_3.index t a * S1x1x2048.size a + S1x1x2048.size a := by
  show i ∈ ((View.whole main_v6).slice (win0_3.rect t)).set ↔ _
  rw [View.set_slice_whole, Rect.mem_set_unit]
  exact Iff.rfl

/-- Every index of the flat array is in some point's block: (b, 0, n) in that of batch b, stretch n / 2048. -/
theorem cover (i : S8x1x1048576.Idx) :
    ∃ t : Fin cfg0.N, (cfg0.win 3).flush t = true ∧ i ∈ ((cfg0.win 3).blk t).view.set := by
  have hi0 : (i 0).val < 8 := (i 0).isLt
  have hi1 : (i 1).val < 1 := (i 1).isLt
  have hi2 : (i 2).val < 1048576 := (i 2).isLt
  obtain ⟨T, hT⟩ : ∃ T : Fin cfg0.N, T.val = (i 0).val * 512 + (i 2).val / 2048 :=
    ⟨pointOf ⟨(i 0).val, hi0⟩ ⟨(i 2).val / 2048, by omega⟩, rfl⟩
  obtain ⟨-, -, -, -, -, -, -, -, -, -, e0, e1, e2⟩ := idx_facts T
  refine ⟨T, flush0_3 T, ?_⟩
  rw [mem_blk]
  intro a
  match a with
  | ⟨0, _⟩ => show win0_3.index T (0 : Fin 3) * 1 ≤ (i 0).val ∧ (i 0).val < win0_3.index T (0 : Fin 3) * 1 + 1; omega
  | ⟨1, _⟩ => show win0_3.index T (1 : Fin 3) * 1 ≤ (i 1).val ∧ (i 1).val < win0_3.index T (1 : Fin 3) * 1 + 1; omega
  | ⟨2, _⟩ => show win0_3.index T (2 : Fin 3) * 2048 ≤ (i 2).val ∧ (i 2).val < win0_3.index T (2 : Fin 3) * 2048 + 2048; omega

/-- THE FLAT ARRAY after the call is the flat result. -/
theorem final (c : Dev nD) : (dats m 0 c).arrAt 3 cfg0.N
    = K (m ((c : Thread nD τ).loc main_arg0)) (m ((c : Thread nD τ).loc main_arg1)) :=
  (dats m 0 c).arrAt_eq_of_cover 3 (K (m ((c : Thread nD τ).loc main_arg0)) (m ((c : Thread nD τ).loc main_arg1)))
    (fun t _ => flushed_eq m c t) cover

/-- The result array, the flat array unflattened to 8×1×1024×1024, is the specification's. -/
theorem tail_eq (c : Dev nD) : Pipeline.afterTail₀ cfgs (dats m) 0 (V0 m) [hostOps1] c main_v7
    = Cert.Spec.G (m ((c : Thread nD τ).loc main_arg0)) (m ((c : Thread nD τ).loc main_arg1)) := by
  unfold Pipeline.afterTail₀
  show StableHlo.after hostOps1 _ (Proc.devRef .tc main_v7) = _
  after_results
  rw [(Pipeline.withArrays_arr spec0 launch0.win.arr_inj c _ _ 3).trans (final m c)]
  funext idx
  obtain ⟨b, z, i, j, rfl⟩ : ∃ (b : Fin 8) (z : Fin 1) (i j : Fin 1024), idx = ix4 b z i j :=
    ⟨idx 0, idx 1, idx 2, idx 3, eq_ix4 idx⟩
  obtain rfl : z = 0 := Subsingleton.elim _ _
  have hn : 1024 * i.val + j.val < 1048576 := by omega
  refine (unflat_apply _ _ b i j ⟨1024 * i.val + j.val, hn⟩ rfl).trans ?_
  refine (K_apply _ _ b ⟨1024 * i.val + j.val, hn⟩ i j ?_ ?_).trans (Cert.Spec.G_apply _ _ b i j).symm
  · show i.val = (1024 * i.val + j.val) / 1024; omega
  · show j.val = (1024 * i.val + j.val) % 1024; omega

/-- The kernel program's run: the result array is the specification's function of the image and the grid, and the two
    arguments end as launched. -/
theorem run : θ_run (defs (F := Ideal)) (onTc (τ := τ) (main (F := Ideal))) ⟨m, fun _ => 0, ρ⟩ fun r => ∀ c : Dev nD,
      r.2.mem ((c.tc : Thread nD τ).loc main_v7) = Cert.Spec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v7 (Pipeline.mem_restRefs_of main_v7 (by decide) (by decide))).trans (tail_eq m c),
       ((h c).1 2).trans (((dats m 0 c).arrAt_in 2 rfl _).trans ((A_eq m c 2).trans (V_main_arg0 m c))),
       ((h c).2 main_arg1 (Pipeline.mem_restRefs_of main_arg1 (by decide) (by decide))).trans (W_main_arg1 m (dats m) c)⟩)
    (run_main m ρ)

end Cert.KernelIdeal.KerRun

end
-- ==== Proof.RefTerm.lean ====
/-
  The reference program's result as one term of its two argument arrays, stage by stage in the program's own
  operations: the two pixel numbers of every output pixel, the nine candidates' numbers and their in-range
  tests, the nine gathered values, the first candidate that counts (an arg-max over (counts, position) pairs),
  the value taken there, and zero where no candidate counts.
-/
import proofs.«145129_j67757404062167_2_alg».proof.ReferenceIdeal
import proofs.«145129_j67757404062167_2_alg».proof.Proof.Gen.ReferenceIdeal

noncomputable section

namespace Cert.ReferenceIdeal.RefTerm

open Idealize.ShloMosaic Cert.ReferenceIdeal Cert.ReferenceIdeal.Facts₀

variable {F : FTy → Type} [FloatOps F]

/-- Lane 0 of the grid as an 8×1024×1024 array. -/
def lane0 (g : FVec F S8x1024x1024x2 .f32) : FVec F S8x1024x1024 .f32 :=
  shapeCast S8x1024x1024 (extractStridedSlice S8x1024x1024x1 ![0, 0, 0, 0] g slices_S8x1024x1024x2_S8x1024x1024x1_0_0_0_0) shapeCasts_S8x1024x1024x1_S8x1024x1024

/-- Lane 1 of the grid as an 8×1024×1024 array. -/
def lane1 (g : FVec F S8x1024x1024x2 .f32) : FVec F S8x1024x1024 .f32 :=
  shapeCast S8x1024x1024 (extractStridedSlice S8x1024x1024x1 ![0, 0, 0, 1] g slices_S8x1024x1024x2_S8x1024x1024x1_0_0_0_1) shapeCasts_S8x1024x1024x1_S8x1024x1024

/-- The pixel number of every coordinate: round((x + 1) · ½ · 511) as a 32-bit word. -/
def pix (x : FVec F S8x1024x1024 .f32) : IVec S8x1024x1024 32 :=
  fptosi 32 (Host.roundeven (mulf (mulf (addf x
    (broadcastInDim S8x1024x1024 ![] bcast_S_S8x1024x1024 (constant S_ .f32 0x3F800000#32)))
    (broadcastInDim S8x1024x1024 ![] bcast_S_S8x1024x1024 (constant S_ .f32 0x3F000000#32)))
    (broadcastInDim S8x1024x1024 ![] bcast_S_S8x1024x1024 (constant S_ .f32 0x43FF8000#32))))

/-- A pixel number repeated over the nine candidates plus the candidates' offsets (a table of nine words). -/
def candNum (p : IVec S8x1024x1024 32) (tbl : IVec S9 32) : IVec S8x1024x1024x9 32 :=
  addi (broadcastInDim S8x1024x1024x9 ![0, 1, 2, 3] bcast_S8x1024x1024x1_S8x1024x1024x9_0_1_2_3
          (broadcastInDim S8x1024x1024x1 ![0, 1, 2] bcast_S8x1024x1024_S8x1024x1024x1_0_1_2 p))
       (broadcastInDim S8x1024x1024x9 ![0, 1, 2, 3] bcast_S1x1x1x9_S8x1024x1024x9_0_1_2_3
          (broadcastInDim S1x1x1x9 ![3] bcast_S9_S1x1x1x9_3 tbl))

/-- The column offsets' table and the row offsets' table. -/
def dxs : IVec S9 32 := fun i => lit1 (S9.rowMajor i)
def dys : IVec S9 32 := fun i => lit0 (S9.rowMajor i)

/-- Both numbers of a candidate in [0, 512). -/
def inbAll (cx cy : IVec S8x1024x1024x9 32) : IVec S8x1024x1024x9 1 :=
  andi (andi (andi
    (cmpi .sge cx (broadcastInDim S8x1024x1024x9 ![] bcast_S_S8x1024x1024x9 (constantI S_ 32 0#32)))
    (cmpi .slt cx (broadcastInDim S8x1024x1024x9 ![] bcast_S_S8x1024x1024x9 (constantI S_ 32 512#32))))
    (cmpi .sge cy (broadcastInDim S8x1024x1024x9 ![] bcast_S_S8x1024x1024x9 (constantI S_ 32 0#32))))
    (cmpi .slt cy (broadcastInDim S8x1024x1024x9 ![] bcast_S_S8x1024x1024x9 (constantI S_ 32 512#32)))

/-- A candidate number clamped into [0, 511]. -/
def clip (c : IVec S8x1024x1024x9 32) : IVec S8x1024x1024x9 32 :=
  minsi (broadcastInDim S8x1024x1024x9 ![] bcast_S_S8x1024x1024x9 (id (constantI S_ 32 511#32)))
    (maxsi (broadcastInDim S8x1024x1024x9 ![] bcast_S_S8x1024x1024x9 (id (constantI S_ 32 0#32))) c)

/-- A negative index moved up by 512 (never taken after the clamp). -/
def wrap (c : IVec S8x1024x1024x9 32) : IVec S8x1024x1024x9 32 :=
  select (cmpi .slt c (broadcastInDim S8x1024x1024x9 ![] bcast_S_S8x1024x1024x9 (constantI S_ 32 0#32)))
    (addi c (broadcastInDim S8x1024x1024x9 ![] bcast_S_S8x1024x1024x9 (constantI S_ 32 512#32))) c

/-- The (row, column) start indices of the nine gathers of every output pixel. -/
def starts (cy cx : IVec S8x1024x1024x9 32) : IVec S8x1024x1024x9x2 32 :=
  concatenate S8x1024x1024x9x2 4
    [⟨S8x1024x1024x9x1, broadcastInDim S8x1024x1024x9x1 ![0, 1, 2, 3] bcast_S8x1024x1024x9_S8x1024x1024x9x1_0_1_2_3 (wrap (clip cy))⟩,
     ⟨S8x1024x1024x9x1, broadcastInDim S8x1024x1024x9x1 ![0, 1, 2, 3] bcast_S8x1024x1024x9_S8x1024x1024x9x1_0_1_2_3 (wrap (clip cx))⟩]
    concatenates_S8x1024x1024x9x1_S8x1024x1024x9x1_S8x1024x1024x9x2_d4

/-- The nine gathered values of every output pixel. -/
def vals (img : FVec F S8x1x512x512 .f32) (cy cx : IVec S8x1024x1024x9 32) : FVec F S8x1x1024x1024x9 .f32 :=
  Host.gather gather_S8x1x512x512_S8x1024x1024x9x2_S8x1x1024x1024x9_1_23_0_0_23_4_1111 img (starts cy cx)

/-- Which candidates count: in range and the value not zero. -/
def counts (v : FVec F S8x1x1024x1024x9 .f32) (inb : IVec S8x1024x1024x9 1) : IVec S8x1x1024x1024x9 1 :=
  andi (broadcastInDim S8x1x1024x1024x9 ![0, 2, 3, 4] bcast_S8x1024x1024x9_S8x1x1024x1024x9_0_2_3_4 inb)
    (cmpf .une v (broadcastInDim S8x1x1024x1024x9 ![] bcast_S_S8x1x1024x1024x9 (constant S_ .f32 0x00000000#32)))

/-- The position of the first candidate that counts (0 when none does). -/
def first (ok : IVec S8x1x1024x1024x9 1) : IVec S8x1x1024x1024 32 :=
  fun j => (Host.reduce2 reducer_argmax_i1_i32 ok (iotaInDim S8x1x1024x1024x9 32 4) (constantI S_ 1 0#1) (constantI S_ 32 0#32)
    reducesTo_S8x1x1024x1024x9_S8x1x1024x1024_d4 h_S_ j).2

/-- Whether any candidate counts. -/
def anyOk (ok : IVec S8x1x1024x1024x9 1) : IVec S8x1x1024x1024 1 :=
  Host.reduce IntOp.ori ok (constantI S_ 1 0#1) reducesTo_S8x1x1024x1024x9_S8x1x1024x1024_d4 h_S_

/-- The position as the start index of the second gather: moved up by 9 when negative, then re-laid. -/
def takeIdx (k : IVec S8x1x1024x1024 32) : IVec S8x1024x1024x1x1 32 :=
  have k1 : IVec S8x1x1024x1024x1 32 := broadcastInDim S8x1x1024x1024x1 ![0, 1, 2, 3] bcast_S8x1x1024x1024_S8x1x1024x1024x1_0_1_2_3 k
  shapeCast S8x1024x1024x1x1
    (select (cmpi .slt k1 (broadcastInDim S8x1x1024x1024x1 ![] bcast_S_S8x1x1024x1024x1 (constantI S_ 32 0#32)))
      (addi k1 (broadcastInDim S8x1x1024x1024x1 ![] bcast_S_S8x1x1024x1024x1 (constantI S_ 32 9#32))) k1)
    shapeCasts_S8x1x1024x1024x1_S8x1024x1024x1x1

/-- The start index lies in [0, 8]. -/
def takeOk (t : IVec S8x1024x1024x1x1 32) : IVec S8x1x1024x1024x1 1 :=
  broadcastInDim S8x1x1024x1024x1 ![0, 2, 3, 4] bcast_S8x1024x1024x1_S8x1x1024x1024x1_0_2_3_4
    (Host.reduce IntOp.andi
      (andi (cmpi .sge t (broadcastInDim S8x1024x1024x1x1 ![] bcast_S_S8x1024x1024x1x1 (constantI S_ 32 0#32)))
            (cmpi .sle t (broadcastInDim S8x1024x1024x1x1 ![0, 1, 2, 3, 4] bcast_S1x1x1x1x1_S8x1024x1024x1x1_0_1_2_3_4
                            (broadcastInDim S1x1x1x1x1 ![4] bcast_S1_S1x1x1x1x1_4 (constantI S1 32 8#32)))))
      (constantI S_ 1 1#1) reducesTo_S8x1024x1024x1x1_S8x1024x1024x1_d4 h_S_)

/-- The value at the chosen position (a quiet NaN's word where the start index is out of range: never taken). -/
def taken (v : FVec F S8x1x1024x1024x9 .f32) (k : IVec S8x1x1024x1024 32) : FVec F S8x1x1024x1024 .f32 :=
  shapeCast S8x1x1024x1024
    (select (takeOk (takeIdx k))
      (Host.gather gather_S8x1x1024x1024x9_S8x1024x1024x1x1_S8x1x1024x1024x1_1_4_023_012_4_4_11111 v (takeIdx k))
      (broadcastInDim S8x1x1024x1024x1 ![] bcast_S_S8x1x1024x1024x1 (constant S_ .f32 0x7FC00000#32)))
    shapeCasts_S8x1x1024x1024x1_S8x1x1024x1024

/-- The reference's result from its two arguments. -/
def refOut (img : FVec F S8x1x512x512 .f32) (g : FVec F S8x1024x1024x2 .f32) : FVec F S8x1x1024x1024 .f32 :=
  have cx : IVec S8x1024x1024x9 32 := candNum (pix (lane0 g)) dxs
  have cy : IVec S8x1024x1024x9 32 := candNum (pix (lane1 g)) dys
  have v : FVec F S8x1x1024x1024x9 .f32 := vals img cy cx
  have ok : IVec S8x1x1024x1024x9 1 := counts v (inbAll cx cy)
  select (anyOk ok) (taken v (first ok))
    (broadcastInDim S8x1x1024x1024 ![] bcast_S_S8x1x1024x1024 (id (constant S_ .f32 0x00000000#32)))

end Cert.ReferenceIdeal.RefTerm

end
-- ==== Proof.RefRun.lean ====
/-
  The reference program's run read back: its @main, with the five outlined functions it calls (round, clip,
  argmax, take_along_axis, _where) substituted at their seven call sites, is one straight line of 128 host
  operations, each writing one buffer of its own. Every weakly fair execution terminates; the result buffer
  then holds the operations' composition applied to the two arguments' launch contents — which is
  `RefTerm.refOut` of them, stage by stage the same term — and the two argument buffers are unchanged.
-/
import proofs.«145129_j67757404062167_2_alg».proof.Proof.RefTerm
import proofs.«145129_j67757404062167_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- The two index columns laid side by side along a new last axis: the operation that builds the gathers' start
    indices, named so that its two operands are plain arguments. -/
def pair : (⟨S8x1024x1024x9x1, .i32⟩ : BufTy).Contents (Elt F) → (⟨S8x1024x1024x9x1, .i32⟩ : BufTy).Contents (Elt F) → (⟨S8x1024x1024x9x2, .i32⟩ : BufTy).Contents (Elt F) :=
  fun a b => concatenate S8x1024x1024x9x2 4 [⟨S8x1024x1024x9x1, a⟩, ⟨S8x1024x1024x9x1, b⟩] concatenates_S8x1024x1024x9x1_S8x1024x1024x9x1_S8x1024x1024x9x2_d4

/-- @main's 128 operations in order, the calls substituted: each `round` is one operation into its call's
    buffer; each `clip` six (the two bounds converted and broadcast, the maximum, the minimum); `argmax` five
    (the position table, the two initial values, one line per result of the two-operand reduction);
    `take_along_axis` twenty-three (the index normalised, re-laid, tested against [0, 8], the gather, the
    select against a quiet NaN); `_where` three (the zero converted and broadcast, the select). -/
abbrev ops : List (HloOp τ sig (Elt F)) :=
  [ StableHlo.nullary main_c (fun i => lit0 (S9.rowMajor i)),
    StableHlo.nullary main_c_0 (fun i => lit1 (S9.rowMajor i)),
    StableHlo.unary main_arg1 main_v0 ((extractStridedSlice S8x1024x1024x1 ![0, 0, 0, 0] · slices_S8x1024x1024x2_S8x1024x1024x1_0_0_0_0) : (⟨S8x1024x1024x2, .f32⟩ : BufTy).Contents (Elt F) → (⟨S8x1024x1024x1, .f32⟩ : BufTy).Contents (Elt F)),
    StableHlo.reshape main_v0 main_v1 rfl shapeCasts_S8x1024x1024x1_S8x1024x1024,
    StableHlo.nullary main_cst (constant S_ .f32 0x3F800000#32),
    StableHlo.unary main_cst main_v2 (broadcastInDim S8x1024x1024 ![] bcast_S_S8x1024x1024 : (⟨S_, .f32⟩ : BufTy).Contents (Elt F) → (⟨S8x1024x1024, .f32⟩ : BufTy).Contents (Elt F)),
    StableHlo.binary main_v1 main_v2 main_v3 (addf : (⟨S8x1024x1024, .f32⟩ : BufTy).Contents (Elt F) → (⟨S8x1024x1024, .f32⟩ : BufTy).Contents (Elt F) → (⟨S8x1024x1024, .f32⟩ : BufTy).Contents (Elt F)),
    StableHlo.nullary main_cst_1 (constant S_ .f32 0x3F000000#32),
    StableHlo.unary main_cst_1 main_v4 (broadcastInDim S8x1024x1024 ![] bcast_S_S8x1024x1024 : (⟨S_, .f32⟩ : BufTy).Contents (Elt F) → (⟨S8x1024x1024, .f32⟩ : BufTy).Contents (Elt F)),
    StableHlo.binary main_v3 main_v4 main_v5 (mulf : (⟨S8x1024x1024, .f32⟩ : BufTy).Contents (Elt F) → (⟨S8x1024x1024, .f32⟩ : BufTy).Contents (Elt F) → (⟨S8x1024x1024, .f32⟩ : BufTy).Contents (Elt F)),
    StableHlo.nullary main_cst_2 (constant S_ .f32 0x43FF8000#32),
    StableHlo.unary main_cst_2 main_v6 (broadcastInDim S8x1024x1024 ![] bcast_S_S8x1024x1024 : (⟨S_, .f32⟩ : BufTy).Contents (Elt F) → (⟨S8x1024x1024, .f32⟩ : BufTy).Contents (Elt F)),
    StableHlo.binary main_v5 main_v6 main_v7 (mulf : (⟨S8x1024x1024, .f32⟩ : BufTy).Contents (Elt F) → (⟨S8x1024x1024, .f32⟩ : BufTy).Contents (Elt F) → (⟨S8x1024x1024, .f32⟩ : BufTy).Contents (Elt F)),
    StableHlo.unary main_arg1 main_v8 ((extractStridedSlice S8x1024x1024x1 ![0, 0, 0, 1] · slices_S8x1024x1024x2_S8x1024x1024x1_0_0_0_1) : (⟨S8x1024x1024x2, .f32⟩ : BufTy).Contents (Elt F) → (⟨S8x1024x1024x1, .f32⟩ : BufTy).Contents (Elt F)),
    StableHlo.reshape main_v8 main_v9 rfl shapeCasts_S8x1024x1024x1_S8x1024x1024,
    StableHlo.nullary main_cst_3 (constant S_ .f32 0x3F800000#32),
    StableHlo.unary main_cst_3 main_v10 (broadcastInDim S8x1024x1024 ![] bcast_S_S8x1024x1024 : (⟨S_, .f32⟩ : BufTy).Contents (Elt F) → (⟨S8x1024x1024, .f32⟩ : BufTy).Contents (Elt F)),
    StableHlo.binary main_v9 main_v10 main_v11 (addf : (⟨S8x1024x1024, .f32⟩ : BufTy).Contents (Elt F) → (⟨S8x1024x1024, .f32⟩ : BufTy).Contents (Elt F) → (⟨S8x1024x1024, .f32⟩ : BufTy).Contents (Elt F)),
    StableHlo.nullary main_cst_4 (constant S_ .f32 0x3F000000#32),
    StableHlo.unary main_cst_4 main_v12 (broadcastInDim S8x1024x1024 ![] bcast_S_S8x1024x1024 : (⟨S_, .f32⟩ : BufTy).Contents (Elt F) → (⟨S8x1024x1024, .f32⟩ : BufTy).Contents (Elt F)),
    StableHlo.binary main_v11 main_v12 main_v13 (mulf : (⟨S8x1024x1024, .f32⟩ : BufTy).Contents (Elt F) → (⟨S8x1024x1024, .f32⟩ : BufTy).Contents (Elt F) → (⟨S8x1024x1024, .f32⟩ : BufTy).Contents (Elt F)),
    StableHlo.nullary main_cst_5 (constant S_ .f32 0x43FF8000#32),
    StableHlo.unary main_cst_5 main_v14 (broadcastInDim S8x1024x1024 ![] bcast_S_S8x1024x1024 : (⟨S_, .f32⟩ : BufTy).Contents (Elt F) → (⟨S8x1024x1024, .f32⟩ : BufTy).Contents (Elt F)),
    StableHlo.binary main_v13 main_v14 main_v15 (mulf : (⟨S8x1024x1024, .f32⟩ : BufTy).Contents (Elt F) → (⟨S8x1024x1024, .f32⟩ : BufTy).Contents (Elt F) → (⟨S8x1024x1024, .f32⟩ : BufTy).Contents (Elt F)),
    StableHlo.TRef.unary (.of main_v7 : StableHlo.TRef sig ⟨S8x1024x1024, .f32⟩) main_call0.v0 Host.roundeven,
    StableHlo.unary main_v16 main_v17 (fptosi 32 : (⟨S8x1024x1024, .f32⟩ : BufTy).Contents (Elt F) → (⟨S8x1024x1024, .i32⟩ : BufTy).Contents (Elt F)),
    StableHlo.TRef.unary (.of main_v15 : StableHlo.TRef sig ⟨S8x1024x1024, .f32⟩) main_call1.v0 Host.roundeven,
    StableHlo.unary main_v18 main_v19 (fptosi 32 : (⟨S8x1024x1024, .f32⟩ : BufTy).Contents (Elt F) → (⟨S8x1024x1024, .i32⟩ : BufTy).Contents (Elt F)),
    StableHlo.unary main_v17 main_v20 (broadcastInDim S8x1024x1024x1 ![0, 1, 2] bcast_S8x1024x1024_S8x1024x1024x1_0_1_2 : (⟨S8x1024x1024, .i32⟩ : BufTy).Contents (Elt F) → (⟨S8x1024x1024x1, .i32⟩ : BufTy).Contents (Elt F)),
    StableHlo.unary main_c_0 main_v21 (broadcastInDim S1x1x1x9 ![3] bcast_S9_S1x1x1x9_3 : (⟨S9, .i32⟩ : BufTy).Contents (Elt F) → (⟨S1x1x1x9, .i32⟩ : BufTy).Contents (Elt F)),
    StableHlo.unary main_v20 main_v22 (broadcastInDim S8x1024x1024x9 ![0, 1, 2, 3] bcast_S8x1024x1024x1_S8x1024x1024x9_0_1_2_3 : (⟨S8x1024x1024x1, .i32⟩ : BufTy).Contents (Elt F) → (⟨S8x1024x1024x9, .i32⟩ : BufTy).Contents (Elt F)),
    StableHlo.unary main_v21 main_v23 (broadcastInDim S8x1024x1024x9 ![0, 1, 2, 3] bcast_S1x1x1x9_S8x1024x1024x9_0_1_2_3 : (⟨S1x1x1x9, .i32⟩ : BufTy).Contents (Elt F) → (⟨S8x1024x1024x9, .i32⟩ : BufTy).Contents (Elt F)),
    StableHlo.binary main_v22 main_v23 main_v24 (addi : (⟨S8x1024x1024x9, .i32⟩ : BufTy).Contents (Elt F) → (⟨S8x1024x1024x9, .i32⟩ : BufTy).Contents (Elt F) → (⟨S8x1024x1024x9, .i32⟩ : BufTy).Contents (Elt F)),
    StableHlo.unary main_v19 main_v25 (broadcastInDim S8x1024x1024x1 ![0, 1, 2] bcast_S8x1024x1024_S8x1024x1024x1_0_1_2 : (⟨S8x1024x1024, .i32⟩ : BufTy).Contents (Elt F) → (⟨S8x1024x1024x1, .i32⟩ : BufTy).Contents (Elt F)),
    StableHlo.unary main_c main_v26 (broadcastInDim S1x1x1x9 ![3] bcast_S9_S1x1x1x9_3 : (⟨S9, .i32⟩ : BufTy).Contents (Elt F) → (⟨S1x1x1x9, .i32⟩ : BufTy).Contents (Elt F)),
    StableHlo.unary main_v25 main_v27 (broadcastInDim S8x1024x1024x9 ![0, 1, 2, 3] bcast_S8x1024x1024x1_S8x1024x1024x9_0_1_2_3 : (⟨S8x1024x1024x1, .i32⟩ : BufTy).Contents (Elt F) → (⟨S8x1024x1024x9, .i32⟩ : BufTy).Contents (Elt F)),
    StableHlo.unary main_v26 main_v28 (broadcastInDim S8x1024x1024x9 ![0, 1, 2, 3] bcast_S1x1x1x9_S8x1024x1024x9_0_1_2_3 : (⟨S1x1x1x9, .i32⟩ : BufTy).Contents (Elt F) → (⟨S8x1024x1024x9, .i32⟩ : BufTy).Contents (Elt F)),
    StableHlo.binary main_v27 main_v28 main_v29 (addi : (⟨S8x1024x1024x9, .i32⟩ : BufTy).Contents (Elt F) → (⟨S8x1024x1024x9, .i32⟩ : BufTy).Contents (Elt F) → (⟨S8x1024x1024x9, .i32⟩ : BufTy).Contents (Elt F)),
    StableHlo.nullary main_c_6 (constantI S_ 32 0#32),
    StableHlo.unary main_c_6 main_v30 (broadcastInDim S8x1024x1024x9 ![] bcast_S_S8x1024x1024x9 : (⟨S_, .i32⟩ : BufTy).Contents (Elt F) → (⟨S8x1024x1024x9, .i32⟩ : BufTy).Contents (Elt F)),
    StableHlo.binary main_v24 main_v30 main_v31 (cmpi .sge : (⟨S8x1024x1024x9, .i32⟩ : BufTy).Contents (Elt F) → (⟨S8x1024x1024x9, .i32⟩ : BufTy).Contents (Elt F) → (⟨S8x1024x1024x9, .i1⟩ : BufTy).Contents (Elt F)),
    StableHlo.nullary main_c_7 (constantI S_ 32 512#32),
    StableHlo.unary main_c_7 main_v32 (broadcastInDim S8x1024x1024x9 ![] bcast_S_S8x1024x1024x9 : (⟨S_, .i32⟩ : BufTy).Contents (Elt F) → (⟨S8x1024x1024x9, .i32⟩ : BufTy).Contents (Elt F)),
    StableHlo.binary main_v24 main_v32 main_v33 (cmpi .slt : (⟨S8x1024x1024x9, .i32⟩ : BufTy).Contents (Elt F) → (⟨S8x1024x1024x9, .i32⟩ : BufTy).Contents (Elt F) → (⟨S8x1024x1024x9, .i1⟩ : BufTy).Contents (Elt F)),
    StableHlo.binary main_v31 main_v33 main_v34 (andi : (⟨S8x1024x1024x9, .i1⟩ : BufTy).Contents (Elt F) → (⟨S8x1024x1024x9, .i1⟩ : BufTy).Contents (Elt F) → (⟨S8x1024x1024x9, .i1⟩ : BufTy).Contents (Elt F)),
    StableHlo.nullary main_c_8 (constantI S_ 32 0#32),
    StableHlo.unary main_c_8 main_v35 (broadcastInDim S8x1024x1024x9 ![] bcast_S_S8x1024x1024x9 : (⟨S_, .i32⟩ : BufTy).Contents (Elt F) → (⟨S8x1024x1024x9, .i32⟩ : BufTy).Contents (Elt F)),
    StableHlo.binary main_v29 main_v35 main_v36 (cmpi .sge : (⟨S8x1024x1024x9, .i32⟩ : BufTy).Contents (Elt F) → (⟨S8x1024x1024x9, .i32⟩ : BufTy).Contents (Elt F) → (⟨S8x1024x1024x9, .i1⟩ : BufTy).Contents (Elt F)),
    StableHlo.binary main_v34 main_v36 main_v37 (andi : (⟨S8x1024x1024x9, .i1⟩ : BufTy).Contents (Elt F) → (⟨S8x1024x1024x9, .i1⟩ : BufTy).Contents (Elt F) → (⟨S8x1024x1024x9, .i1⟩ : BufTy).Contents (Elt F)),
    StableHlo.nullary main_c_9 (constantI S_ 32 512#32),
    StableHlo.unary main_c_9 main_v38 (broadcastInDim S8x1024x1024x9 ![] bcast_S_S8x1024x1024x9 : (⟨S_, .i32⟩ : BufTy).Contents (Elt F) → (⟨S8x1024x1024x9, .i32⟩ : BufTy).Contents (Elt F)),
    StableHlo.binary main_v29 main_v38 main_v39 (cmpi .slt : (⟨S8x1024x1024x9, .i32⟩ : BufTy).Contents (Elt F) → (⟨S8x1024x1024x9, .i32⟩ : BufTy).Contents (Elt F) → (⟨S8x1024x1024x9, .i1⟩ : BufTy).Contents (Elt F)),
    StableHlo.binary main_v37 main_v39 main_v40 (andi : (⟨S8x1024x1024x9, .i1⟩ : BufTy).Contents (Elt F) → (⟨S8x1024x1024x9, .i1⟩ : BufTy).Contents (Elt F) → (⟨S8x1024x1024x9, .i1⟩ : BufTy).Contents (Elt F)),
    StableHlo.nullary main_c_10 (constantI S_ 32 0#32),
    StableHlo.nullary main_c_11 (constantI S_ 32 511#32),
    StableHlo.TRef.unary (.of main_c_10 : StableHlo.TRef sig ⟨S_, .i32⟩) main_call2.v0 id,
    StableHlo.TRef.unary main_call2.v0 main_call2.v1 (broadcastInDim S8x1024x1024x9 ![] bcast_S_S8x1024x1024x9),
    StableHlo.TRef.binary main_call2.v1 (.of main_v24 : StableHlo.TRef sig ⟨S8x1024x1024x9, .i32⟩) main_call2.v2 maxsi,
    StableHlo.TRef.unary (.of main_c_11 : StableHlo.TRef sig ⟨S_, .i32⟩) main_call2.v3 id,
    StableHlo.TRef.unary main_call2.v3 main_call2.v4 (broadcastInDim S8x1024x1024x9 ![] bcast_S_S8x1024x1024x9),
    StableHlo.TRef.binary main_call2.v4 main_call2.v2 main_call2.v5 minsi,
    StableHlo.nullary main_c_12 (constantI S_ 32 0#32),
    StableHlo.nullary main_c_13 (constantI S_ 32 511#32),
    StableHlo.TRef.unary (.of main_c_12 : StableHlo.TRef sig ⟨S_, .i32⟩) main_call3.v0 id,
    StableHlo.TRef.unary main_call3.v0 main_call3.v1 (broadcastInDim S8x1024x1024x9 ![] bcast_S_S8x1024x1024x9),
    StableHlo.TRef.binary main_call3.v1 (.of main_v29 : StableHlo.TRef sig ⟨S8x1024x1024x9, .i32⟩) main_call3.v2 maxsi,
    StableHlo.TRef.unary (.of main_c_13 : StableHlo.TRef sig ⟨S_, .i32⟩) main_call3.v3 id,
    StableHlo.TRef.unary main_call3.v3 main_call3.v4 (broadcastInDim S8x1024x1024x9 ![] bcast_S_S8x1024x1024x9),
    StableHlo.TRef.binary main_call3.v4 main_call3.v2 main_call3.v5 minsi,
    StableHlo.nullary main_c_14 (constantI S_ 32 0#32),
    StableHlo.unary main_c_14 main_v43 (broadcastInDim S8x1024x1024x9 ![] bcast_S_S8x1024x1024x9 : (⟨S_, .i32⟩ : BufTy).Contents (Elt F) → (⟨S8x1024x1024x9, .i32⟩ : BufTy).Contents (Elt F)),
    StableHlo.binary main_v42 main_v43 main_v44 (cmpi .slt : (⟨S8x1024x1024x9, .i32⟩ : BufTy).Contents (Elt F) → (⟨S8x1024x1024x9, .i32⟩ : BufTy).Contents (Elt F) → (⟨S8x1024x1024x9, .i1⟩ : BufTy).Contents (Elt F)),
    StableHlo.nullary main_c_15 (constantI S_ 32 512#32),
    StableHlo.unary main_c_15 main_v45 (broadcastInDim S8x1024x1024x9 ![] bcast_S_S8x1024x1024x9 : (⟨S_, .i32⟩ : BufTy).Contents (Elt F) → (⟨S8x1024x1024x9, .i32⟩ : BufTy).Contents (Elt F)),
    StableHlo.binary main_v42 main_v45 main_v46 (addi : (⟨S8x1024x1024x9, .i32⟩ : BufTy).Contents (Elt F) → (⟨S8x1024x1024x9, .i32⟩ : BufTy).Contents (Elt F) → (⟨S8x1024x1024x9, .i32⟩ : BufTy).Contents (Elt F)),
    StableHlo.ternary main_v44 main_v46 main_v42 main_v47 (select : (⟨S8x1024x1024x9, .i1⟩ : BufTy).Contents (Elt F) → (⟨S8x1024x1024x9, .i32⟩ : BufTy).Contents (Elt F) → (⟨S8x1024x1024x9, .i32⟩ : BufTy).Contents (Elt F) → (⟨S8x1024x1024x9, .i32⟩ : BufTy).Contents (Elt F)),
    StableHlo.nullary main_c_16 (constantI S_ 32 0#32),
    StableHlo.unary main_c_16 main_v48 (broadcastInDim S8x1024x1024x9 ![] bcast_S_S8x1024x1024x9 : (⟨S_, .i32⟩ : BufTy).Contents (Elt F) → (⟨S8x1024x1024x9, .i32⟩ : BufTy).Contents (Elt F)),
    StableHlo.binary main_v41 main_v48 main_v49 (cmpi .slt : (⟨S8x1024x1024x9, .i32⟩ : BufTy).Contents (Elt F) → (⟨S8x1024x1024x9, .i32⟩ : BufTy).Contents (Elt F) → (⟨S8x1024x1024x9, .i1⟩ : BufTy).Contents (Elt F)),
    StableHlo.nullary main_c_17 (constantI S_ 32 512#32),
    StableHlo.unary main_c_17 main_v50 (broadcastInDim S8x1024x1024x9 ![] bcast_S_S8x1024x1024x9 : (⟨S_, .i32⟩ : BufTy).Contents (Elt F) → (⟨S8x1024x1024x9, .i32⟩ : BufTy).Contents (Elt F)),
    StableHlo.binary main_v41 main_v50 main_v51 (addi : (⟨S8x1024x1024x9, .i32⟩ : BufTy).Contents (Elt F) → (⟨S8x1024x1024x9, .i32⟩ : BufTy).Contents (Elt F) → (⟨S8x1024x1024x9, .i32⟩ : BufTy).Contents (Elt F)),
    StableHlo.ternary main_v49 main_v51 main_v41 main_v52 (select : (⟨S8x1024x1024x9, .i1⟩ : BufTy).Contents (Elt F) → (⟨S8x1024x1024x9, .i32⟩ : BufTy).Contents (Elt F) → (⟨S8x1024x1024x9, .i32⟩ : BufTy).Contents (Elt F) → (⟨S8x1024x1024x9, .i32⟩ : BufTy).Contents (Elt F)),
    StableHlo.unary main_v47 main_v53 (broadcastInDim S8x1024x1024x9x1 ![0, 1, 2, 3] bcast_S8x1024x1024x9_S8x1024x1024x9x1_0_1_2_3 : (⟨S8x1024x1024x9, .i32⟩ : BufTy).Contents (Elt F) → (⟨S8x1024x1024x9x1, .i32⟩ : BufTy).Contents (Elt F)),
    StableHlo.unary main_v52 main_v54 (broadcastInDim S8x1024x1024x9x1 ![0, 1, 2, 3] bcast_S8x1024x1024x9_S8x1024x1024x9x1_0_1_2_3 : (⟨S8x1024x1024x9, .i32⟩ : BufTy).Contents (Elt F) → (⟨S8x1024x1024x9x1, .i32⟩ : BufTy).Contents (Elt F)),
    StableHlo.binary main_v53 main_v54 main_v55 (pair (F := F)),
    StableHlo.binary main_arg0 main_v55 main_v56 ((fun x i => Host.gather gather_S8x1x512x512_S8x1024x1024x9x2_S8x1x1024x1024x9_1_23_0_0_23_4_1111 x i) : (⟨S8x1x512x512, .f32⟩ : BufTy).Contents (Elt F) → (⟨S8x1024x1024x9x2, .i32⟩ : BufTy).Contents (Elt F) → (⟨S8x1x1024x1024x9, .f32⟩ : BufTy).Contents (Elt F)),
    StableHlo.unary main_v40 main_v57 (broadcastInDim S8x1x1024x1024x9 ![0, 2, 3, 4] bcast_S8x1024x1024x9_S8x1x1024x1024x9_0_2_3_4 : (⟨S8x1024x1024x9, .i1⟩ : BufTy).Contents (Elt F) → (⟨S8x1x1024x1024x9, .i1⟩ : BufTy).Contents (Elt F)),
    StableHlo.nullary main_cst_18 (constant S_ .f32 0x00000000#32),
    StableHlo.unary main_cst_18 main_v58 (broadcastInDim S8x1x1024x1024x9 ![] bcast_S_S8x1x1024x1024x9 : (⟨S_, .f32⟩ : BufTy).Contents (Elt F) → (⟨S8x1x1024x1024x9, .f32⟩ : BufTy).Contents (Elt F)),
    StableHlo.binary main_v56 main_v58 main_v59 (cmpf .une : (⟨S8x1x1024x1024x9, .f32⟩ : BufTy).Contents (Elt F) → (⟨S8x1x1024x1024x9, .f32⟩ : BufTy).Contents (Elt F) → (⟨S8x1x1024x1024x9, .i1⟩ : BufTy).Contents (Elt F)),
    StableHlo.binary main_v57 main_v59 main_v60 (andi : (⟨S8x1x1024x1024x9, .i1⟩ : BufTy).Contents (Elt F) → (⟨S8x1x1024x1024x9, .i1⟩ : BufTy).Contents (Elt F) → (⟨S8x1x1024x1024x9, .i1⟩ : BufTy).Contents (Elt F)),
    StableHlo.TRef.nullary main_call4.v0 (iotaInDim S8x1x1024x1024x9 32 4),
    StableHlo.TRef.nullary main_call4.c (constantI S_ 1 0#1),
    StableHlo.TRef.nullary main_call4.c_0 (constantI S_ 32 0#32),
    StableHlo.TRef.quaternary (.of main_v60 : StableHlo.TRef sig ⟨S8x1x1024x1024x9, .i1⟩) main_call4.v0 main_call4.c main_call4.c_0 main_call4.v1_0 (fun x y u v j => (Host.reduce2 reducer_argmax_i1_i32 x y u v reducesTo_S8x1x1024x1024x9_S8x1x1024x1024_d4 h_S_ j).1),
    StableHlo.TRef.quaternary (.of main_v60 : StableHlo.TRef sig ⟨S8x1x1024x1024x9, .i1⟩) main_call4.v0 main_call4.c main_call4.c_0 main_call4.v1_1 (fun x y u v j => (Host.reduce2 reducer_argmax_i1_i32 x y u v reducesTo_S8x1x1024x1024x9_S8x1x1024x1024_d4 h_S_ j).2),
    StableHlo.nullary main_c_19 (constantI S_ 1 0#1),
    StableHlo.binary main_v60 main_c_19 main_v62 ((fun x v => Host.reduce IntOp.ori x v reducesTo_S8x1x1024x1024x9_S8x1x1024x1024_d4 h_S_) : (⟨S8x1x1024x1024x9, .i1⟩ : BufTy).Contents (Elt F) → (⟨S_, .i1⟩ : BufTy).Contents (Elt F) → (⟨S8x1x1024x1024, .i1⟩ : BufTy).Contents (Elt F)),
    StableHlo.unary main_v61 main_v63 (broadcastInDim S8x1x1024x1024x1 ![0, 1, 2, 3] bcast_S8x1x1024x1024_S8x1x1024x1024x1_0_1_2_3 : (⟨S8x1x1024x1024, .i32⟩ : BufTy).Contents (Elt F) → (⟨S8x1x1024x1024x1, .i32⟩ : BufTy).Contents (Elt F)),
    StableHlo.TRef.nullary main_call5.c (constantI S_ 32 0#32),
    StableHlo.TRef.unary main_call5.c main_call5.v0 (broadcastInDim S8x1x1024x1024x1 ![] bcast_S_S8x1x1024x1024x1),
    StableHlo.TRef.binary (.of main_v63 : StableHlo.TRef sig ⟨S8x1x1024x1024x1, .i32⟩) main_call5.v0 main_call5.v1 (cmpi .slt),
    StableHlo.TRef.nullary main_call5.c_0 (constantI S_ 32 9#32),
    StableHlo.TRef.unary main_call5.c_0 main_call5.v2 (broadcastInDim S8x1x1024x1024x1 ![] bcast_S_S8x1x1024x1024x1),
    StableHlo.TRef.binary (.of main_v63 : StableHlo.TRef sig ⟨S8x1x1024x1024x1, .i32⟩) main_call5.v2 main_call5.v3 addi,
    StableHlo.TRef.ternary main_call5.v1 main_call5.v3 (.of main_v63 : StableHlo.TRef sig ⟨S8x1x1024x1024x1, .i32⟩) main_call5.v4 select,
    StableHlo.TRef.reshape main_call5.v4 main_call5.v5 rfl shapeCasts_S8x1x1024x1024x1_S8x1024x1024x1x1,
    StableHlo.TRef.nullary main_call5.c_1 (constantI S1 32 8#32),
    StableHlo.TRef.nullary main_call5.c_2 (constantI S_ 32 0#32),
    StableHlo.TRef.unary main_call5.c_2 main_call5.v6 (broadcastInDim S8x1024x1024x1x1 ![] bcast_S_S8x1024x1024x1x1),
    StableHlo.TRef.binary main_call5.v5 main_call5.v6 main_call5.v7 (cmpi .sge),
    StableHlo.TRef.unary main_call5.c_1 main_call5.v8 (broadcastInDim S1x1x1x1x1 ![4] bcast_S1_S1x1x1x1x1_4),
    StableHlo.TRef.unary main_call5.v8 main_call5.v9 (broadcastInDim S8x1024x1024x1x1 ![0, 1, 2, 3, 4] bcast_S1x1x1x1x1_S8x1024x1024x1x1_0_1_2_3_4),
    StableHlo.TRef.binary main_call5.v5 main_call5.v9 main_call5.v10 (cmpi .sle),
    StableHlo.TRef.binary main_call5.v7 main_call5.v10 main_call5.v11 andi,
    StableHlo.TRef.nullary main_call5.c_3 (constantI S_ 1 1#1),
    StableHlo.TRef.binary main_call5.v11 main_call5.c_3 main_call5.v12 (fun x v => Host.reduce IntOp.andi x v reducesTo_S8x1024x1024x1x1_S8x1024x1024x1_d4 h_S_),
    StableHlo.TRef.binary (.of main_v56 : StableHlo.TRef sig ⟨S8x1x1024x1024x9, .f32⟩) main_call5.v5 main_call5.v13 (fun x i => Host.gather gather_S8x1x1024x1024x9_S8x1024x1024x1x1_S8x1x1024x1024x1_1_4_023_012_4_4_11111 x i),
    StableHlo.TRef.unary main_call5.v12 main_call5.v14 (broadcastInDim S8x1x1024x1024x1 ![0, 2, 3, 4] bcast_S8x1024x1024x1_S8x1x1024x1024x1_0_2_3_4),
    StableHlo.TRef.nullary main_call5.cst (constant S_ .f32 0x7FC00000#32),
    StableHlo.TRef.unary main_call5.cst main_call5.v15 (broadcastInDim S8x1x1024x1024x1 ![] bcast_S_S8x1x1024x1024x1),
    StableHlo.TRef.ternary main_call5.v14 main_call5.v13 main_call5.v15 main_call5.v16 select,
    StableHlo.reshape main_v64 main_v65 rfl shapeCasts_S8x1x1024x1024x1_S8x1x1024x1024,
    StableHlo.nullary main_cst_20 (constant S_ .f32 0x00000000#32),
    StableHlo.TRef.unary (.of main_cst_20 : StableHlo.TRef sig ⟨S_, .f32⟩) main_call6.v0 id,
    StableHlo.TRef.unary main_call6.v0 main_call6.v1 (broadcastInDim S8x1x1024x1024 ![] bcast_S_S8x1x1024x1024),
    StableHlo.TRef.ternary (.of main_v62 : StableHlo.TRef sig ⟨S8x1x1024x1024, .i1⟩) (.of main_v65 : StableHlo.TRef sig ⟨S8x1x1024x1024, .f32⟩) main_call6.v1 main_call6.v2 select ]

-- 128 binds re-associated: the rewrite under the chain recurses once per statement
set_option maxRecDepth 4096 in
set_option maxHeartbeats 4000000 in
/-- @main is that straight line: the two windows and the functions' definitions unfolded at their calls, the
    call records at their fields, both sides are one chain of steps once sequencing is re-associated. -/
theorem main_eq (c : Dev nD) : main (F := F) c = seq ops := by
  simp only [main, main_part0, main_part1, fn_round.body, fn_clip.body, fn_argmax.body, fn_take_along_axis.body, fn_where.body,
    seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., nullary_bufs_sub .., unary_bufs_sub .., reshape_bufs_sub .., nullary_bufs_sub .., unary_bufs_sub ..,
    binary_bufs_sub .., nullary_bufs_sub .., unary_bufs_sub .., binary_bufs_sub .., nullary_bufs_sub .., unary_bufs_sub ..,
    binary_bufs_sub .., unary_bufs_sub .., reshape_bufs_sub .., nullary_bufs_sub .., unary_bufs_sub .., binary_bufs_sub ..,
    nullary_bufs_sub .., unary_bufs_sub .., binary_bufs_sub .., nullary_bufs_sub .., unary_bufs_sub .., binary_bufs_sub ..,
    unary_bufs_sub .., unary_bufs_sub .., unary_bufs_sub .., unary_bufs_sub .., unary_bufs_sub .., unary_bufs_sub ..,
    unary_bufs_sub .., unary_bufs_sub .., binary_bufs_sub .., unary_bufs_sub .., unary_bufs_sub .., unary_bufs_sub ..,
    unary_bufs_sub .., binary_bufs_sub .., nullary_bufs_sub .., unary_bufs_sub .., binary_bufs_sub .., nullary_bufs_sub ..,
    unary_bufs_sub .., binary_bufs_sub .., binary_bufs_sub .., nullary_bufs_sub .., unary_bufs_sub .., binary_bufs_sub ..,
    binary_bufs_sub .., nullary_bufs_sub .., unary_bufs_sub .., binary_bufs_sub .., binary_bufs_sub .., nullary_bufs_sub ..,
    nullary_bufs_sub .., unary_bufs_sub .., unary_bufs_sub .., binary_bufs_sub .., unary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    unary_bufs_sub .., binary_bufs_sub .., binary_bufs_sub .., unary_bufs_sub .., nullary_bufs_sub .., unary_bufs_sub ..,
    binary_bufs_sub .., binary_bufs_sub .., nullary_bufs_sub .., nullary_bufs_sub .., nullary_bufs_sub .., quaternary_bufs_sub ..,
    quaternary_bufs_sub .., nullary_bufs_sub .., binary_bufs_sub .., unary_bufs_sub .., nullary_bufs_sub .., unary_bufs_sub ..,
    binary_bufs_sub .., nullary_bufs_sub .., unary_bufs_sub .., binary_bufs_sub .., ternary_bufs_sub .., reshape_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., reshape_bufs_sub .., nullary_bufs_sub .., unary_bufs_sub ..,
    unary_bufs_sub .., ternary_bufs_sub ..⟩

attribute [local irreducible] Host.reduce Host.reduce2 Host.gather in
set_option maxRecDepth 16384 in
set_option maxHeartbeats 1000000 in
/-- The nine candidates' column numbers of every output pixel, from the grid's lane 0. Both sides are read down to the arguments' contents by the same rewriting, so every shared
    intermediate is the same term on both, and the comparison opens one stage only. -/
theorem stage_v24 (V : Valuation τ sig (Elt F)) :
    after ops V (main_v24 : DevRef τ sig)
      = RefTerm.candNum (RefTerm.pix (RefTerm.lane0 (V (main_arg1 : DevRef τ sig)))) RefTerm.dxs := by
  after_results_simp
  rfl

attribute [local irreducible] Host.reduce Host.reduce2 Host.gather in
set_option maxRecDepth 16384 in
set_option maxHeartbeats 1000000 in
/-- The nine candidates' row numbers of every output pixel, from the grid's lane 1. Both sides are read down to the arguments' contents by the same rewriting, so every shared
    intermediate is the same term on both, and the comparison opens one stage only. -/
theorem stage_v29 (V : Valuation τ sig (Elt F)) :
    after ops V (main_v29 : DevRef τ sig)
      = RefTerm.candNum (RefTerm.pix (RefTerm.lane1 (V (main_arg1 : DevRef τ sig)))) RefTerm.dys := by
  after_results_simp
  rfl

attribute [local irreducible] Host.reduce Host.reduce2 Host.gather in
set_option maxRecDepth 16384 in
set_option maxHeartbeats 1000000 in
/-- The in-range test of the nine candidates is `inbAll` of the two candidate numbers. Both sides are read down to the arguments' contents by the same rewriting, so every shared
    intermediate is the same term on both, and the comparison opens one stage only. -/
theorem stage_v40 (V : Valuation τ sig (Elt F)) :
    after ops V (main_v40 : DevRef τ sig)
      = RefTerm.inbAll (after ops V (main_v24 : DevRef τ sig)) (after ops V (main_v29 : DevRef τ sig)) := by
  after_results_simp
  rfl

attribute [local irreducible] Host.reduce Host.reduce2 Host.gather in
set_option maxRecDepth 16384 in
set_option maxHeartbeats 1000000 in
/-- The nine gathered values. Both sides are read down to the arguments' contents by the same rewriting, so every shared
    intermediate is the same term on both, and the comparison opens one stage only. -/
theorem stage_v56 (V : Valuation τ sig (Elt F)) :
    after ops V (main_v56 : DevRef τ sig)
      = RefTerm.vals (V (main_arg0 : DevRef τ sig)) (after ops V (main_v29 : DevRef τ sig)) (after ops V (main_v24 : DevRef τ sig)) := by
  after_results_simp
  rfl

attribute [local irreducible] Host.reduce Host.reduce2 Host.gather in
set_option maxRecDepth 16384 in
set_option maxHeartbeats 1000000 in
/-- Which candidates count. Both sides are read down to the arguments' contents by the same rewriting, so every shared
    intermediate is the same term on both, and the comparison opens one stage only. -/
theorem stage_v60 (V : Valuation τ sig (Elt F)) :
    after ops V (main_v60 : DevRef τ sig)
      = RefTerm.counts (after ops V (main_v56 : DevRef τ sig)) (after ops V (main_v40 : DevRef τ sig)) := by
  after_results_simp
  rfl

attribute [local irreducible] Host.reduce Host.reduce2 Host.gather in
set_option maxRecDepth 16384 in
set_option maxHeartbeats 1000000 in
/-- The position of the first candidate that counts: the second component of the two-operand reduction. Both sides are read down to the arguments' contents by the same rewriting, so every shared
    intermediate is the same term on both, and the comparison opens one stage only. -/
theorem stage_v61 (V : Valuation τ sig (Elt F)) :
    after ops V (main_v61 : DevRef τ sig)
      = RefTerm.first (after ops V (main_v60 : DevRef τ sig)) := by
  after_results_simp
  rfl

attribute [local irreducible] Host.reduce Host.reduce2 Host.gather in
set_option maxRecDepth 16384 in
set_option maxHeartbeats 1000000 in
/-- Whether any candidate counts. Both sides are read down to the arguments' contents by the same rewriting, so every shared
    intermediate is the same term on both, and the comparison opens one stage only. -/
theorem stage_v62 (V : Valuation τ sig (Elt F)) :
    after ops V (main_v62 : DevRef τ sig)
      = RefTerm.anyOk (after ops V (main_v60 : DevRef τ sig)) := by
  after_results_simp
  rfl

/-- The typed references' transports are the identity at these literal references (over a variable). -/
theorem cast_c5v12 (v : _) : TRef.toBuf (Val := Elt F) (T := ⟨S8x1024x1024x1, .i1⟩) main_call5.v12 v = v := rfl
theorem cast_c5v11 (v : _) : TRef.ofBuf (Val := Elt F) (T := ⟨S8x1024x1024x1x1, .i1⟩) main_call5.v11 v = v := rfl
theorem cast_c5c3o (v : _) : TRef.ofBuf (Val := Elt F) (T := ⟨S_, .i1⟩) main_call5.c_3 v = v := rfl
theorem cast_c5c3t (v : _) : TRef.toBuf (Val := Elt F) (T := ⟨S_, .i1⟩) main_call5.c_3 v = v := rfl
theorem cast_c5v13 (v : _) : TRef.toBuf (Val := Elt F) (T := ⟨S8x1x1024x1024x1, .f32⟩) main_call5.v13 v = v := rfl
theorem cast_v56 (v : _) : TRef.ofBuf (Val := Elt F) (T := ⟨S8x1x1024x1024x9, .f32⟩) (.of main_v56 : StableHlo.TRef sig ⟨S8x1x1024x1024x9, .f32⟩) v = v := rfl
theorem cast_c5v5 (v : _) : TRef.ofBuf (Val := Elt F) (T := ⟨S8x1024x1024x1x1, .i32⟩) main_call5.v5 v = v := rfl

set_option maxRecDepth 16384 in
set_option maxHeartbeats 1000000 in
/-- The chosen position as a gather index before it is re-laid: moved up by 9 when negative. First with the typed references' transports where the operations put them — both sides then read
    down to the same terms —, then the transports removed over variables. -/
theorem tail_v4 (V : Valuation τ sig (Elt F)) :
    (after ops V (main_call5_v4 : DevRef τ sig))
      = select (cmpi .slt (broadcastInDim S8x1x1024x1024x1 ![0, 1, 2, 3] bcast_S8x1x1024x1024_S8x1x1024x1024x1_0_1_2_3 (after ops V (main_v61 : DevRef τ sig))) (broadcastInDim S8x1x1024x1024x1 ![] bcast_S_S8x1x1024x1024x1 (constantI S_ 32 0#32)))
          (addi (broadcastInDim S8x1x1024x1024x1 ![0, 1, 2, 3] bcast_S8x1x1024x1024_S8x1x1024x1024x1_0_1_2_3 (after ops V (main_v61 : DevRef τ sig))) (broadcastInDim S8x1x1024x1024x1 ![] bcast_S_S8x1x1024x1024x1 (constantI S_ 32 9#32))) (broadcastInDim S8x1x1024x1024x1 ![0, 1, 2, 3] bcast_S8x1x1024x1024_S8x1x1024x1024x1_0_1_2_3 (after ops V (main_v61 : DevRef τ sig))) := by
  have h1 : (after ops V (main_call5_v4 : DevRef τ sig))
      = (TRef.toBuf (Val := Elt F) (T := ⟨S8x1x1024x1024x1, .i32⟩) main_call5.v4 ((select : (⟨S8x1x1024x1024x1, .i1⟩ : BufTy).Contents (Elt F) → (⟨S8x1x1024x1024x1, .i32⟩ : BufTy).Contents (Elt F) → (⟨S8x1x1024x1024x1, .i32⟩ : BufTy).Contents (Elt F) → (⟨S8x1x1024x1024x1, .i32⟩ : BufTy).Contents (Elt F)) (TRef.ofBuf (Val := Elt F) (T := ⟨S8x1x1024x1024x1, .i1⟩) main_call5.v1 (TRef.toBuf (Val := Elt F) (T := ⟨S8x1x1024x1024x1, .i1⟩) main_call5.v1 (((cmpi .slt) : (⟨S8x1x1024x1024x1, .i32⟩ : BufTy).Contents (Elt F) → (⟨S8x1x1024x1024x1, .i32⟩ : BufTy).Contents (Elt F) → (⟨S8x1x1024x1024x1, .i1⟩ : BufTy).Contents (Elt F)) (TRef.ofBuf (Val := Elt F) (T := ⟨S8x1x1024x1024x1, .i32⟩) (.of main_v63 : StableHlo.TRef sig ⟨S8x1x1024x1024x1, .i32⟩) ((broadcastInDim S8x1x1024x1024x1 ![0, 1, 2, 3] bcast_S8x1x1024x1024_S8x1x1024x1024x1_0_1_2_3 : (⟨S8x1x1024x1024, .i32⟩ : BufTy).Contents (Elt F) → (⟨S8x1x1024x1024x1, .i32⟩ : BufTy).Contents (Elt F)) (after ops V (main_v61 : DevRef τ sig)))) (TRef.ofBuf (Val := Elt F) (T := ⟨S8x1x1024x1024x1, .i32⟩) main_call5.v0 (TRef.toBuf (Val := Elt F) (T := ⟨S8x1x1024x1024x1, .i32⟩) main_call5.v0 (((broadcastInDim S8x1x1024x1024x1 ![] bcast_S_S8x1x1024x1024x1) : (⟨S_, .i32⟩ : BufTy).Contents (Elt F) → (⟨S8x1x1024x1024x1, .i32⟩ : BufTy).Contents (Elt F)) (TRef.ofBuf (Val := Elt F) (T := ⟨S_, .i32⟩) main_call5.c (TRef.toBuf (Val := Elt F) (T := ⟨S_, .i32⟩) main_call5.c (constantI S_ 32 0#32))))))))) (TRef.ofBuf (Val := Elt F) (T := ⟨S8x1x1024x1024x1, .i32⟩) main_call5.v3 (TRef.toBuf (Val := Elt F) (T := ⟨S8x1x1024x1024x1, .i32⟩) main_call5.v3 ((addi : (⟨S8x1x1024x1024x1, .i32⟩ : BufTy).Contents (Elt F) → (⟨S8x1x1024x1024x1, .i32⟩ : BufTy).Contents (Elt F) → (⟨S8x1x1024x1024x1, .i32⟩ : BufTy).Contents (Elt F)) (TRef.ofBuf (Val := Elt F) (T := ⟨S8x1x1024x1024x1, .i32⟩) (.of main_v63 : StableHlo.TRef sig ⟨S8x1x1024x1024x1, .i32⟩) ((broadcastInDim S8x1x1024x1024x1 ![0, 1, 2, 3] bcast_S8x1x1024x1024_S8x1x1024x1024x1_0_1_2_3 : (⟨S8x1x1024x1024, .i32⟩ : BufTy).Contents (Elt F) → (⟨S8x1x1024x1024x1, .i32⟩ : BufTy).Contents (Elt F)) (after ops V (main_v61 : DevRef τ sig)))) (TRef.ofBuf (Val := Elt F) (T := ⟨S8x1x1024x1024x1, .i32⟩) main_call5.v2 (TRef.toBuf (Val := Elt F) (T := ⟨S8x1x1024x1024x1, .i32⟩) main_call5.v2 (((broadcastInDim S8x1x1024x1024x1 ![] bcast_S_S8x1x1024x1024x1) : (⟨S_, .i32⟩ : BufTy).Contents (Elt F) → (⟨S8x1x1024x1024x1, .i32⟩ : BufTy).Contents (Elt F)) (TRef.ofBuf (Val := Elt F) (T := ⟨S_, .i32⟩) main_call5.c_0 (TRef.toBuf (Val := Elt F) (T := ⟨S_, .i32⟩) main_call5.c_0 (constantI S_ 32 9#32))))))))) (TRef.ofBuf (Val := Elt F) (T := ⟨S8x1x1024x1024x1, .i32⟩) (.of main_v63 : StableHlo.TRef sig ⟨S8x1x1024x1024x1, .i32⟩) ((broadcastInDim S8x1x1024x1024x1 ![0, 1, 2, 3] bcast_S8x1x1024x1024_S8x1x1024x1024x1_0_1_2_3 : (⟨S8x1x1024x1024, .i32⟩ : BufTy).Contents (Elt F) → (⟨S8x1x1024x1024x1, .i32⟩ : BufTy).Contents (Elt F)) (after ops V (main_v61 : DevRef τ sig)))))) := by
    after_results_simp <;> rfl
  have h2 : ∀ (u0 : (main_v61 : Ref sig .tc).ty.Contents (Elt F)),
      (TRef.toBuf (Val := Elt F) (T := ⟨S8x1x1024x1024x1, .i32⟩) main_call5.v4 ((select : (⟨S8x1x1024x1024x1, .i1⟩ : BufTy).Contents (Elt F) → (⟨S8x1x1024x1024x1, .i32⟩ : BufTy).Contents (Elt F) → (⟨S8x1x1024x1024x1, .i32⟩ : BufTy).Contents (Elt F) → (⟨S8x1x1024x1024x1, .i32⟩ : BufTy).Contents (Elt F)) (TRef.ofBuf (Val := Elt F) (T := ⟨S8x1x1024x1024x1, .i1⟩) main_call5.v1 (TRef.toBuf (Val := Elt F) (T := ⟨S8x1x1024x1024x1, .i1⟩) main_call5.v1 (((cmpi .slt) : (⟨S8x1x1024x1024x1, .i32⟩ : BufTy).Contents (Elt F) → (⟨S8x1x1024x1024x1, .i32⟩ : BufTy).Contents (Elt F) → (⟨S8x1x1024x1024x1, .i1⟩ : BufTy).Contents (Elt F)) (TRef.ofBuf (Val := Elt F) (T := ⟨S8x1x1024x1024x1, .i32⟩) (.of main_v63 : StableHlo.TRef sig ⟨S8x1x1024x1024x1, .i32⟩) ((broadcastInDim S8x1x1024x1024x1 ![0, 1, 2, 3] bcast_S8x1x1024x1024_S8x1x1024x1024x1_0_1_2_3 : (⟨S8x1x1024x1024, .i32⟩ : BufTy).Contents (Elt F) → (⟨S8x1x1024x1024x1, .i32⟩ : BufTy).Contents (Elt F)) u0)) (TRef.ofBuf (Val := Elt F) (T := ⟨S8x1x1024x1024x1, .i32⟩) main_call5.v0 (TRef.toBuf (Val := Elt F) (T := ⟨S8x1x1024x1024x1, .i32⟩) main_call5.v0 (((broadcastInDim S8x1x1024x1024x1 ![] bcast_S_S8x1x1024x1024x1) : (⟨S_, .i32⟩ : BufTy).Contents (Elt F) → (⟨S8x1x1024x1024x1, .i32⟩ : BufTy).Contents (Elt F)) (TRef.ofBuf (Val := Elt F) (T := ⟨S_, .i32⟩) main_call5.c (TRef.toBuf (Val := Elt F) (T := ⟨S_, .i32⟩) main_call5.c (constantI S_ 32 0#32))))))))) (TRef.ofBuf (Val := Elt F) (T := ⟨S8x1x1024x1024x1, .i32⟩) main_call5.v3 (TRef.toBuf (Val := Elt F) (T := ⟨S8x1x1024x1024x1, .i32⟩) main_call5.v3 ((addi : (⟨S8x1x1024x1024x1, .i32⟩ : BufTy).Contents (Elt F) → (⟨S8x1x1024x1024x1, .i32⟩ : BufTy).Contents (Elt F) → (⟨S8x1x1024x1024x1, .i32⟩ : BufTy).Contents (Elt F)) (TRef.ofBuf (Val := Elt F) (T := ⟨S8x1x1024x1024x1, .i32⟩) (.of main_v63 : StableHlo.TRef sig ⟨S8x1x1024x1024x1, .i32⟩) ((broadcastInDim S8x1x1024x1024x1 ![0, 1, 2, 3] bcast_S8x1x1024x1024_S8x1x1024x1024x1_0_1_2_3 : (⟨S8x1x1024x1024, .i32⟩ : BufTy).Contents (Elt F) → (⟨S8x1x1024x1024x1, .i32⟩ : BufTy).Contents (Elt F)) u0)) (TRef.ofBuf (Val := Elt F) (T := ⟨S8x1x1024x1024x1, .i32⟩) main_call5.v2 (TRef.toBuf (Val := Elt F) (T := ⟨S8x1x1024x1024x1, .i32⟩) main_call5.v2 (((broadcastInDim S8x1x1024x1024x1 ![] bcast_S_S8x1x1024x1024x1) : (⟨S_, .i32⟩ : BufTy).Contents (Elt F) → (⟨S8x1x1024x1024x1, .i32⟩ : BufTy).Contents (Elt F)) (TRef.ofBuf (Val := Elt F) (T := ⟨S_, .i32⟩) main_call5.c_0 (TRef.toBuf (Val := Elt F) (T := ⟨S_, .i32⟩) main_call5.c_0 (constantI S_ 32 9#32))))))))) (TRef.ofBuf (Val := Elt F) (T := ⟨S8x1x1024x1024x1, .i32⟩) (.of main_v63 : StableHlo.TRef sig ⟨S8x1x1024x1024x1, .i32⟩) ((broadcastInDim S8x1x1024x1024x1 ![0, 1, 2, 3] bcast_S8x1x1024x1024_S8x1x1024x1024x1_0_1_2_3 : (⟨S8x1x1024x1024, .i32⟩ : BufTy).Contents (Elt F) → (⟨S8x1x1024x1024x1, .i32⟩ : BufTy).Contents (Elt F)) u0))))
      = select (cmpi .slt (broadcastInDim S8x1x1024x1024x1 ![0, 1, 2, 3] bcast_S8x1x1024x1024_S8x1x1024x1024x1_0_1_2_3 u0) (broadcastInDim S8x1x1024x1024x1 ![] bcast_S_S8x1x1024x1024x1 (constantI S_ 32 0#32)))
          (addi (broadcastInDim S8x1x1024x1024x1 ![0, 1, 2, 3] bcast_S8x1x1024x1024_S8x1x1024x1024x1_0_1_2_3 u0) (broadcastInDim S8x1x1024x1024x1 ![] bcast_S_S8x1x1024x1024x1 (constantI S_ 32 9#32))) (broadcastInDim S8x1x1024x1024x1 ![0, 1, 2, 3] bcast_S8x1x1024x1024_S8x1x1024x1024x1_0_1_2_3 u0) := by
    intros
    rfl
  exact h1.trans (h2 (after ops V (main_v61 : DevRef τ sig)))

set_option maxRecDepth 16384 in
set_option maxHeartbeats 1000000 in
/-- The index re-laid: a reshape, the operand read down to the same term on both sides. -/
theorem tail_v5 (V : Valuation τ sig (Elt F)) :
    (after ops V (main_call5_v5 : DevRef τ sig))
      = shapeCast S8x1024x1024x1x1 (after ops V (main_call5_v4 : DevRef τ sig)) shapeCasts_S8x1x1024x1024x1_S8x1024x1024x1x1 := by
  after_results_simp <;> rfl

set_option maxRecDepth 16384 in
set_option maxHeartbeats 1000000 in
/-- The index tested against [0, 8], elementwise. First with the typed references' transports where the operations put them — both sides then read
    down to the same terms —, then the transports removed over variables. -/
theorem tail_v11 (V : Valuation τ sig (Elt F)) :
    (after ops V (main_call5_v11 : DevRef τ sig))
      = andi (cmpi .sge (after ops V (main_call5_v5 : DevRef τ sig)) (broadcastInDim S8x1024x1024x1x1 ![] bcast_S_S8x1024x1024x1x1 (constantI S_ 32 0#32)))
          (cmpi .sle (after ops V (main_call5_v5 : DevRef τ sig)) (broadcastInDim S8x1024x1024x1x1 ![0, 1, 2, 3, 4] bcast_S1x1x1x1x1_S8x1024x1024x1x1_0_1_2_3_4
            (broadcastInDim S1x1x1x1x1 ![4] bcast_S1_S1x1x1x1x1_4 (constantI S1 32 8#32)))) := by
  have h1 : (after ops V (main_call5_v11 : DevRef τ sig))
      = (TRef.toBuf (Val := Elt F) (T := ⟨S8x1024x1024x1x1, .i1⟩) main_call5.v11 ((andi : (⟨S8x1024x1024x1x1, .i1⟩ : BufTy).Contents (Elt F) → (⟨S8x1024x1024x1x1, .i1⟩ : BufTy).Contents (Elt F) → (⟨S8x1024x1024x1x1, .i1⟩ : BufTy).Contents (Elt F)) (TRef.ofBuf (Val := Elt F) (T := ⟨S8x1024x1024x1x1, .i1⟩) main_call5.v7 (TRef.toBuf (Val := Elt F) (T := ⟨S8x1024x1024x1x1, .i1⟩) main_call5.v7 (((cmpi .sge) : (⟨S8x1024x1024x1x1, .i32⟩ : BufTy).Contents (Elt F) → (⟨S8x1024x1024x1x1, .i32⟩ : BufTy).Contents (Elt F) → (⟨S8x1024x1024x1x1, .i1⟩ : BufTy).Contents (Elt F)) (TRef.ofBuf (Val := Elt F) (T := ⟨S8x1024x1024x1x1, .i32⟩) main_call5.v5 (after ops V (main_call5_v5 : DevRef τ sig))) (TRef.ofBuf (Val := Elt F) (T := ⟨S8x1024x1024x1x1, .i32⟩) main_call5.v6 (TRef.toBuf (Val := Elt F) (T := ⟨S8x1024x1024x1x1, .i32⟩) main_call5.v6 (((broadcastInDim S8x1024x1024x1x1 ![] bcast_S_S8x1024x1024x1x1) : (⟨S_, .i32⟩ : BufTy).Contents (Elt F) → (⟨S8x1024x1024x1x1, .i32⟩ : BufTy).Contents (Elt F)) (TRef.ofBuf (Val := Elt F) (T := ⟨S_, .i32⟩) main_call5.c_2 (TRef.toBuf (Val := Elt F) (T := ⟨S_, .i32⟩) main_call5.c_2 (constantI S_ 32 0#32))))))))) (TRef.ofBuf (Val := Elt F) (T := ⟨S8x1024x1024x1x1, .i1⟩) main_call5.v10 (TRef.toBuf (Val := Elt F) (T := ⟨S8x1024x1024x1x1, .i1⟩) main_call5.v10 (((cmpi .sle) : (⟨S8x1024x1024x1x1, .i32⟩ : BufTy).Contents (Elt F) → (⟨S8x1024x1024x1x1, .i32⟩ : BufTy).Contents (Elt F) → (⟨S8x1024x1024x1x1, .i1⟩ : BufTy).Contents (Elt F)) (TRef.ofBuf (Val := Elt F) (T := ⟨S8x1024x1024x1x1, .i32⟩) main_call5.v5 (after ops V (main_call5_v5 : DevRef τ sig))) (TRef.ofBuf (Val := Elt F) (T := ⟨S8x1024x1024x1x1, .i32⟩) main_call5.v9 (TRef.toBuf (Val := Elt F) (T := ⟨S8x1024x1024x1x1, .i32⟩) main_call5.v9 (((broadcastInDim S8x1024x1024x1x1 ![0, 1, 2, 3, 4] bcast_S1x1x1x1x1_S8x1024x1024x1x1_0_1_2_3_4) : (⟨S1x1x1x1x1, .i32⟩ : BufTy).Contents (Elt F) → (⟨S8x1024x1024x1x1, .i32⟩ : BufTy).Contents (Elt F)) (TRef.ofBuf (Val := Elt F) (T := ⟨S1x1x1x1x1, .i32⟩) main_call5.v8 (TRef.toBuf (Val := Elt F) (T := ⟨S1x1x1x1x1, .i32⟩) main_call5.v8 (((broadcastInDim S1x1x1x1x1 ![4] bcast_S1_S1x1x1x1x1_4) : (⟨S1, .i32⟩ : BufTy).Contents (Elt F) → (⟨S1x1x1x1x1, .i32⟩ : BufTy).Contents (Elt F)) (TRef.ofBuf (Val := Elt F) (T := ⟨S1, .i32⟩) main_call5.c_1 (TRef.toBuf (Val := Elt F) (T := ⟨S1, .i32⟩) main_call5.c_1 (constantI S1 32 8#32)))))))))))))) := by
    after_results_simp <;> rfl
  have h2 : ∀ (u0 : (main_call5_v5 : Ref sig .tc).ty.Contents (Elt F)),
      (TRef.toBuf (Val := Elt F) (T := ⟨S8x1024x1024x1x1, .i1⟩) main_call5.v11 ((andi : (⟨S8x1024x1024x1x1, .i1⟩ : BufTy).Contents (Elt F) → (⟨S8x1024x1024x1x1, .i1⟩ : BufTy).Contents (Elt F) → (⟨S8x1024x1024x1x1, .i1⟩ : BufTy).Contents (Elt F)) (TRef.ofBuf (Val := Elt F) (T := ⟨S8x1024x1024x1x1, .i1⟩) main_call5.v7 (TRef.toBuf (Val := Elt F) (T := ⟨S8x1024x1024x1x1, .i1⟩) main_call5.v7 (((cmpi .sge) : (⟨S8x1024x1024x1x1, .i32⟩ : BufTy).Contents (Elt F) → (⟨S8x1024x1024x1x1, .i32⟩ : BufTy).Contents (Elt F) → (⟨S8x1024x1024x1x1, .i1⟩ : BufTy).Contents (Elt F)) (TRef.ofBuf (Val := Elt F) (T := ⟨S8x1024x1024x1x1, .i32⟩) main_call5.v5 u0) (TRef.ofBuf (Val := Elt F) (T := ⟨S8x1024x1024x1x1, .i32⟩) main_call5.v6 (TRef.toBuf (Val := Elt F) (T := ⟨S8x1024x1024x1x1, .i32⟩) main_call5.v6 (((broadcastInDim S8x1024x1024x1x1 ![] bcast_S_S8x1024x1024x1x1) : (⟨S_, .i32⟩ : BufTy).Contents (Elt F) → (⟨S8x1024x1024x1x1, .i32⟩ : BufTy).Contents (Elt F)) (TRef.ofBuf (Val := Elt F) (T := ⟨S_, .i32⟩) main_call5.c_2 (TRef.toBuf (Val := Elt F) (T := ⟨S_, .i32⟩) main_call5.c_2 (constantI S_ 32 0#32))))))))) (TRef.ofBuf (Val := Elt F) (T := ⟨S8x1024x1024x1x1, .i1⟩) main_call5.v10 (TRef.toBuf (Val := Elt F) (T := ⟨S8x1024x1024x1x1, .i1⟩) main_call5.v10 (((cmpi .sle) : (⟨S8x1024x1024x1x1, .i32⟩ : BufTy).Contents (Elt F) → (⟨S8x1024x1024x1x1, .i32⟩ : BufTy).Contents (Elt F) → (⟨S8x1024x1024x1x1, .i1⟩ : BufTy).Contents (Elt F)) (TRef.ofBuf (Val := Elt F) (T := ⟨S8x1024x1024x1x1, .i32⟩) main_call5.v5 u0) (TRef.ofBuf (Val := Elt F) (T := ⟨S8x1024x1024x1x1, .i32⟩) main_call5.v9 (TRef.toBuf (Val := Elt F) (T := ⟨S8x1024x1024x1x1, .i32⟩) main_call5.v9 (((broadcastInDim S8x1024x1024x1x1 ![0, 1, 2, 3, 4] bcast_S1x1x1x1x1_S8x1024x1024x1x1_0_1_2_3_4) : (⟨S1x1x1x1x1, .i32⟩ : BufTy).Contents (Elt F) → (⟨S8x1024x1024x1x1, .i32⟩ : BufTy).Contents (Elt F)) (TRef.ofBuf (Val := Elt F) (T := ⟨S1x1x1x1x1, .i32⟩) main_call5.v8 (TRef.toBuf (Val := Elt F) (T := ⟨S1x1x1x1x1, .i32⟩) main_call5.v8 (((broadcastInDim S1x1x1x1x1 ![4] bcast_S1_S1x1x1x1x1_4) : (⟨S1, .i32⟩ : BufTy).Contents (Elt F) → (⟨S1x1x1x1x1, .i32⟩ : BufTy).Contents (Elt F)) (TRef.ofBuf (Val := Elt F) (T := ⟨S1, .i32⟩) main_call5.c_1 (TRef.toBuf (Val := Elt F) (T := ⟨S1, .i32⟩) main_call5.c_1 (constantI S1 32 8#32))))))))))))))
      = andi (cmpi .sge u0 (broadcastInDim S8x1024x1024x1x1 ![] bcast_S_S8x1024x1024x1x1 (constantI S_ 32 0#32)))
          (cmpi .sle u0 (broadcastInDim S8x1024x1024x1x1 ![0, 1, 2, 3, 4] bcast_S1x1x1x1x1_S8x1024x1024x1x1_0_1_2_3_4
            (broadcastInDim S1x1x1x1x1 ![4] bcast_S1_S1x1x1x1x1_4 (constantI S1 32 8#32)))) := by
    intros
    rfl
  exact h1.trans (h2 (after ops V (main_call5_v5 : DevRef τ sig)))

set_option maxRecDepth 16384 in
set_option maxHeartbeats 1000000 in
/-- The test folded along the last axis (of extent one). First with the typed references' transports where the operations put them — both sides then read
    down to the same terms —, then the transports removed over variables. -/
theorem tail_v12 (V : Valuation τ sig (Elt F)) :
    (after ops V (main_call5_v12 : DevRef τ sig))
      = Host.reduce IntOp.andi (after ops V (main_call5_v11 : DevRef τ sig)) (constantI S_ 1 1#1) reducesTo_S8x1024x1024x1x1_S8x1024x1024x1_d4 h_S_ := by
  have h1 : (after ops V (main_call5_v12 : DevRef τ sig))
      = (TRef.toBuf (Val := Elt F) (T := ⟨S8x1024x1024x1, .i1⟩) main_call5.v12 (((fun x v => Host.reduce IntOp.andi x v reducesTo_S8x1024x1024x1x1_S8x1024x1024x1_d4 h_S_) : (⟨S8x1024x1024x1x1, .i1⟩ : BufTy).Contents (Elt F) → (⟨S_, .i1⟩ : BufTy).Contents (Elt F) → (⟨S8x1024x1024x1, .i1⟩ : BufTy).Contents (Elt F)) (TRef.ofBuf (Val := Elt F) (T := ⟨S8x1024x1024x1x1, .i1⟩) main_call5.v11 (after ops V (main_call5_v11 : DevRef τ sig))) (TRef.ofBuf (Val := Elt F) (T := ⟨S_, .i1⟩) main_call5.c_3 (TRef.toBuf (Val := Elt F) (T := ⟨S_, .i1⟩) main_call5.c_3 (constantI S_ 1 1#1))))) := by
    after_results_simp <;> rfl
  have h2 : ∀ (u0 : (main_call5_v11 : Ref sig .tc).ty.Contents (Elt F)),
      (TRef.toBuf (Val := Elt F) (T := ⟨S8x1024x1024x1, .i1⟩) main_call5.v12 (((fun x v => Host.reduce IntOp.andi x v reducesTo_S8x1024x1024x1x1_S8x1024x1024x1_d4 h_S_) : (⟨S8x1024x1024x1x1, .i1⟩ : BufTy).Contents (Elt F) → (⟨S_, .i1⟩ : BufTy).Contents (Elt F) → (⟨S8x1024x1024x1, .i1⟩ : BufTy).Contents (Elt F)) (TRef.ofBuf (Val := Elt F) (T := ⟨S8x1024x1024x1x1, .i1⟩) main_call5.v11 u0) (TRef.ofBuf (Val := Elt F) (T := ⟨S_, .i1⟩) main_call5.c_3 (TRef.toBuf (Val := Elt F) (T := ⟨S_, .i1⟩) main_call5.c_3 (constantI S_ 1 1#1)))))
      = Host.reduce IntOp.andi u0 (constantI S_ 1 1#1) reducesTo_S8x1024x1024x1x1_S8x1024x1024x1_d4 h_S_ := by
    intros
    rw [cast_c5v12, cast_c5v11, cast_c5c3o, cast_c5c3t]
  exact h1.trans (h2 (after ops V (main_call5_v11 : DevRef τ sig)))

set_option maxRecDepth 16384 in
set_option maxHeartbeats 1000000 in
/-- The folded test laid back over the output. First with the typed references' transports where the operations put them — both sides then read
    down to the same terms —, then the transports removed over variables. -/
theorem tail_v14 (V : Valuation τ sig (Elt F)) :
    (after ops V (main_call5_v14 : DevRef τ sig))
      = broadcastInDim S8x1x1024x1024x1 ![0, 2, 3, 4] bcast_S8x1024x1024x1_S8x1x1024x1024x1_0_2_3_4 (after ops V (main_call5_v12 : DevRef τ sig)) := by
  have h1 : (after ops V (main_call5_v14 : DevRef τ sig))
      = (TRef.toBuf (Val := Elt F) (T := ⟨S8x1x1024x1024x1, .i1⟩) main_call5.v14 (((broadcastInDim S8x1x1024x1024x1 ![0, 2, 3, 4] bcast_S8x1024x1024x1_S8x1x1024x1024x1_0_2_3_4) : (⟨S8x1024x1024x1, .i1⟩ : BufTy).Contents (Elt F) → (⟨S8x1x1024x1024x1, .i1⟩ : BufTy).Contents (Elt F)) (TRef.ofBuf (Val := Elt F) (T := ⟨S8x1024x1024x1, .i1⟩) main_call5.v12 (after ops V (main_call5_v12 : DevRef τ sig))))) := by
    after_results_simp <;> rfl
  have h2 : ∀ (u0 : (main_call5_v12 : Ref sig .tc).ty.Contents (Elt F)),
      (TRef.toBuf (Val := Elt F) (T := ⟨S8x1x1024x1024x1, .i1⟩) main_call5.v14 (((broadcastInDim S8x1x1024x1024x1 ![0, 2, 3, 4] bcast_S8x1024x1024x1_S8x1x1024x1024x1_0_2_3_4) : (⟨S8x1024x1024x1, .i1⟩ : BufTy).Contents (Elt F) → (⟨S8x1x1024x1024x1, .i1⟩ : BufTy).Contents (Elt F)) (TRef.ofBuf (Val := Elt F) (T := ⟨S8x1024x1024x1, .i1⟩) main_call5.v12 u0)))
      = broadcastInDim S8x1x1024x1024x1 ![0, 2, 3, 4] bcast_S8x1024x1024x1_S8x1x1024x1024x1_0_2_3_4 u0 := by
    intros
    rfl
  exact h1.trans (h2 (after ops V (main_call5_v12 : DevRef τ sig)))

set_option maxRecDepth 16384 in
set_option maxHeartbeats 1000000 in
/-- The second gather: the value at the chosen position. First with the typed references' transports where the operations put them — both sides then read
    down to the same terms —, then the transports removed over variables. -/
theorem tail_v13 (V : Valuation τ sig (Elt F)) :
    (after ops V (main_call5_v13 : DevRef τ sig))
      = Host.gather gather_S8x1x1024x1024x9_S8x1024x1024x1x1_S8x1x1024x1024x1_1_4_023_012_4_4_11111 (after ops V (main_v56 : DevRef τ sig)) (after ops V (main_call5_v5 : DevRef τ sig)) := by
  have h1 : (after ops V (main_call5_v13 : DevRef τ sig))
      = (TRef.toBuf (Val := Elt F) (T := ⟨S8x1x1024x1024x1, .f32⟩) main_call5.v13 (((fun x i => Host.gather gather_S8x1x1024x1024x9_S8x1024x1024x1x1_S8x1x1024x1024x1_1_4_023_012_4_4_11111 x i) : (⟨S8x1x1024x1024x9, .f32⟩ : BufTy).Contents (Elt F) → (⟨S8x1024x1024x1x1, .i32⟩ : BufTy).Contents (Elt F) → (⟨S8x1x1024x1024x1, .f32⟩ : BufTy).Contents (Elt F)) (TRef.ofBuf (Val := Elt F) (T := ⟨S8x1x1024x1024x9, .f32⟩) (.of main_v56 : StableHlo.TRef sig ⟨S8x1x1024x1024x9, .f32⟩) (after ops V (main_v56 : DevRef τ sig))) (TRef.ofBuf (Val := Elt F) (T := ⟨S8x1024x1024x1x1, .i32⟩) main_call5.v5 (after ops V (main_call5_v5 : DevRef τ sig))))) := by
    after_results_simp <;> rfl
  have h2 : ∀ (u0 : (main_v56 : Ref sig .tc).ty.Contents (Elt F)) (u1 : (main_call5_v5 : Ref sig .tc).ty.Contents (Elt F)),
      (TRef.toBuf (Val := Elt F) (T := ⟨S8x1x1024x1024x1, .f32⟩) main_call5.v13 (((fun x i => Host.gather gather_S8x1x1024x1024x9_S8x1024x1024x1x1_S8x1x1024x1024x1_1_4_023_012_4_4_11111 x i) : (⟨S8x1x1024x1024x9, .f32⟩ : BufTy).Contents (Elt F) → (⟨S8x1024x1024x1x1, .i32⟩ : BufTy).Contents (Elt F) → (⟨S8x1x1024x1024x1, .f32⟩ : BufTy).Contents (Elt F)) (TRef.ofBuf (Val := Elt F) (T := ⟨S8x1x1024x1024x9, .f32⟩) (.of main_v56 : StableHlo.TRef sig ⟨S8x1x1024x1024x9, .f32⟩) u0) (TRef.ofBuf (Val := Elt F) (T := ⟨S8x1024x1024x1x1, .i32⟩) main_call5.v5 u1)))
      = Host.gather gather_S8x1x1024x1024x9_S8x1024x1024x1x1_S8x1x1024x1024x1_1_4_023_012_4_4_11111 u0 u1 := by
    intros
    rw [cast_c5v13, cast_v56, cast_c5v5]
  exact h1.trans (h2 (after ops V (main_v56 : DevRef τ sig)) (after ops V (main_call5_v5 : DevRef τ sig)))

set_option maxRecDepth 16384 in
set_option maxHeartbeats 1000000 in
/-- The gathered value where the index is in range, a quiet NaN elsewhere. First with the typed references' transports where the operations put them — both sides then read
    down to the same terms —, then the transports removed over variables. -/
theorem tail_v64 (V : Valuation τ sig (Elt F)) :
    (after ops V (main_v64 : DevRef τ sig))
      = select (after ops V (main_call5_v14 : DevRef τ sig)) (after ops V (main_call5_v13 : DevRef τ sig)) (broadcastInDim S8x1x1024x1024x1 ![] bcast_S_S8x1x1024x1024x1 (constant S_ .f32 0x7FC00000#32)) := by
  have h1 : (after ops V (main_v64 : DevRef τ sig))
      = (TRef.toBuf (Val := Elt F) (T := ⟨S8x1x1024x1024x1, .f32⟩) main_call5.v16 ((select : (⟨S8x1x1024x1024x1, .i1⟩ : BufTy).Contents (Elt F) → (⟨S8x1x1024x1024x1, .f32⟩ : BufTy).Contents (Elt F) → (⟨S8x1x1024x1024x1, .f32⟩ : BufTy).Contents (Elt F) → (⟨S8x1x1024x1024x1, .f32⟩ : BufTy).Contents (Elt F)) (TRef.ofBuf (Val := Elt F) (T := ⟨S8x1x1024x1024x1, .i1⟩) main_call5.v14 (after ops V (main_call5_v14 : DevRef τ sig))) (TRef.ofBuf (Val := Elt F) (T := ⟨S8x1x1024x1024x1, .f32⟩) main_call5.v13 (after ops V (main_call5_v13 : DevRef τ sig))) (TRef.ofBuf (Val := Elt F) (T := ⟨S8x1x1024x1024x1, .f32⟩) main_call5.v15 (TRef.toBuf (Val := Elt F) (T := ⟨S8x1x1024x1024x1, .f32⟩) main_call5.v15 (((broadcastInDim S8x1x1024x1024x1 ![] bcast_S_S8x1x1024x1024x1) : (⟨S_, .f32⟩ : BufTy).Contents (Elt F) → (⟨S8x1x1024x1024x1, .f32⟩ : BufTy).Contents (Elt F)) (TRef.ofBuf (Val := Elt F) (T := ⟨S_, .f32⟩) main_call5.cst (TRef.toBuf (Val := Elt F) (T := ⟨S_, .f32⟩) main_call5.cst (constant S_ .f32 0x7FC00000#32)))))))) := by
    after_results_simp <;> rfl
  have h2 : ∀ (u0 : (main_call5_v14 : Ref sig .tc).ty.Contents (Elt F)) (u1 : (main_call5_v13 : Ref sig .tc).ty.Contents (Elt F)),
      (TRef.toBuf (Val := Elt F) (T := ⟨S8x1x1024x1024x1, .f32⟩) main_call5.v16 ((select : (⟨S8x1x1024x1024x1, .i1⟩ : BufTy).Contents (Elt F) → (⟨S8x1x1024x1024x1, .f32⟩ : BufTy).Contents (Elt F) → (⟨S8x1x1024x1024x1, .f32⟩ : BufTy).Contents (Elt F) → (⟨S8x1x1024x1024x1, .f32⟩ : BufTy).Contents (Elt F)) (TRef.ofBuf (Val := Elt F) (T := ⟨S8x1x1024x1024x1, .i1⟩) main_call5.v14 u0) (TRef.ofBuf (Val := Elt F) (T := ⟨S8x1x1024x1024x1, .f32⟩) main_call5.v13 u1) (TRef.ofBuf (Val := Elt F) (T := ⟨S8x1x1024x1024x1, .f32⟩) main_call5.v15 (TRef.toBuf (Val := Elt F) (T := ⟨S8x1x1024x1024x1, .f32⟩) main_call5.v15 (((broadcastInDim S8x1x1024x1024x1 ![] bcast_S_S8x1x1024x1024x1) : (⟨S_, .f32⟩ : BufTy).Contents (Elt F) → (⟨S8x1x1024x1024x1, .f32⟩ : BufTy).Contents (Elt F)) (TRef.ofBuf (Val := Elt F) (T := ⟨S_, .f32⟩) main_call5.cst (TRef.toBuf (Val := Elt F) (T := ⟨S_, .f32⟩) main_call5.cst (constant S_ .f32 0x7FC00000#32))))))))
      = select u0 u1 (broadcastInDim S8x1x1024x1024x1 ![] bcast_S_S8x1x1024x1024x1 (constant S_ .f32 0x7FC00000#32)) := by
    intros
    rfl
  exact h1.trans (h2 (after ops V (main_call5_v14 : DevRef τ sig)) (after ops V (main_call5_v13 : DevRef τ sig)))

set_option maxRecDepth 16384 in
set_option maxHeartbeats 1000000 in
/-- The taken value re-laid: a reshape. -/
theorem tail_v65 (V : Valuation τ sig (Elt F)) :
    (after ops V (main_v65 : DevRef τ sig))
      = shapeCast S8x1x1024x1024 (after ops V (main_v64 : DevRef τ sig)) shapeCasts_S8x1x1024x1024x1_S8x1x1024x1024 := by
  after_results_simp <;> rfl

set_option maxRecDepth 16384 in
set_option maxHeartbeats 1000000 in
/-- The result: the taken value where some candidate counts, zero elsewhere. First with the typed references' transports where the operations put them — both sides then read
    down to the same terms —, then the transports removed over variables. -/
theorem tail_v66 (V : Valuation τ sig (Elt F)) :
    (after ops V (main_v66 : DevRef τ sig))
      = select (after ops V (main_v62 : DevRef τ sig)) (after ops V (main_v65 : DevRef τ sig)) (broadcastInDim S8x1x1024x1024 ![] bcast_S_S8x1x1024x1024 (id (constant S_ .f32 0x00000000#32))) := by
  have h1 : (after ops V (main_v66 : DevRef τ sig))
      = (TRef.toBuf (Val := Elt F) (T := ⟨S8x1x1024x1024, .f32⟩) main_call6.v2 ((select : (⟨S8x1x1024x1024, .i1⟩ : BufTy).Contents (Elt F) → (⟨S8x1x1024x1024, .f32⟩ : BufTy).Contents (Elt F) → (⟨S8x1x1024x1024, .f32⟩ : BufTy).Contents (Elt F) → (⟨S8x1x1024x1024, .f32⟩ : BufTy).Contents (Elt F)) (TRef.ofBuf (Val := Elt F) (T := ⟨S8x1x1024x1024, .i1⟩) (.of main_v62 : StableHlo.TRef sig ⟨S8x1x1024x1024, .i1⟩) (after ops V (main_v62 : DevRef τ sig))) (TRef.ofBuf (Val := Elt F) (T := ⟨S8x1x1024x1024, .f32⟩) (.of main_v65 : StableHlo.TRef sig ⟨S8x1x1024x1024, .f32⟩) (after ops V (main_v65 : DevRef τ sig))) (TRef.ofBuf (Val := Elt F) (T := ⟨S8x1x1024x1024, .f32⟩) main_call6.v1 (TRef.toBuf (Val := Elt F) (T := ⟨S8x1x1024x1024, .f32⟩) main_call6.v1 (((broadcastInDim S8x1x1024x1024 ![] bcast_S_S8x1x1024x1024) : (⟨S_, .f32⟩ : BufTy).Contents (Elt F) → (⟨S8x1x1024x1024, .f32⟩ : BufTy).Contents (Elt F)) (TRef.ofBuf (Val := Elt F) (T := ⟨S_, .f32⟩) main_call6.v0 (TRef.toBuf (Val := Elt F) (T := ⟨S_, .f32⟩) main_call6.v0 ((id : (⟨S_, .f32⟩ : BufTy).Contents (Elt F) → (⟨S_, .f32⟩ : BufTy).Contents (Elt F)) (TRef.ofBuf (Val := Elt F) (T := ⟨S_, .f32⟩) (.of main_cst_20 : StableHlo.TRef sig ⟨S_, .f32⟩) (constant S_ .f32 0x00000000#32)))))))))) := by
    after_results_simp <;> rfl
  have h2 : ∀ (u0 : (main_v62 : Ref sig .tc).ty.Contents (Elt F)) (u1 : (main_v65 : Ref sig .tc).ty.Contents (Elt F)),
      (TRef.toBuf (Val := Elt F) (T := ⟨S8x1x1024x1024, .f32⟩) main_call6.v2 ((select : (⟨S8x1x1024x1024, .i1⟩ : BufTy).Contents (Elt F) → (⟨S8x1x1024x1024, .f32⟩ : BufTy).Contents (Elt F) → (⟨S8x1x1024x1024, .f32⟩ : BufTy).Contents (Elt F) → (⟨S8x1x1024x1024, .f32⟩ : BufTy).Contents (Elt F)) (TRef.ofBuf (Val := Elt F) (T := ⟨S8x1x1024x1024, .i1⟩) (.of main_v62 : StableHlo.TRef sig ⟨S8x1x1024x1024, .i1⟩) u0) (TRef.ofBuf (Val := Elt F) (T := ⟨S8x1x1024x1024, .f32⟩) (.of main_v65 : StableHlo.TRef sig ⟨S8x1x1024x1024, .f32⟩) u1) (TRef.ofBuf (Val := Elt F) (T := ⟨S8x1x1024x1024, .f32⟩) main_call6.v1 (TRef.toBuf (Val := Elt F) (T := ⟨S8x1x1024x1024, .f32⟩) main_call6.v1 (((broadcastInDim S8x1x1024x1024 ![] bcast_S_S8x1x1024x1024) : (⟨S_, .f32⟩ : BufTy).Contents (Elt F) → (⟨S8x1x1024x1024, .f32⟩ : BufTy).Contents (Elt F)) (TRef.ofBuf (Val := Elt F) (T := ⟨S_, .f32⟩) main_call6.v0 (TRef.toBuf (Val := Elt F) (T := ⟨S_, .f32⟩) main_call6.v0 ((id : (⟨S_, .f32⟩ : BufTy).Contents (Elt F) → (⟨S_, .f32⟩ : BufTy).Contents (Elt F)) (TRef.ofBuf (Val := Elt F) (T := ⟨S_, .f32⟩) (.of main_cst_20 : StableHlo.TRef sig ⟨S_, .f32⟩) (constant S_ .f32 0x00000000#32))))))))))
      = select u0 u1 (broadcastInDim S8x1x1024x1024 ![] bcast_S_S8x1x1024x1024 (id (constant S_ .f32 0x00000000#32))) := by
    intros
    rfl
  exact h1.trans (h2 (after ops V (main_v62 : DevRef τ sig)) (after ops V (main_v65 : DevRef τ sig)))

set_option maxHeartbeats 400000 in
/-- The fold at the result buffer is `RefTerm.refOut` of the fold's two arguments: the stages chained, after which
    the two sides are the same term once the reference term's stage definitions are opened. -/
theorem out_eq (V : Valuation τ sig (Elt F)) :
    after ops V (main_v66 : DevRef τ sig)
      = RefTerm.refOut (V (main_arg0 : DevRef τ sig)) (V (main_arg1 : DevRef τ sig)) := by
  rw [tail_v66, tail_v65, tail_v64, tail_v14, tail_v12, tail_v11, tail_v13, tail_v5, tail_v4,
    stage_v62, stage_v61, stage_v60, stage_v56, stage_v40, stage_v24, stage_v29]
  rfl
set_option maxRecDepth 16384 in
set_option maxHeartbeats 1000000 in
/-- No operation writes the first argument's buffer. -/
theorem arg0_eq (V : Valuation τ sig (Elt F)) :
    after ops V (main_arg0 : DevRef τ sig) = V (main_arg0 : DevRef τ sig) := by
  after_results_simp

set_option maxRecDepth 16384 in
set_option maxHeartbeats 1000000 in
/-- No operation writes the second argument's buffer. -/
theorem arg1_eq (V : Valuation τ sig (Elt F)) :
    after ops V (main_arg1 : DevRef τ sig) = V (main_arg1 : DevRef τ sig) := by
  after_results_simp

/-- On every device, for any float values, from any memory with zero counters: every weakly fair execution of
    @main terminates with the result buffer at `RefTerm.refOut` of the two arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v66) = Cert.ReferenceIdeal.RefTerm.refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v66).trans (out_eq _),
      (h c main_arg0).trans (arg0_eq _),
      (h c main_arg1).trans (arg1_eq _)⟩)
    (run_seq scopedRefs_eq scopedSems_eq defs main (fun _ => ops) main_eq (fun _ => ops_sub) m ρ)

end Cert.ReferenceIdeal.RefRun

end
-- ==== Proof.RefReadGather.lean ====
/-
  The two gathers of the reference read at an index.  Each result element of a gather is the operand at an index
  computed, axis by axis, from the result index and the start indices: on a batching axis the result's own batch
  coordinate, on a collapsed axis the start index's component (read signed, clamped so that the one-element slice
  fits), on the remaining axis the result's offset coordinate.  Here both are worked out in closed form for the two
  records of the program.
-/
import proofs.«145129_j67757404062167_2_alg».proof.Proof.RefTerm
import Idealize.ShloMosaic.Lib.ValueIdx

noncomputable section

namespace Cert.ReferenceIdeal.RefRead

open Idealize.ShloMosaic Idealize.ShloMosaic.ValueIdx Cert.ReferenceIdeal Cert.ReferenceIdeal.Facts₀

variable {α : Type}

/-- An axis of a rank-4 shape is one of the four. -/
theorem fin4_rec {motive : Fin 4 → Prop} (h0 : motive 0) (h1 : motive 1) (h2 : motive 2) (h3 : motive 3) (a : Fin 4) :
    motive a := by
  match a with
  | ⟨0, _⟩ => exact h0
  | ⟨1, _⟩ => exact h1
  | ⟨2, _⟩ => exact h2
  | ⟨3, _⟩ => exact h3

/-- An axis of a rank-5 shape is one of the five. -/
theorem fin5_rec {motive : Fin 5 → Prop} (h0 : motive 0) (h1 : motive 1) (h2 : motive 2) (h3 : motive 3) (h4 : motive 4)
    (a : Fin 5) : motive a := by
  match a with
  | ⟨0, _⟩ => exact h0
  | ⟨1, _⟩ => exact h1
  | ⟨2, _⟩ => exact h2
  | ⟨3, _⟩ => exact h3
  | ⟨4, _⟩ => exact h4

/-- The first gather at (b, 0, i, j, k): image b at the row and column the start pair (b, i, j, k, ·) names, each
    read signed and clamped into [0, 511]. -/
theorem gather1_apply (x : S8x1x512x512.Idx → α) (idx : IVec S8x1024x1024x9x2 32)
    (b : Fin 8) (i j : Fin 1024) (k : Fin 9) :
    Host.gather gather_S8x1x512x512_S8x1024x1024x9x2_S8x1x1024x1024x9_1_23_0_0_23_4_1111 x idx (ix5 b (0 : Fin 1) i j k)
      = x (ix4 b (0 : Fin 1)
            (⟨min (idx (ix5 b i j k (0 : Fin 2))).toInt.toNat 511, by omega⟩ : Fin 512)
            (⟨min (idx (ix5 b i j k (1 : Fin 2))).toInt.toNat 511, by omega⟩ : Fin 512)) := by
  unfold Host.gather
  congr 1
  funext a
  refine Fin.ext ?_
  show GatherDims.start _ _ idx a + GatherDims.batchCoord _ _ a + GatherDims.offCoord _ _ a = _
  induction a using fin4_rec with
  | h0 =>
    rw [GatherDims.start_batching _ _ _ _ (by decide), GatherDims.offCoord_eq_zero _ _ _ (by decide)]
    unfold GatherDims.batchCoord
    rw [dif_pos (by decide), Nat.zero_add, Nat.add_zero]
    rfl
  | h1 =>
    rw [GatherDims.batchCoord_eq_zero _ _ _ (by decide)]
    unfold GatherDims.start GatherDims.offCoord
    rw [dif_neg (by decide), dif_pos (by decide)]
    simp only [Nat.zero_add]
    rfl
  | h2 =>
    rw [GatherDims.batchCoord_eq_zero _ _ _ (by decide), GatherDims.offCoord_eq_zero _ _ _ (by decide)]
    unfold GatherDims.start
    rw [dif_pos (by decide)]
    have hsi : GatherDims.siIdx gather_S8x1x512x512_S8x1024x1024x9x2_S8x1x1024x1024x9_1_23_0_0_23_4_1111
        (ix5 b (0 : Fin 1) i j k) ⟨0, by decide⟩ = ix5 b i j k (0 : Fin 2) := by
      funext c; refine Fin.ext ?_
      induction c using fin5_rec <;> rfl
    exact congrArg (fun q => min (idx q).toInt.toNat 511) hsi
  | h3 =>
    rw [GatherDims.batchCoord_eq_zero _ _ _ (by decide), GatherDims.offCoord_eq_zero _ _ _ (by decide)]
    unfold GatherDims.start
    rw [dif_pos (by decide)]
    have hsi : GatherDims.siIdx gather_S8x1x512x512_S8x1024x1024x9x2_S8x1x1024x1024x9_1_23_0_0_23_4_1111
        (ix5 b (0 : Fin 1) i j k) ⟨1, by decide⟩ = ix5 b i j k (1 : Fin 2) := by
      funext c; refine Fin.ext ?_
      induction c using fin5_rec <;> rfl
    exact congrArg (fun q => min (idx q).toInt.toNat 511) hsi

/-- The second gather at (b, c, i, j, e): the nine values of (b, c, i, j) at the position the start (b, i, j, e, 0)
    names, read signed and clamped into [0, 8]. -/
theorem gather2_apply (x : S8x1x1024x1024x9.Idx → α) (idx : IVec S8x1024x1024x1x1 32)
    (b : Fin 8) (c : Fin 1) (i j : Fin 1024) (e : Fin 1) :
    Host.gather gather_S8x1x1024x1024x9_S8x1024x1024x1x1_S8x1x1024x1024x1_1_4_023_012_4_4_11111 x idx (ix5 b c i j e)
      = x (ix5 b c i j (⟨min (idx (ix5 b i j e (0 : Fin 1))).toInt.toNat 8, by omega⟩ : Fin 9)) := by
  unfold Host.gather
  congr 1
  funext a
  refine Fin.ext ?_
  show GatherDims.start _ _ idx a + GatherDims.batchCoord _ _ a + GatherDims.offCoord _ _ a = _
  induction a using fin5_rec with
  | h0 =>
    rw [GatherDims.start_batching _ _ _ _ (by decide), GatherDims.offCoord_eq_zero _ _ _ (by decide)]
    unfold GatherDims.batchCoord
    rw [dif_pos (by decide), Nat.zero_add, Nat.add_zero]
    rfl
  | h1 =>
    rw [GatherDims.batchCoord_eq_zero _ _ _ (by decide)]
    unfold GatherDims.start GatherDims.offCoord
    rw [dif_neg (by decide), dif_pos (by decide)]
    simp only [Nat.zero_add]
    rfl
  | h2 =>
    rw [GatherDims.start_batching _ _ _ _ (by decide), GatherDims.offCoord_eq_zero _ _ _ (by decide)]
    unfold GatherDims.batchCoord
    rw [dif_pos (by decide), Nat.zero_add, Nat.add_zero]
    rfl
  | h3 =>
    rw [GatherDims.start_batching _ _ _ _ (by decide), GatherDims.offCoord_eq_zero _ _ _ (by decide)]
    unfold GatherDims.batchCoord
    rw [dif_pos (by decide), Nat.zero_add, Nat.add_zero]
    rfl
  | h4 =>
    rw [GatherDims.batchCoord_eq_zero _ _ _ (by decide), GatherDims.offCoord_eq_zero _ _ _ (by decide)]
    unfold GatherDims.start
    rw [dif_pos (by decide)]
    have hsi : GatherDims.siIdx gather_S8x1x1024x1024x9_S8x1024x1024x1x1_S8x1x1024x1024x1_1_4_023_012_4_4_11111
        (ix5 b c i j e) ⟨0, by decide⟩ = ix5 b i j e (0 : Fin 1) := by
      funext q; refine Fin.ext ?_
      induction q using fin5_rec <;> rfl
    exact congrArg (fun q => min (idx q).toInt.toNat 8) hsi

end Cert.ReferenceIdeal.RefRead

end
-- ==== Proof.RefReadPositions.lean ====
/-
  The source positions a reduction over ONE axis folds over, in the order it folds them.  A reduction's fold runs, in
  row-major order, over the source indices that drop to the result index; over a single reduced axis these are the
  result index with each coordinate of that axis inserted, and when row-major position grows with that coordinate
  (as it does along any axis) the fold meets them by increasing coordinate.
-/
import proofs.«145129_j67757404062167_2_alg».proof.Proof.RefReadGather
import Idealize.ShloMosaic.PureOps.Reduce

noncomputable section

namespace Cert.ReferenceIdeal.RefRead

open Idealize.ShloMosaic Idealize.ShloMosaic.ValueIdx Cert.ReferenceIdeal Cert.ReferenceIdeal.Facts₀

section Single
variable {s t : Shape} {a : Fin s.rank}

/-- The row-major positions whose index drops to j, in order: j with k inserted on the reduced axis, k increasing. -/
theorem filter_drop_eq_map_lift (h' : s.ReducesTo [a] t) (h : s.Reduces [a] t) (j : t.Idx)
    (hmono : ∀ k k' : Fin (s.size a), k < k' → s.rowMajor (h.lift j k) < s.rowMajor (h.lift j k')) :
    ((List.finRange s.numel).filter fun n => h'.drop (s.rowMajor.symm n) = j)
      = (List.finRange (s.size a)).map fun k => s.rowMajor (h.lift j k) := by
  refine List.Pairwise.eq_of_mem_iff (r := (· < ·)) ((List.pairwise_lt_finRange _).filter _) ?_ ?_
  · rw [List.pairwise_map]
    exact (List.pairwise_lt_finRange _).imp fun {k k'} hk => hmono k k' hk
  · intro n
    simp only [List.mem_filter, List.mem_finRange, true_and, decide_eq_true_eq, List.mem_map]
    rw [Shape.ReducesTo.drop_eq_drop h' h]
    constructor
    · intro hn
      refine ⟨s.rowMajor.symm n a, ?_⟩
      rw [← hn, h.lift_drop, Equiv.apply_symm_apply]
    · rintro ⟨k, rfl⟩
      rw [Equiv.symm_apply_apply, h.drop_lift]

/-- A two-operand reduction over one axis: the left fold of the body over that axis's coordinates, in order. -/
theorem reduce2_single {α β : Type} {u : Shape} (f : α × β → α × β → α × β) (x : s.Idx → α) (y : s.Idx → β)
    (ix : u.Idx → α) (iy : u.Idx → β) (h' : s.ReducesTo [a] t) (h : s.Reduces [a] t) (hu : 0 < u.numel) (j : t.Idx)
    (hmono : ∀ k k' : Fin (s.size a), k < k' → s.rowMajor (h.lift j k) < s.rowMajor (h.lift j k')) :
    Host.reduce2 f x y ix iy h' hu j
      = (List.finRange (s.size a)).foldl (fun r k => f r (x (h.lift j k), y (h.lift j k)))
          (ix (Shape.Idx.first hu), iy (Shape.Idx.first hu)) := by
  unfold Host.reduce2
  rw [filter_drop_eq_map_lift h' h j hmono, List.foldl_map]
  simp only [Equiv.symm_apply_apply]

/-- A one-operand reduction over one axis: the left fold of the body over that axis's coordinates, in order. -/
theorem reduce_single {α : Type} {u : Shape} (f : α → α → α) (x : s.Idx → α) (init : u.Idx → α)
    (h' : s.ReducesTo [a] t) (h : s.Reduces [a] t) (hu : 0 < u.numel) (j : t.Idx)
    (hmono : ∀ k k' : Fin (s.size a), k < k' → s.rowMajor (h.lift j k) < s.rowMajor (h.lift j k')) :
    Host.reduce f x init h' hu j
      = (List.finRange (s.size a)).foldl (fun r k => f r (x (h.lift j k))) (init (Shape.Idx.first hu)) := by
  unfold Host.reduce
  rw [filter_drop_eq_map_lift h' h j hmono, List.foldl_map]
  simp only [Equiv.symm_apply_apply]

end Single

/-- The nine-candidate shape reduces over its last axis. -/
theorem reduces9 : S8x1x1024x1024x9.Reduces [4] S8x1x1024x1024 := by decide

/-- Inserting k on the last axis of (b, c, i, j). -/
theorem lift9 (b : Fin 8) (c : Fin 1) (i j : Fin 1024) (k : Fin 9) :
    reduces9.lift (ix4 b c i j) k = ix5 b c i j k := by
  funext ax; refine Fin.ext ?_
  induction ax using fin5_rec <;> rfl

/-- Row-major position grows with the last coordinate. -/
theorem mono9 (b : Fin 8) (c : Fin 1) (i j : Fin 1024) (k k' : Fin 9) (hk : k < k') :
    S8x1x1024x1024x9.rowMajor (reduces9.lift (ix4 b c i j) k) < S8x1x1024x1024x9.rowMajor (reduces9.lift (ix4 b c i j) k') := by
  rw [lift9, lift9]
  show (S8x1x1024x1024x9.rowMajor _).val < (S8x1x1024x1024x9.rowMajor _).val
  rw [Shape.rowMajor_val_five, Shape.rowMajor_val_five]
  exact Nat.add_lt_add_left hk _

/-- The one-candidate shape of the in-range test reduces over its last axis. -/
theorem reduces1 : S8x1024x1024x1x1.Reduces [4] S8x1024x1024x1 := by decide

/-- Inserting the one coordinate on the last axis of (b, i, j, 0). -/
theorem lift1 (b : Fin 8) (i j : Fin 1024) (c k : Fin 1) :
    reduces1.lift (ix4 b i j c) k = ix5 b i j c k := by
  funext ax; refine Fin.ext ?_
  induction ax using fin5_rec <;> rfl

/-- A two-operand reduction of a nine-candidate array over the candidates, at (b, 0, i, j): the left fold over the
    nine candidates in order. -/
theorem reduce2_nine {α β : Type} (f : α × β → α × β → α × β) (x : S8x1x1024x1024x9.Idx → α) (y : S8x1x1024x1024x9.Idx → β)
    (ix : S_.Idx → α) (iy : S_.Idx → β) (b : Fin 8) (i j : Fin 1024) :
    Host.reduce2 f x y ix iy reducesTo_S8x1x1024x1024x9_S8x1x1024x1024_d4 h_S_ (ix4 b (0 : Fin 1) i j)
      = (List.finRange 9).foldl (fun r k => f r (x (ix5 b (0 : Fin 1) i j k), y (ix5 b (0 : Fin 1) i j k)))
          (ix (Shape.Idx.first h_S_), iy (Shape.Idx.first h_S_)) := by
  rw [reduce2_single f x y ix iy _ reduces9 h_S_ _ (mono9 b 0 i j)]
  show (List.finRange 9).foldl (fun r (k : Fin 9) => f r (x (reduces9.lift (ix4 b (0 : Fin 1) i j) k), y (reduces9.lift (ix4 b (0 : Fin 1) i j) k))) _ = _
  simp only [lift9]

/-- A one-operand reduction of a nine-candidate array over the candidates, at (b, 0, i, j). -/
theorem reduce_nine {α : Type} (f : α → α → α) (x : S8x1x1024x1024x9.Idx → α) (init : S_.Idx → α) (b : Fin 8) (i j : Fin 1024) :
    Host.reduce f x init reducesTo_S8x1x1024x1024x9_S8x1x1024x1024_d4 h_S_ (ix4 b (0 : Fin 1) i j)
      = (List.finRange 9).foldl (fun r k => f r (x (ix5 b (0 : Fin 1) i j k))) (init (Shape.Idx.first h_S_)) := by
  rw [reduce_single f x init _ reduces9 h_S_ _ (mono9 b 0 i j)]
  show (List.finRange 9).foldl (fun r (k : Fin 9) => f r (x (reduces9.lift (ix4 b (0 : Fin 1) i j) k))) _ = _
  simp only [lift9]

/-- A one-operand reduction over a last axis of one element, at (b, i, j, 0): the body once. -/
theorem reduce_one {α : Type} (f : α → α → α) (x : S8x1024x1024x1x1.Idx → α) (init : S_.Idx → α) (b : Fin 8) (i j : Fin 1024) :
    Host.reduce f x init reducesTo_S8x1024x1024x1x1_S8x1024x1024x1_d4 h_S_ (ix4 b i j (0 : Fin 1))
      = f (init (Shape.Idx.first h_S_)) (x (ix5 b i j (0 : Fin 1) (0 : Fin 1))) := by
  rw [reduce_single f x init _ reduces1 h_S_ _ (fun k k' hk => absurd hk (by
    have h1 : k.val < 1 := k.isLt
    have h2 : k'.val < 1 := k'.isLt
    show ¬ k.val < k'.val
    omega))]
  show (List.finRange 1).foldl (fun r (k : Fin 1) => f r (x (reduces1.lift (ix4 b i j (0 : Fin 1)) k))) _ = _
  simp only [lift1]
  rfl

end Cert.ReferenceIdeal.RefRead

end
-- ==== Proof.RefReadStages.lean ====
/-
  Every stage of the reference's term read at one index.  The layout operations (slice, reshape, broadcast along
  named axes, concatenation) each read one element of their operand; the pointwise ones read through; the two
  reductions are left folds over the nine candidates in order.
-/
import proofs.«145129_j67757404062167_2_alg».proof.Proof.RefReadPositions
import Idealize.ShloMosaic.Lib.Pipeline.Value
import Idealize.ShloMosaic.Lib.IdealHost
import proofs.«145129_j67757404062167_2_alg».proof.Proof.Spec

noncomputable section

namespace Cert.ReferenceIdeal.RefRead

open Idealize.ShloMosaic Idealize.ShloMosaic.ValueIdx Cert.ReferenceIdeal Cert.ReferenceIdeal.Facts₀
open Cert.ReferenceIdeal.RefTerm

/-- An axis of a rank-3 shape is one of the three. -/
theorem fin3_rec {motive : Fin 3 → Prop} (h0 : motive 0) (h1 : motive 1) (h2 : motive 2) (a : Fin 3) : motive a := by
  match a with
  | ⟨0, _⟩ => exact h0
  | ⟨1, _⟩ => exact h1
  | ⟨2, _⟩ => exact h2

/-! ## The grid's two lanes and the pixel numbers -/

theorem lane0_apply (g : FVec Ideal S8x1024x1024x2 .f32) (b : Fin 8) (i j : Fin 1024) :
    lane0 g (ix3 b i j) = g (ix4 b i j (0 : Fin 2)) := by
  unfold lane0
  refine (shapeCast_apply _ _ (ix3 b i j) (ix4 b i j (0 : Fin 1)) ?_).trans ?_
  · rw [Shape.rowMajor_val_four, Shape.rowMajor_val_three]
    show ((b.val * 1024 + i.val) * 1024 + j.val) * 1 + 0 = (b.val * 1024 + i.val) * 1024 + j.val
    omega
  · refine extractStridedSlice_apply _ _ _ _ (ix4 b i j (0 : Fin 2)) fun a => ?_
    induction a using fin4_rec <;> exact (Nat.zero_add _).symm

theorem lane1_apply (g : FVec Ideal S8x1024x1024x2 .f32) (b : Fin 8) (i j : Fin 1024) :
    lane1 g (ix3 b i j) = g (ix4 b i j (1 : Fin 2)) := by
  unfold lane1
  refine (shapeCast_apply _ _ (ix3 b i j) (ix4 b i j (0 : Fin 1)) ?_).trans ?_
  · rw [Shape.rowMajor_val_four, Shape.rowMajor_val_three]
    show ((b.val * 1024 + i.val) * 1024 + j.val) * 1 + 0 = (b.val * 1024 + i.val) * 1024 + j.val
    omega
  · refine extractStridedSlice_apply _ _ _ _ (ix4 b i j (1 : Fin 2)) fun a => ?_
    induction a using fin4_rec with
    | h0 => exact (Nat.zero_add _).symm
    | h1 => exact (Nat.zero_add _).symm
    | h2 => exact (Nat.zero_add _).symm
    | h3 => rfl

/-- The pixel number at an index is the specification's pixel number of the coordinate there. -/
theorem pix_apply (x : FVec Ideal S8x1024x1024 .f32) (p : S8x1024x1024.Idx) :
    pix x p = Cert.Spec.coordOf (x p) := rfl

/-! ## The nine candidates' numbers -/

theorem candNum_apply (p : IVec S8x1024x1024 32) (tbl : IVec S9 32) (b : Fin 8) (i j : Fin 1024) (k : Fin 9) :
    candNum p tbl (ix4 b i j k) = IntOp.addi (p (ix3 b i j)) (tbl (ix1 k)) := by
  unfold candNum
  show IntOp.addi _ _ = _
  congr 1
  · refine (broadcastInDim_apply _ _ _ (ix4 b i j k) (ix4 b i j (0 : Fin 1)) fun a => ?_).trans ?_
    · induction a using fin4_rec <;> rfl
    · refine broadcastInDim_apply _ _ _ _ (ix3 b i j) fun a => ?_
      induction a using fin3_rec <;> rfl
  · refine (broadcastInDim_apply _ _ _ (ix4 b i j k) (ix4 (0 : Fin 1) (0 : Fin 1) (0 : Fin 1) k) fun a => ?_).trans ?_
    · induction a using fin4_rec <;> rfl
    · refine broadcastInDim_apply _ _ _ _ (ix1 k) fun a => ?_
      obtain rfl : a = 0 := Subsingleton.elim _ _
      rfl

theorem rowMajor9 (k : Fin 9) : S9.rowMajor (ix1 k) = k := Fin.ext (Shape.rowMajor_val_one _)

theorem dxs_apply (k : Fin 9) : dxs (ix1 k) = lit1 k := by unfold dxs; rw [rowMajor9]
theorem dys_apply (k : Fin 9) : dys (ix1 k) = lit0 k := by unfold dys; rw [rowMajor9]

/-! ## The pointwise stages -/

theorem inbAll_apply (cx cy : IVec S8x1024x1024x9 32) (q : S8x1024x1024x9.Idx) :
    inbAll cx cy q = IntOp.andi (IntOp.andi (IntOp.andi (IntOp.cmpi .sge (cx q) 0#32) (IntOp.cmpi .slt (cx q) 512#32))
      (IntOp.cmpi .sge (cy q) 0#32)) (IntOp.cmpi .slt (cy q) 512#32) := rfl

theorem clip_apply (c : IVec S8x1024x1024x9 32) (q : S8x1024x1024x9.Idx) : clip c q = Cert.Spec.clampW (c q) := rfl

theorem wrap_apply (c : IVec S8x1024x1024x9 32) (q : S8x1024x1024x9.Idx) :
    wrap c q = Scalar.select (IntOp.cmpi .slt (c q) 0#32) (IntOp.addi (c q) 512#32) (c q) := rfl

theorem starts_apply0 (cy cx : IVec S8x1024x1024x9 32) (b : Fin 8) (i j : Fin 1024) (k : Fin 9) :
    starts cy cx (ix5 b i j k (0 : Fin 2)) = wrap (clip cy) (ix4 b i j k) := by
  unfold starts
  refine (concatenate_pair_apply_left (s₁ := S8x1024x1024x9x1) (s₂ := S8x1024x1024x9x1) _ _ _ _ (ix5 b i j k (0 : Fin 2)) rfl (ix5 b i j k (0 : Fin 1)) fun a => ?_).trans ?_
  · induction a using fin5_rec <;> rfl
  · refine broadcastInDim_apply _ _ _ _ (ix4 b i j k) fun a => ?_
    induction a using fin4_rec <;> rfl

theorem starts_apply1 (cy cx : IVec S8x1024x1024x9 32) (b : Fin 8) (i j : Fin 1024) (k : Fin 9) :
    starts cy cx (ix5 b i j k (1 : Fin 2)) = wrap (clip cx) (ix4 b i j k) := by
  unfold starts
  refine (concatenate_pair_apply_right (s₁ := S8x1024x1024x9x1) (s₂ := S8x1024x1024x9x1) _ _ _ _ (ix5 b i j k (1 : Fin 2)) rfl rfl (ix5 b i j k (0 : Fin 1)) (fun a => ?_) rfl).trans ?_
  · induction a using fin5_rec with
    | h0 => intro _; rfl
    | h1 => intro _; rfl
    | h2 => intro _; rfl
    | h3 => intro _; rfl
    | h4 => intro h; exact absurd rfl h
  · refine broadcastInDim_apply _ _ _ _ (ix4 b i j k) fun a => ?_
    induction a using fin4_rec <;> rfl

theorem counts_apply (v : FVec Ideal S8x1x1024x1024x9 .f32) (inb : IVec S8x1024x1024x9 1)
    (b : Fin 8) (i j : Fin 1024) (k : Fin 9) :
    counts v inb (ix5 b (0 : Fin 1) i j k)
      = IntOp.andi (inb (ix4 b i j k)) (Ideal.cmp .une (v (ix5 b (0 : Fin 1) i j k)) (Ideal.ofBits .f32 0x00000000#32)) := by
  unfold counts
  show IntOp.andi _ _ = _
  congr 1
  refine broadcastInDim_apply _ _ _ _ (ix4 b i j k) fun a => ?_
  induction a using fin4_rec <;> rfl

/-! ## The two reductions over the nine candidates -/

/-- The position array as a function of the output pixel, the reduction not opened (stated of the whole function: read
    at a pixel it is the second component of the reduction's pair there). -/
theorem first_fun (ok : IVec S8x1x1024x1024x9 1) :
    first ok = fun j => (Host.reduce2 reducer_argmax_i1_i32 ok (iotaInDim S8x1x1024x1024x9 32 4) (constantI S_ 1 0#1)
      (constantI S_ 32 0#32) reducesTo_S8x1x1024x1024x9_S8x1x1024x1024_d4 h_S_ j).2 := Eq.refl _

theorem first_unfold (ok : IVec S8x1x1024x1024x9 1) (idx : S8x1x1024x1024.Idx) :
    first ok idx = (Host.reduce2 reducer_argmax_i1_i32 ok (iotaInDim S8x1x1024x1024x9 32 4) (constantI S_ 1 0#1)
      (constantI S_ 32 0#32) reducesTo_S8x1x1024x1024x9_S8x1x1024x1024_d4 h_S_ idx).2 :=
  congrFun (first_fun ok) idx

/-- The second component of the two-operand reduction at (b, 0, i, j), as the fold over the nine candidates. -/
theorem first_raw (ok : IVec S8x1x1024x1024x9 1) (b : Fin 8) (i j : Fin 1024) :
    (Host.reduce2 reducer_argmax_i1_i32 ok (iotaInDim S8x1x1024x1024x9 32 4) (constantI S_ 1 0#1) (constantI S_ 32 0#32)
      reducesTo_S8x1x1024x1024x9_S8x1x1024x1024_d4 h_S_ (ix4 b (0 : Fin 1) i j)).2
      = ((List.finRange 9).foldl (fun r k => reducer_argmax_i1_i32 r
            (ok (ix5 b (0 : Fin 1) i j k), iotaInDim S8x1x1024x1024x9 32 4 (ix5 b (0 : Fin 1) i j k)))
          (constantI S_ 1 0#1 (Shape.Idx.first h_S_), constantI S_ 32 0#32 (Shape.Idx.first h_S_))).2 :=
  congrArg Prod.snd (reduce2_nine reducer_argmax_i1_i32 ok (iotaInDim S8x1x1024x1024x9 32 4) (constantI S_ 1 0#1)
    (constantI S_ 32 0#32) b i j)

/-- The position of the first candidate that counts: the arg-max body folded over the nine (bit, position) pairs in
    order, the bits given as a function c of the candidate. -/
theorem first_apply (ok : IVec S8x1x1024x1024x9 1) (b : Fin 8) (i j : Fin 1024) (c : Fin 9 → BitVec 1)
    (hc : ∀ k, ok (ix5 b (0 : Fin 1) i j k) = c k) :
    first ok (ix4 b (0 : Fin 1) i j)
      = ((List.finRange 9).foldl (fun r k => reducer_argmax_i1_i32 r (c k, BitVec.ofNat 32 k.val)) (0#1, 0#32)).2 := by
  refine ((first_unfold ok _).trans (first_raw ok b i j)).trans ?_
  have hf : (fun (r : BitVec 1 × BitVec 32) (k : Fin 9) =>
        reducer_argmax_i1_i32 r (ok (ix5 b (0 : Fin 1) i j k), iotaInDim S8x1x1024x1024x9 32 4 (ix5 b (0 : Fin 1) i j k)))
      = fun r k => reducer_argmax_i1_i32 r (c k, BitVec.ofNat 32 k.val) := by
    funext r k; rw [hc k]; rfl
  rw [hf]
  exact congrArg (fun init => ((List.finRange 9).foldl (fun r k => reducer_argmax_i1_i32 r (c k, BitVec.ofNat 32 k.val)) init).2)
    (show ((constantI S_ 1 0#1 (Shape.Idx.first h_S_), constantI S_ 32 0#32 (Shape.Idx.first h_S_)) : BitVec 1 × BitVec 32) = (0#1, 0#32) from rfl)

/-- Whether some candidate counts: "or" folded over the nine bits in order. -/
theorem anyOk_apply (ok : IVec S8x1x1024x1024x9 1) (b : Fin 8) (i j : Fin 1024) (c : Fin 9 → BitVec 1)
    (hc : ∀ k, ok (ix5 b (0 : Fin 1) i j k) = c k) :
    anyOk ok (ix4 b (0 : Fin 1) i j) = (List.finRange 9).foldl (fun r k => IntOp.ori r (c k)) 0#1 := by
  show Host.reduce IntOp.ori ok (constantI S_ 1 0#1) reducesTo_S8x1x1024x1024x9_S8x1x1024x1024_d4 h_S_ (ix4 b (0 : Fin 1) i j) = _
  rw [reduce_nine]
  have hf : (fun (r : BitVec 1) (k : Fin 9) => IntOp.ori r (ok (ix5 b (0 : Fin 1) i j k))) = fun r k => IntOp.ori r (c k) := by
    funext r k; rw [hc k]
  rw [hf]
  exact congrArg (fun init => (List.finRange 9).foldl (fun r k => IntOp.ori r (c k)) init)
    (show constantI S_ 1 0#1 (Shape.Idx.first h_S_) = 0#1 from rfl)

/-! ## The value taken at the chosen position -/

theorem takeIdx_apply (p : IVec S8x1x1024x1024 32) (b : Fin 8) (i j : Fin 1024) :
    RefTerm.takeIdx p (ix5 b i j (0 : Fin 1) (0 : Fin 1))
      = Scalar.select (IntOp.cmpi .slt (p (ix4 b (0 : Fin 1) i j)) 0#32) (IntOp.addi (p (ix4 b (0 : Fin 1) i j)) 9#32)
          (p (ix4 b (0 : Fin 1) i j)) := by
  unfold RefTerm.takeIdx
  refine (shapeCast_apply _ _ (ix5 b i j (0 : Fin 1) (0 : Fin 1)) (ix5 b (0 : Fin 1) i j (0 : Fin 1)) ?_).trans ?_
  · rw [Shape.rowMajor_val_five, Shape.rowMajor_val_five]
    show (((b.val * 1 + 0) * 1024 + i.val) * 1024 + j.val) * 1 + 0 = (((b.val * 1024 + i.val) * 1024 + j.val) * 1 + 0) * 1 + 0
    omega
  · have e : broadcastInDim S8x1x1024x1024x1 ![0, 1, 2, 3] bcast_S8x1x1024x1024_S8x1x1024x1024x1_0_1_2_3 p
        (ix5 b (0 : Fin 1) i j (0 : Fin 1)) = p (ix4 b (0 : Fin 1) i j) := by
      refine broadcastInDim_apply _ _ _ _ (ix4 b (0 : Fin 1) i j) fun a => ?_
      induction a using fin4_rec <;> rfl
    show Scalar.select (IntOp.cmpi .slt _ 0#32) (IntOp.addi _ 9#32) _ = _
    rw [e]

theorem takeOk_apply (t : IVec S8x1024x1024x1x1 32) (b : Fin 8) (i j : Fin 1024) :
    takeOk t (ix5 b (0 : Fin 1) i j (0 : Fin 1))
      = IntOp.andi 1#1 (IntOp.andi (IntOp.cmpi .sge (t (ix5 b i j (0 : Fin 1) (0 : Fin 1))) 0#32)
          (IntOp.cmpi .sle (t (ix5 b i j (0 : Fin 1) (0 : Fin 1))) 8#32)) := by
  unfold takeOk
  refine (broadcastInDim_apply _ _ _ (ix5 b (0 : Fin 1) i j (0 : Fin 1)) (ix4 b i j (0 : Fin 1)) fun a => ?_).trans ?_
  · induction a using fin4_rec <;> rfl
  · rw [reduce_one]
    rfl

theorem taken_apply (v : FVec Ideal S8x1x1024x1024x9 .f32) (p : IVec S8x1x1024x1024 32) (b : Fin 8) (i j : Fin 1024) :
    taken v p (ix4 b (0 : Fin 1) i j)
      = Scalar.select (takeOk (RefTerm.takeIdx p) (ix5 b (0 : Fin 1) i j (0 : Fin 1)))
          (v (ix5 b (0 : Fin 1) i j
            (⟨min (RefTerm.takeIdx p (ix5 b i j (0 : Fin 1) (0 : Fin 1))).toInt.toNat 8, by omega⟩ : Fin 9)))
          (Ideal.ofBits .f32 0x7FC00000#32) := by
  unfold taken
  refine (shapeCast_apply _ _ (ix4 b (0 : Fin 1) i j) (ix5 b (0 : Fin 1) i j (0 : Fin 1)) ?_).trans ?_
  · rw [Shape.rowMajor_val_five, Shape.rowMajor_val_four]
    show (((b.val * 1 + 0) * 1024 + i.val) * 1024 + j.val) * 1 + 0 = ((b.val * 1 + 0) * 1024 + i.val) * 1024 + j.val
    omega
  · show Scalar.select _ (Host.gather _ v (RefTerm.takeIdx p) _) _ = _
    rw [gather2_apply]
    rfl

/-- The result at (b, 0, i, j): the taken value where some candidate counts, zero elsewhere. -/
theorem refOut_apply (img : FVec Ideal S8x1x512x512 .f32) (g : FVec Ideal S8x1024x1024x2 .f32) (b : Fin 8) (i j : Fin 1024) :
    refOut img g (ix4 b (0 : Fin 1) i j)
      = Scalar.select
          (anyOk (counts (vals img (candNum (pix (lane1 g)) dys) (candNum (pix (lane0 g)) dxs))
              (inbAll (candNum (pix (lane0 g)) dxs) (candNum (pix (lane1 g)) dys))) (ix4 b (0 : Fin 1) i j))
          (taken (vals img (candNum (pix (lane1 g)) dys) (candNum (pix (lane0 g)) dxs))
              (first (counts (vals img (candNum (pix (lane1 g)) dys) (candNum (pix (lane0 g)) dxs))
                (inbAll (candNum (pix (lane0 g)) dxs) (candNum (pix (lane1 g)) dys)))) (ix4 b (0 : Fin 1) i j))
          (Ideal.ofBits .f32 0x00000000#32) := rfl

end Cert.ReferenceIdeal.RefRead

end
-- ==== Proof.RefReadReduce.lean ====
/-
  The two reductions of the reference over the nine candidates, as pure statements.  The two-operand reduction's body
  keeps, of two (bit, position) pairs, the one with the greater bit and, of equal bits, the smaller position; folded
  from (0, 0) over candidates listed by increasing position it ends at (1, the first position whose bit is 1), or at
  (0, 0) when every bit is 0.  The one-operand reduction by "or" says whether some bit is 1.  Together they pick the
  first candidate that counts, which is what a left fold keeping the first value that counts computes.
-/
import proofs.«145129_j67757404062167_2_alg».proof.Proof.RefTerm
import Idealize.ShloMosaic.Lib.ValueIdx

noncomputable section

namespace Cert.ReferenceIdeal.RefRead

open Idealize.ShloMosaic Idealize.ShloMosaic.ValueIdx Cert.ReferenceIdeal

/-- A found pair (bit 1, position p) is kept against any pair at a later position. -/
theorem argmax_found (p q : BitVec 32) (c : BitVec 1) (h : p.slt q = true) :
    reducer_argmax_i1_i32 (1#1, p) (c, q) = (1#1, p) := by
  rcases BitVec.eq_zero_or_eq_one c with rfl | rfl <;>
    simp [reducer_argmax_i1_i32, IntOp.cmpi, IntOp.ori, IntOp.andi, Scalar.select, h]

/-- The initial pair (0, 0) is kept against a pair of bit 0 at a position that is zero or later. -/
theorem argmax_none_zero (q : BitVec 32) (h : (0#32).slt q = true ∨ q = 0#32) :
    reducer_argmax_i1_i32 (0#1, 0#32) (0#1, q) = (0#1, 0#32) := by
  rcases h with h | rfl
  · simp [reducer_argmax_i1_i32, IntOp.cmpi, IntOp.ori, IntOp.andi, Scalar.select, h]
  · simp [reducer_argmax_i1_i32, IntOp.cmpi, IntOp.ori, IntOp.andi, Scalar.select]

/-- The initial pair (0, 0) gives way to any pair of bit 1. -/
theorem argmax_none_one (q : BitVec 32) :
    reducer_argmax_i1_i32 (0#1, 0#32) (1#1, q) = (1#1, q) := by
  simp [reducer_argmax_i1_i32, IntOp.cmpi, IntOp.ori, IntOp.andi, Scalar.select]

section Fold
variable {ι α : Type} (c : ι → BitVec 1) (pos : ι → BitVec 32) (w : ι → α)

/-- Once found, the pair stays through candidates at later positions. -/
theorem foldl_argmax_found (p : BitVec 32) : ∀ L : List ι, (∀ k ∈ L, p.slt (pos k) = true) →
    L.foldl (fun r k => reducer_argmax_i1_i32 r (c k, pos k)) (1#1, p) = (1#1, p)
  | [], _ => rfl
  | k :: L, h => by
    rw [List.foldl_cons, argmax_found p (pos k) (c k) (h k List.mem_cons_self)]
    exact foldl_argmax_found p L fun k' hk' => h k' (List.mem_cons_of_mem _ hk')

/-- Once some bit was 1 the "or" stays 1. -/
theorem foldl_ori_found : ∀ L : List ι, L.foldl (fun r k => IntOp.ori r (c k)) 1#1 = 1#1
  | [] => rfl
  | k :: L => by
    rw [List.foldl_cons, show IntOp.ori 1#1 (c k) = 1#1 by
      rcases BitVec.eq_zero_or_eq_one (c k) with h | h <;> rw [h] <;> rfl]
    exact foldl_ori_found L

/-- Once a value was kept it stays. -/
theorem foldl_step_found (x : α) : ∀ L : List ι,
    L.foldl (fun s k => ((Scalar.select s.2 s.1 (Scalar.select (c k) (w k) s.1), IntOp.ori s.2 (c k)) : α × BitVec 1)) (x, 1#1)
      = (x, 1#1)
  | [] => rfl
  | k :: L => by
    rw [List.foldl_cons]
    show List.foldl _ (Scalar.select 1#1 x _, IntOp.ori 1#1 (c k)) L = _
    rw [select_one, show IntOp.ori 1#1 (c k) = 1#1 by
      rcases BitVec.eq_zero_or_eq_one (c k) with h | h <;> rw [h] <;> rfl]
    exact foldl_step_found x L

/-- THE FIRST CANDIDATE THAT COUNTS, TWO WAYS.  Over candidates listed by increasing position (positions zero or
    later), with V the value read at a position word and w the value a counting candidate carries: the value at the
    arg-max's position where the "or" is 1, and zero elsewhere, is what the fold keeping the first counting value ends
    with. -/
theorem first_fold (V : BitVec 32 → α) (zero : α) (hV : ∀ k, c k = 1#1 → V (pos k) = w k) :
    ∀ L : List ι, L.Pairwise (fun a b => (pos a).slt (pos b) = true) →
      (∀ k ∈ L, (0#32).slt (pos k) = true ∨ pos k = 0#32) →
      Scalar.select (L.foldl (fun r k => IntOp.ori r (c k)) 0#1)
          (V (L.foldl (fun r k => reducer_argmax_i1_i32 r (c k, pos k)) (0#1, 0#32)).2) zero
        = (L.foldl (fun s k => ((Scalar.select s.2 s.1 (Scalar.select (c k) (w k) s.1), IntOp.ori s.2 (c k)) : α × BitVec 1))
            (zero, 0#1)).1
  | [], _, _ => by simp [select_zero]
  | k :: L, hp, h0 => by
    obtain ⟨hk, hp'⟩ := List.pairwise_cons.1 hp
    rw [List.foldl_cons, List.foldl_cons, List.foldl_cons]
    rcases BitVec.eq_zero_or_eq_one (c k) with hc | hc
    · rw [hc, argmax_none_zero _ (h0 k List.mem_cons_self)]
      show Scalar.select (List.foldl _ (IntOp.ori 0#1 0#1) L) _ zero
        = (List.foldl _ (Scalar.select 0#1 zero (Scalar.select 0#1 (w k) zero), IntOp.ori 0#1 0#1) L).1
      rw [select_zero, select_zero, show IntOp.ori 0#1 0#1 = 0#1 from rfl]
      exact first_fold V zero hV L hp' fun k' hk' => h0 k' (List.mem_cons_of_mem _ hk')
    · rw [hc, argmax_none_one]
      show Scalar.select (List.foldl _ (IntOp.ori 0#1 1#1) L) _ zero
        = (List.foldl _ (Scalar.select 0#1 zero (Scalar.select 1#1 (w k) zero), IntOp.ori 0#1 1#1) L).1
      rw [select_zero, select_one, show IntOp.ori 0#1 1#1 = 1#1 from rfl, foldl_ori_found, foldl_step_found,
        foldl_argmax_found c pos (pos k) L hk, select_one]
      exact hV k hc

end Fold

end Cert.ReferenceIdeal.RefRead

end
-- ==== Proof.RefReadScalar.lean ====
/-
  Words.  A candidate number t (a signed 32-bit word) and the specification's view of it: when both in-range tests
  hold, 0 ≤ t < 512, so the clamp into [0, 511] and the wrap-around of a negative index leave t alone and the start
  index read signed is t read unsigned; a clamped number is always in [0, 511], so its start index is itself.  Hence a
  candidate whose row number is a row number reads the image where the specification's candidate does, and one whose
  row number is not counts in neither.
-/
import proofs.«145129_j67757404062167_2_alg».proof.Proof.Spec

noncomputable section

namespace Cert.ReferenceIdeal.RefRead

open Idealize.ShloMosaic Idealize.ShloMosaic.ValueIdx

theorem ofBool_decide_eq_one (p : Prop) [Decidable p] : BitVec.ofBool (decide p) = 1#1 ↔ p := by
  by_cases h : p <;> simp [h]

theorem cmpi_sge_eq_one (t s : BitVec 32) : IntOp.cmpi .sge t s = 1#1 ↔ s.toInt ≤ t.toInt := by
  simp only [IntOp.cmpi, BitVec.sle]; exact ofBool_decide_eq_one _
theorem cmpi_slt_eq_one (t s : BitVec 32) : IntOp.cmpi .slt t s = 1#1 ↔ t.toInt < s.toInt := by
  simp only [IntOp.cmpi, BitVec.slt]; exact ofBool_decide_eq_one _
theorem cmpi_sle_eq_one (t s : BitVec 32) : IntOp.cmpi .sle t s = 1#1 ↔ t.toInt ≤ s.toInt := by
  simp only [IntOp.cmpi, BitVec.sle]; exact ofBool_decide_eq_one _

/-- The wrap-around of a negative start index. -/
def wrapW (u : BitVec 32) : BitVec 32 := Scalar.select (IntOp.cmpi .slt u 0#32) (IntOp.addi u 512#32) u

theorem toInt_0 : (0#32).toInt = 0 := by decide
theorem toInt_511 : (511#32).toInt = 511 := by decide
theorem toInt_512 : (512#32).toInt = 512 := by decide

/-- A clamped number lies in [0, 511]. -/
theorem clampW_range (t : BitVec 32) : 0 ≤ (Cert.Spec.clampW t).toInt ∧ (Cert.Spec.clampW t).toInt ≤ 511 := by
  unfold Cert.Spec.clampW IntOp.minsi IntOp.maxsi
  have h511 := toInt_511
  have h0 := toInt_0
  simp only [BitVec.slt, decide_eq_true_eq]
  split_ifs <;> omega

/-- A number in [0, 511] is its own clamp. -/
theorem clampW_of_range (t : BitVec 32) (h0 : 0 ≤ t.toInt) (h1 : t.toInt < 512) : Cert.Spec.clampW t = t := by
  unfold Cert.Spec.clampW IntOp.minsi IntOp.maxsi
  have h511 := toInt_511
  have hz := toInt_0
  simp only [BitVec.slt, decide_eq_true_eq]
  split_ifs <;> first | rfl | omega

/-- A number that is not negative is not wrapped around. -/
theorem wrapW_of_nonneg (u : BitVec 32) (h : 0 ≤ u.toInt) : wrapW u = u := by
  unfold wrapW
  have hc : IntOp.cmpi .slt u 0#32 = 0#1 := by
    refine eq_zero_of_ne_one fun hh => ?_
    have := (cmpi_slt_eq_one u 0#32).1 hh
    rw [toInt_0] at this; omega
  rw [hc, select_zero]

/-- A word in [0, 512) read signed is the word read unsigned. -/
theorem toNat_of_range (t : BitVec 32) (h0 : 0 ≤ t.toInt) (h1 : t.toInt < 512) : t.toNat < 512 ∧ t.toInt.toNat = t.toNat := by
  rw [BitVec.toInt_eq_toNat_cond] at h0 h1 ⊢
  have := t.isLt
  split at h0 <;> omega

/-- A word below 512 read unsigned is in [0, 512) read signed. -/
theorem range_of_toNat (t : BitVec 32) (h : t.toNat < 512) : 0 ≤ t.toInt ∧ t.toInt < 512 := by
  rw [BitVec.toInt_eq_toNat_cond]
  split <;> omega

/-- The start index of a clamped number, read signed and clamped by the gather, is the clamped number. -/
theorem start_of_clamp (t : BitVec 32) :
    min (wrapW (Cert.Spec.clampW t)).toInt.toNat 511 = (Cert.Spec.clampW t).toNat % 512 := by
  obtain ⟨h0, h1⟩ := clampW_range t
  rw [wrapW_of_nonneg _ h0]
  obtain ⟨h2, h3⟩ := toNat_of_range _ h0 (by omega)
  rw [h3]; omega

/-- The start index of a row number that is a row number is the row number. -/
theorem start_of_row (t : BitVec 32) (h : t.toNat < 512) :
    min (wrapW (Cert.Spec.clampW t)).toInt.toNat 511 = t.toNat := by
  obtain ⟨h0, h1⟩ := range_of_toNat t h
  rw [clampW_of_range t h0 h1, wrapW_of_nonneg _ h0, (toNat_of_range t h0 h1).2]; omega

/-- Six one-bit words: the reference's and the specification's conjunctions of the in-range tests and the non-zero
    test agree once the non-zero tests agree where the row tests hold. -/
theorem andi_rearrange (A B C D E E' : BitVec 1) (h : IntOp.andi C D = 1#1 → E = E') :
    IntOp.andi (IntOp.andi (IntOp.andi (IntOp.andi A B) C) D) E
      = IntOp.andi (IntOp.andi (IntOp.andi C D) (IntOp.andi A B)) E' := by
  rcases BitVec.eq_zero_or_eq_one C with rfl | rfl <;> rcases BitVec.eq_zero_or_eq_one D with rfl | rfl
  · rcases BitVec.eq_zero_or_eq_one A with rfl | rfl <;> rcases BitVec.eq_zero_or_eq_one B with rfl | rfl <;>
      rcases BitVec.eq_zero_or_eq_one E with rfl | rfl <;> rcases BitVec.eq_zero_or_eq_one E' with rfl | rfl <;> rfl
  · rcases BitVec.eq_zero_or_eq_one A with rfl | rfl <;> rcases BitVec.eq_zero_or_eq_one B with rfl | rfl <;>
      rcases BitVec.eq_zero_or_eq_one E with rfl | rfl <;> rcases BitVec.eq_zero_or_eq_one E' with rfl | rfl <;> rfl
  · rcases BitVec.eq_zero_or_eq_one A with rfl | rfl <;> rcases BitVec.eq_zero_or_eq_one B with rfl | rfl <;>
      rcases BitVec.eq_zero_or_eq_one E with rfl | rfl <;> rcases BitVec.eq_zero_or_eq_one E' with rfl | rfl <;> rfl
  · obtain rfl := h rfl
    rcases BitVec.eq_zero_or_eq_one A with rfl | rfl <;> rcases BitVec.eq_zero_or_eq_one B with rfl | rfl <;>
      rcases BitVec.eq_zero_or_eq_one E with rfl | rfl <;> rfl

/-- Both parts of a one-bit conjunction that is 1 are 1. -/
theorem andi_eq_one {c d : BitVec 1} (h : IntOp.andi c d = 1#1) : c = 1#1 ∧ d = 1#1 := by
  rcases BitVec.eq_zero_or_eq_one c with rfl | rfl <;> rcases BitVec.eq_zero_or_eq_one d with rfl | rfl <;>
    first | exact ⟨rfl, rfl⟩ | exact absurd h (by decide)

/-- On extended reals "unordered or not equal" is "ordered and not equal". -/
theorem cmp_une_eq_one (x y : EReal) : Ideal.cmp .une x y = Ideal.cmp .one x y := rfl

/-- THE CANDIDATE, TWO WAYS.  With v the image read at the gather's start indices of the candidate numbers (ty, tx):
    the reference's "counts" bit is the specification's, and where it is 1 the value read is the specification's
    candidate value. -/
theorem cand_bridge (imgb : Fin 512 → Fin 512 → EReal) (ty tx : BitVec 32)
    (hr : min (wrapW (Cert.Spec.clampW ty)).toInt.toNat 511 < 512) (hc : min (wrapW (Cert.Spec.clampW tx)).toInt.toNat 511 < 512) :
    IntOp.andi (IntOp.andi (IntOp.andi (IntOp.andi (IntOp.cmpi .sge tx 0#32) (IntOp.cmpi .slt tx 512#32))
        (IntOp.cmpi .sge ty 0#32)) (IntOp.cmpi .slt ty 512#32))
        (Ideal.cmp .une (imgb ⟨_, hr⟩ ⟨_, hc⟩) (Ideal.ofBits .f32 0x00000000#32))
      = Cert.Spec.valid imgb ty tx
    ∧ (Cert.Spec.valid imgb ty tx = 1#1 → imgb ⟨_, hr⟩ ⟨_, hc⟩ = Cert.Spec.cand imgb ty tx) := by
  have key : IntOp.andi (IntOp.cmpi .sge ty 0#32) (IntOp.cmpi .slt ty 512#32) = 1#1 →
      imgb ⟨_, hr⟩ ⟨_, hc⟩ = Cert.Spec.cand imgb ty tx := by
    intro h
    obtain ⟨h0, h1⟩ := andi_eq_one h
    have h0' := (cmpi_sge_eq_one ty 0#32).1 h0
    have h1' := (cmpi_slt_eq_one ty 512#32).1 h1
    rw [toInt_0] at h0'; rw [toInt_512] at h1'
    have hlt := (toNat_of_range ty h0' h1').1
    have e1 : (⟨_, hr⟩ : Fin 512) = ⟨ty.toNat, hlt⟩ := Fin.ext (start_of_row ty hlt)
    have e2 : (⟨_, hc⟩ : Fin 512) = Cert.Spec.colFin tx := Fin.ext (start_of_clamp tx)
    unfold Cert.Spec.cand
    rw [dif_pos hlt, e1, e2]
  refine ⟨?_, fun hv => key (andi_eq_one (andi_eq_one hv).1).1⟩
  unfold Cert.Spec.valid Cert.Spec.inb
  exact andi_rearrange (IntOp.cmpi .sge tx 0#32) (IntOp.cmpi .slt tx 512#32) (IntOp.cmpi .sge ty 0#32)
    (IntOp.cmpi .slt ty 512#32) (Ideal.cmp .une (imgb ⟨_, hr⟩ ⟨_, hc⟩) (Ideal.ofBits .f32 0x00000000#32))
    (Ideal.cmp .one (Cert.Spec.cand imgb ty tx) (Ideal.ofBits .f32 0x00000000#32))
    (fun h => (congrArg (fun x => Ideal.cmp .une x (Ideal.ofBits .f32 0x00000000#32)) (key h)).trans (cmp_une_eq_one _ _))

end Cert.ReferenceIdeal.RefRead

end
-- ==== Proof.RefRead.lean ====
/-
  The reference's result is the specification.  At an output pixel (b, 0, i, j) the reference tests the nine
  candidates around the pixel numbers of the grid's pair, gathers the image at their clamped numbers, finds the first
  candidate that counts by an arg-max over (counts, position) pairs and takes the value gathered there, zero when no
  candidate counts; the specification folds over the same nine candidates in the same order keeping the first value
  that counts.  A candidate that counts has both numbers in [0, 512), where the clamp is the identity, so the value
  gathered is the specification's candidate value; one that does not count changes neither.
-/
import proofs.«145129_j67757404062167_2_alg».proof.Proof.RefReadStages
import proofs.«145129_j67757404062167_2_alg».proof.Proof.RefReadReduce
import proofs.«145129_j67757404062167_2_alg».proof.Proof.RefReadScalar

noncomputable section

namespace Cert.ReferenceIdeal.RefRead

open Idealize.ShloMosaic Idealize.ShloMosaic.ValueIdx Cert.ReferenceIdeal Cert.ReferenceIdeal.Facts₀
open Cert.ReferenceIdeal.RefTerm

section At
variable (img : FVec Ideal S8x1x512x512 .f32) (g : FVec Ideal S8x1024x1024x2 .f32) (b : Fin 8) (i j : Fin 1024)

/-- The column and row numbers of the nine candidates, as arrays. -/
abbrev CX : IVec S8x1024x1024x9 32 := candNum (pix (lane0 g)) dxs
abbrev CY : IVec S8x1024x1024x9 32 := candNum (pix (lane1 g)) dys
/-- The nine gathered values and which of them count. -/
abbrev VV : FVec Ideal S8x1x1024x1024x9 .f32 := vals img (CY g) (CX g)
abbrev OK : IVec S8x1x1024x1024x9 1 := counts (VV img g) (inbAll (CX g) (CY g))

/-- Candidate k's row and column numbers at the pixel, as words. -/
def tyW (k : Fin 9) : BitVec 32 := IntOp.addi (Cert.Spec.coordOf (g (ix4 b i j (1 : Fin 2)))) (lit0 k)
def txW (k : Fin 9) : BitVec 32 := IntOp.addi (Cert.Spec.coordOf (g (ix4 b i j (0 : Fin 2)))) (lit1 k)
/-- Image b as a function of row and column. -/
def imgb : Fin 512 → Fin 512 → EReal := fun h w => img (ix4 b (0 : Fin 1) h w)

theorem CX_apply (k : Fin 9) : CX g (ix4 b i j k) = txW g b i j k := by
  unfold txW
  show candNum (pix (lane0 g)) dxs (ix4 b i j k) = _
  rw [candNum_apply, pix_apply, lane0_apply, dxs_apply]

theorem CY_apply (k : Fin 9) : CY g (ix4 b i j k) = tyW g b i j k := by
  unfold tyW
  show candNum (pix (lane1 g)) dys (ix4 b i j k) = _
  rw [candNum_apply, pix_apply, lane1_apply, dys_apply]

theorem start0_apply (k : Fin 9) :
    starts (CY g) (CX g) (ix5 b i j k (0 : Fin 2)) = wrapW (Cert.Spec.clampW (tyW g b i j k)) := by
  rw [starts_apply0, wrap_apply, clip_apply, CY_apply]; rfl

theorem start1_apply (k : Fin 9) :
    starts (CY g) (CX g) (ix5 b i j k (1 : Fin 2)) = wrapW (Cert.Spec.clampW (txW g b i j k)) := by
  rw [starts_apply1, wrap_apply, clip_apply, CX_apply]; rfl

/-- An image element named by two row numbers that agree and two column numbers that agree. -/
theorem img_congr (r r' c c' : Nat) (hr : r < 512) (hr' : r' < 512) (hc : c < 512) (hc' : c' < 512) (er : r = r') (ec : c = c') :
    img (ix4 b (0 : Fin 1) (⟨r, hr⟩ : Fin 512) (⟨c, hc⟩ : Fin 512)) = imgb img b ⟨r', hr'⟩ ⟨c', hc'⟩ := by
  subst er ec; rfl

theorem start_lt (t : BitVec 32) : min (wrapW (Cert.Spec.clampW t)).toInt.toNat 511 < 512 := by omega

/-- The gathered value of candidate k. -/
theorem VV_apply (k : Fin 9) :
    VV img g (ix5 b (0 : Fin 1) i j k)
      = imgb img b ⟨_, start_lt (tyW g b i j k)⟩ ⟨_, start_lt (txW g b i j k)⟩ := by
  unfold VV vals
  rw [gather1_apply]
  exact img_congr img b _ _ _ _ _ _ _ _ (by rw [start0_apply]) (by rw [start1_apply])

/-- Candidate k counts in the reference iff it counts in the specification. -/
theorem OK_apply (k : Fin 9) :
    OK img g (ix5 b (0 : Fin 1) i j k) = Cert.Spec.valid (imgb img b) (tyW g b i j k) (txW g b i j k) := by
  unfold OK
  rw [counts_apply, inbAll_apply, CX_apply, CY_apply, VV_apply]
  exact (cand_bridge (imgb img b) (tyW g b i j k) (txW g b i j k) _ _).1

/-- Where candidate k counts, the gathered value is the specification's candidate value. -/
theorem VV_eq_cand (k : Fin 9) (h : Cert.Spec.valid (imgb img b) (tyW g b i j k) (txW g b i j k) = 1#1) :
    VV img g (ix5 b (0 : Fin 1) i j k) = Cert.Spec.cand (imgb img b) (tyW g b i j k) (txW g b i j k) := by
  rw [VV_apply]
  exact (cand_bridge (imgb img b) (tyW g b i j k) (txW g b i j k) _ _).2 h

/-- The position word moved up by 9 when negative: the second gather's start index. -/
def moveW (p : BitVec 32) : BitVec 32 := Scalar.select (IntOp.cmpi .slt p 0#32) (IntOp.addi p 9#32) p

/-- The value the second gather takes, as a function of its start index: the candidate's value at the index read
    signed and clamped into [0, 8], where the index passes the in-range test. -/
def takenOf (t : BitVec 32) : EReal :=
  Scalar.select (IntOp.andi 1#1 (IntOp.andi (IntOp.cmpi .sge t 0#32) (IntOp.cmpi .sle t 8#32)))
    (VV img g (ix5 b (0 : Fin 1) i j (⟨min t.toInt.toNat 8, by omega⟩ : Fin 9)))
    (Ideal.ofBits .f32 0x7FC00000#32)

/-- The same as a function of the position word the arg-max hands it. -/
def takenAt (p : BitVec 32) : EReal := takenOf img g b i j (moveW p)

theorem taken_eq (p : IVec S8x1x1024x1024 32) :
    taken (VV img g) p (ix4 b (0 : Fin 1) i j) = takenAt img g b i j (p (ix4 b (0 : Fin 1) i j)) := by
  have h1 : taken (VV img g) p (ix4 b (0 : Fin 1) i j)
      = takenOf img g b i j (RefTerm.takeIdx p (ix5 b i j (0 : Fin 1) (0 : Fin 1))) := by
    rw [taken_apply, takeOk_apply]; rfl
  exact h1.trans (congrArg (takenOf img g b i j) (takeIdx_apply p b i j))

/-- Words: a position 0 … 8 is not moved, passes the in-range test and is its own start index. -/
theorem pos_word (k : Fin 9) : moveW (BitVec.ofNat 32 k.val) = BitVec.ofNat 32 k.val := by
  revert k; decide
theorem pos_ok (k : Fin 9) :
    IntOp.andi 1#1 (IntOp.andi (IntOp.cmpi .sge (BitVec.ofNat 32 k.val) 0#32) (IntOp.cmpi .sle (BitVec.ofNat 32 k.val) 8#32)) = 1#1 := by
  revert k; decide
theorem pos_start (k : Fin 9) : min (BitVec.ofNat 32 k.val).toInt.toNat 8 = k.val := by
  revert k; decide

/-- At a position 0 … 8 the second gather takes that candidate's value. -/
theorem takenAt_pos (k : Fin 9) : takenAt img g b i j (BitVec.ofNat 32 k.val) = VV img g (ix5 b (0 : Fin 1) i j k) := by
  show takenOf img g b i j (moveW (BitVec.ofNat 32 k.val)) = _
  rw [pos_word k]
  unfold takenOf
  rw [pos_ok k, select_one]
  exact congrArg (fun q => VV img g (ix5 b (0 : Fin 1) i j q)) (Fin.ext (pos_start k))

theorem offs_eq : Cert.Spec.offs = (List.finRange 9).map fun k => (lit0 k, lit1 k) := by decide

theorem pos_sorted : (List.finRange 9).Pairwise (fun a b => (BitVec.ofNat 32 a.val).slt (BitVec.ofNat 32 b.val) = true) := by
  decide
theorem pos_nonneg : ∀ k ∈ List.finRange 9, (0#32).slt (BitVec.ofNat 32 k.val) = true ∨ BitVec.ofNat 32 k.val = 0#32 := by
  decide

/-- The specification's value at the pixel, as the fold over the nine candidates in order that keeps the first value
    that counts. -/
theorem Gat_fold :
    Cert.Spec.Gat img g b i j
      = ((List.finRange 9).foldl (fun (s : EReal × BitVec 1) (k : Fin 9) =>
            ((Scalar.select s.2 s.1 (Scalar.select (Cert.Spec.valid (imgb img b) (tyW g b i j k) (txW g b i j k))
                (Cert.Spec.cand (imgb img b) (tyW g b i j k) (txW g b i j k)) s.1),
              IntOp.ori s.2 (Cert.Spec.valid (imgb img b) (tyW g b i j k) (txW g b i j k))) : EReal × BitVec 1))
          (Ideal.ofBits .f32 0x00000000#32, 0#1)).1 := by
  show (Cert.Spec.offs.foldl (fun s o => Cert.Spec.step (imgb img b)
      (IntOp.addi (Cert.Spec.coordOf (g (ix4 b i j (1 : Fin 2)))) o.1)
      (IntOp.addi (Cert.Spec.coordOf (g (ix4 b i j (0 : Fin 2)))) o.2) s) (Ideal.ofBits .f32 0x00000000#32, 0#1)).1 = _
  rw [offs_eq, List.foldl_map]
  exact congrArg (fun f => ((List.finRange 9).foldl f ((Ideal.ofBits .f32 0x00000000#32, 0#1) : EReal × BitVec 1)).1)
    (funext fun s => funext fun k => rfl)

/-- THE RESULT AT (b, 0, i, j) is the specification's. -/
theorem refOut_at :
    refOut img g (ix4 b (0 : Fin 1) i j) = Cert.Spec.Gat img g b i j := by
  rw [refOut_apply,
    anyOk_apply (OK img g) b i j (fun k => Cert.Spec.valid (imgb img b) (tyW g b i j k) (txW g b i j k)) (OK_apply img g b i j),
    taken_eq,
    first_apply (OK img g) b i j (fun k => Cert.Spec.valid (imgb img b) (tyW g b i j k) (txW g b i j k)) (OK_apply img g b i j),
    Gat_fold]
  exact first_fold (fun k => Cert.Spec.valid (imgb img b) (tyW g b i j k) (txW g b i j k)) (fun k : Fin 9 => BitVec.ofNat 32 k.val)
    (fun k => Cert.Spec.cand (imgb img b) (tyW g b i j k) (txW g b i j k)) (takenAt img g b i j)
    (Ideal.ofBits .f32 0x00000000#32)
    (fun k hk => (takenAt_pos img g b i j k).trans (VV_eq_cand img g b i j k hk)) (List.finRange 9) pos_sorted pos_nonneg

end At

/-- The reference computes the specification. -/
theorem refOut_eq (img : FVec Ideal S8x1x512x512 .f32) (g : FVec Ideal S8x1024x1024x2 .f32) :
    Cert.ReferenceIdeal.RefTerm.refOut (F := Ideal) img g = Cert.Spec.G img g := by
  funext idx
  have e1 : idx 1 = (0 : Fin 1) := Fin.ext (by
    have h1 : (idx 1).val < 1 := (idx 1).isLt
    show (idx 1).val = 0
    omega)
  rw [eq_ix4 idx, e1]
  exact (refOut_at img g (idx 0) (idx 2) (idx 3)).trans (Cert.Spec.G_apply img g (idx 0) (idx 2) (idx 3)).symm

end Cert.ReferenceIdeal.RefRead

end
-- ==== Proof.lean ====
/-
  The kernel and the reference are the same nearest-pixel sampler with a 3×3 repair search (Proof/Spec.lean).

  At the ideal values the kernel picks a row of the image by a matrix product with a one-hot mask and a column by
  a lane sum against a one-hot mask; both are exact selections in the extended reals (0 · x = 0, 1 · x = x), so each
  candidate's value is the image entry the reference gathers, whenever the candidate is in range.  The kernel keeps
  the first candidate that counts by a chain of selects; the reference finds its position by an arg-max over
  (counts, position) pairs and gathers the value there.  Both try the nine candidates in the same order, and both
  give zero when none counts.  No step needs the inputs to be finite.

  The three frames are the generated ones (the reference's from its run); the idealization rewrote nothing.
-/
import proofs.«145129_j67757404062167_2_alg».proof.Defs
import proofs.«145129_j67757404062167_2_alg».proof.Proof.Gen.Kernel
import proofs.«145129_j67757404062167_2_alg».proof.Proof.Gen.Kernel.Frame
import proofs.«145129_j67757404062167_2_alg».proof.Proof.Gen.KernelIdeal
import proofs.«145129_j67757404062167_2_alg».proof.Proof.Gen.KernelIdeal.Frame
import proofs.«145129_j67757404062167_2_alg».proof.Proof.Gen.ReferenceIdeal
import proofs.«145129_j67757404062167_2_alg».proof.Proof.Gen.Pre_finite_inputs
import proofs.«145129_j67757404062167_2_alg».proof.Proof.KerRun
import proofs.«145129_j67757404062167_2_alg».proof.Proof.RefRun
import proofs.«145129_j67757404062167_2_alg».proof.Proof.RefRead
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.RefRun.run (F := Ideal) m ρ)

/-- Both programs end with the sampler's array of the shared arguments. -/
theorem algebraic : Cert.algebraic_KernelIdeal_ReferenceIdeal := by
  intro m ρ m' ρ' _ hagree
  refine ⟨_, Cert.KernelIdeal.KerRun.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact Cert.ReferenceIdeal.RefRead.refOut_eq _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
